-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x1024 : Shape := ⟨2, ![128, 1024]⟩
abbrev S128x243 : Shape := ⟨2, ![128, 243]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1024 : Shape := ⟨1, ![1024]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128x243 : S_.BroadcastsInDim S128x243 (![] : Fin 0 → Fin S128x243.rank)
  reducesTo_S128x243_S_d0_1 : S128x243.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x3 .f32) (main_arg10 : FVec F S3 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg9
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S64 .f32) (main_arg5 : FVec F S64x1 .f32) (main_arg6 : FVec F S1 .f32) (main_arg7 : FVec F S256x128 .f32) (main_arg8 : FVec F S128 .f32) (main_arg9 : FVec F S128x3 .f32) (main_arg10 : FVec F S3 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128 .f32) (main_arg1 : FVec F S128x1024 .f32) (main_arg2 : FVec F S128x243 .f32) (main_arg3 : FVec F S128x64 .f32) (main_arg4 : FVec F S64 .f32) (main_arg5 : FVec F S64x1 .f32) (main_arg6 : FVec F S1 .f32) (main_arg7 : FVec F S256x128 .f32) (main_arg8 : FVec F S128 .f32) (main_arg9 : FVec F S128x3 .f32) (main_arg10 : FVec F S3 .f32) (main_arg11 : IVec S128x243 32) (main_arg12 : IVec S1024 32) (main_arg13 : IVec S128 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x243 .f32 := Host.absf main_arg2
  let main_cst_2 : FVec F S_ .f32 := constant S_ .f32 0x7F800000#32
  let main_v10 : FVec F S128x243 .f32 := broadcastInDim S128x243 ![] bcast_S_S128x243 main_cst_2
  let main_v11 : IVec S128x243 1 := cmpf .olt main_v9 main_v10
  let main_c_3 : IVec S_ 1 := constantI S_ 1 1#1
  let main_v12 : IVec S_ 1 := (fun x v => Host.reduce IntOp.andi x v reducesTo_S128x243_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_v13 main_v16
-- ==== Kernel.lean ====
abbrev S1024x128 : Shape := ⟨2, ![1024, 128]⟩
abbrev S128x1024 : Shape := ⟨2, ![128, 1024]⟩
abbrev S128x243 : Shape := ⟨2, ![128, 243]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1024 : Shape := ⟨1, ![1024]⟩
abbrev S_ : Shape := ⟨0, ![]⟩
abbrev S128x128 : Shape := ⟨2, ![128, 128]⟩
abbrev S1024x1 : Shape := ⟨2, ![1024, 1]⟩
abbrev S1x64 : Shape := ⟨2, ![1, 64]⟩
abbrev S128x1 : Shape := ⟨2, ![128, 1]⟩
abbrev S1x1 : Shape := ⟨2, ![1, 1]⟩
abbrev S1x128 : Shape := ⟨2, ![1, 128]⟩
abbrev S1x3 : Shape := ⟨2, ![1, 3]⟩
abbrev S1024x1024x3 : Shape := ⟨3, ![1024, 1024, 3]⟩
abbrev S64x128 : Shape := ⟨2, ![64, 128]⟩
abbrev S64x128x3 : Shape := ⟨3, ![64, 128, 3]⟩
abbrev S1x1x128 : Shape := ⟨3, ![1, 1, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S8192x3 : Shape := ⟨2, ![8192, 3]⟩
abbrev S1x1x3 : Shape := ⟨3, ![1, 1, 3]⟩
abbrev S64x128x1 : Shape := ⟨3, ![64, 128, 1]⟩
abbrev S3145728 : Shape := ⟨1, ![3145728]⟩
abbrev S243 : Shape := ⟨1, ![243]⟩
abbrev S1x243 : Shape := ⟨2, ![1, 243]⟩
abbrev S128x243x1 : Shape := ⟨3, ![128, 243, 1]⟩
abbrev S1x1x1 : Shape := ⟨3, ![1, 1, 1]⟩

abbrev nBuf : Space → Nat
  | .hbm => 215
  | .vmem => 13
  | .smem => 0
  | _ => 0

abbrev hbmTy0_0 (i : Nat) : BufTy := match i % 128 with
  | 0 => ⟨S1024x128, .f32⟩
  | 1 => ⟨S128x1024, .f32⟩
  | 2 => ⟨S128x243, .f32⟩
  | 3 => ⟨S128x64, .f32⟩
  | 4 => ⟨S64, .f32⟩
  | 5 => ⟨S64x1, .f32⟩
  | 6 => ⟨S1, .f32⟩
  | 7 => ⟨S256x128, .f32⟩
  | 8 => ⟨S128, .f32⟩
  | 9 => ⟨S128x3, .f32⟩
  | 10 => ⟨S3, .f32⟩
  | 11 => ⟨S128x243, .i32⟩
  | 12 => ⟨S1024, .i32⟩
  | 13 => ⟨S128, .i32⟩
  | 14 => ⟨S_, .f32⟩
  | 15 => ⟨S128x128, .f32⟩
  | 16 => ⟨S1024x1, .i32⟩
  | 17 => ⟨S128x128, .f32⟩
  | 18 => ⟨S128x64, .f32⟩
  | 19 => ⟨S1x64, .f32⟩
  | 20 => ⟨S128x64, .f32⟩
  | 21 => ⟨S128x64, .f32⟩
  | 22 => ⟨S_, .f32⟩
  | 23 => ⟨S128x64, .f32⟩
  | 24 => ⟨S128x64, .f32⟩
  | 25 => ⟨S128x1, .f32⟩
  | 26 => ⟨S1x1, .f32⟩
  | 27 => ⟨S128x1, .f32⟩
  | 28 => ⟨S128x1, .f32⟩
  | 29 => ⟨S_, .f32⟩
  | 30 => ⟨S1024x128, .f32⟩
  | 31 => ⟨S1024x128, .f32⟩
  | 32 => ⟨S128x128, .f32⟩
  | 33 => ⟨S1024x128, .f32⟩
  | 34 => ⟨S128x128, .f32⟩
  | 35 => ⟨S1024x128, .f32⟩
  | 36 => ⟨S1024x128, .f32⟩
  | 37 => ⟨S1x128, .f32⟩
  | 38 => ⟨S1x3, .f32⟩
  | 39 => ⟨S1024x1024x3, .f32⟩
  | 40 => ⟨S3145728, .f32⟩
  | 41 => ⟨S_, .i32⟩
  | 42 => ⟨S_, .i32⟩
  | 43 => ⟨S128, .i32⟩
  | 44 => ⟨S128, .i32⟩
  | 45 => ⟨S243, .i32⟩
  | 46 => ⟨S1x243, .i32⟩
  | 47 => ⟨S128x1, .i32⟩
  | 48 => ⟨S128x1, .i32⟩
  | 49 => ⟨S_, .i32⟩
  | 50 => ⟨S128x1, .i32⟩
  | 51 => ⟨S128x1, .i32⟩
  | 52 => ⟨S128x243, .i32⟩
  | 53 => ⟨S128x243, .i32⟩
  | 54 => ⟨S128x243, .i32⟩
  | 55 => ⟨S1x243, .i32⟩
  | 56 => ⟨S128x1, .i32⟩
  | 57 => ⟨S128x243, .i32⟩
  | 58 => ⟨S128x243, .i32⟩
  | 59 => ⟨S128x243, .i1⟩
  | 60 => ⟨S128x243, .i32⟩
  | 61 => ⟨S128x243, .i32⟩
  | 62 => ⟨S128x243, .i32⟩
  | 63 => ⟨S_, .i32⟩
  | 64 => ⟨S128x243, .i32⟩
  | 65 => ⟨S128x243, .i1⟩
  | 66 => ⟨S128x243, .i1⟩
  | 67 => ⟨S_, .i32⟩
  | 68 => ⟨S128x243, .i32⟩
  | 69 => ⟨S128x243, .i32⟩
  | 70 => ⟨S128x243, .i32⟩
  | 71 => ⟨S_, .i32⟩
  | 72 => ⟨S128x1, .i32⟩
  | 73 => ⟨S128x1, .i32⟩
  | 74 => ⟨S_, .i32⟩
  | 75 => ⟨S128x1, .i32⟩
  | 76 => ⟨S128x1, .i1⟩
  | 77 => ⟨S_, .i32⟩
  | 78 => ⟨S128x1, .i32⟩
  | 79 => ⟨S128x1, .i32⟩
  | 80 => ⟨S128x243, .i32⟩
  | 81 => ⟨S128x243, .i32⟩
  | 82 => ⟨S128x243, .i32⟩
  | 83 => ⟨S_, .i32⟩
  | 84 => ⟨S128x243, .i32⟩
  | 85 => ⟨S128x243, .i1⟩
  | 86 => ⟨S_, .i32⟩
  | 87 => ⟨S128x243, .i32⟩
  | 88 => ⟨S128x243, .i1⟩
  | 89 => ⟨S_, .i32⟩
  | 90 => ⟨S128x1, .i32⟩
  | 91 => ⟨S128x1, .i1⟩
  | 92 => ⟨S128x243, .i1⟩
  | 93 => ⟨S128x243, .i1⟩
  | 94 => ⟨S128x243, .i1⟩
  | 95 => ⟨S128x243, .i32⟩
  | 96 => ⟨S128x243, .i32⟩
  | 97 => ⟨S128x243, .i32⟩
  | 98 => ⟨S_, .i32⟩
  | 99 => ⟨S_, .i32⟩
  | 100 => ⟨S128x243, .i32⟩
  | 101 => ⟨S128x243, .i32⟩
  | 102 => ⟨S128x243, .i32⟩
  | 103 => ⟨S_, .i32⟩
  | 104 => ⟨S128x243, .i32⟩
  | 105 => ⟨S128x243, .i1⟩
  | 106 => ⟨S128x243, .i32⟩
  | 107 => ⟨S128x243, .i32⟩
  | 108 => ⟨S_, .i32⟩
  | 109 => ⟨S128x243, .i32⟩
  | 110 => ⟨S128x243, .i1⟩
  | 111 => ⟨S128x243, .i1⟩
  | 112 => ⟨S_, .i32⟩
  | 113 => ⟨S128x243, .i32⟩
  | 114 => ⟨S128x243, .i32⟩
  | 115 => ⟨S128x243, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S1x243, .i32⟩
  | 123 => ⟨S1x243, .i32⟩
  | 124 => ⟨S_, .i32⟩
  | 125 => ⟨S1x243, .i32⟩
  | 126 => ⟨S1x243, .i1⟩
  | 127 => ⟨S_, .i32⟩
  | _ => ⟨S1024x128, .f32⟩

abbrev hbmTy0_1 (i : Nat) : BufTy := match i % 128 with
  | 0 => ⟨S1x243, .i32⟩
  | 1 => ⟨S1x243, .i1⟩
  | 2 => ⟨S_, .i32⟩
  | 3 => ⟨S_, .i1⟩
  | 4 => ⟨S1x243, .i1⟩
  | 5 => ⟨S1x243, .i1⟩
  | 6 => ⟨S1x243, .i1⟩
  | 7 => ⟨S1x243, .i32⟩
  | 8 => ⟨S1x243, .i32⟩
  | 9 => ⟨S1x243, .i32⟩
  | 10 => ⟨S128x1, .i32⟩
  | 11 => ⟨S_, .i32⟩
  | 12 => ⟨S128x1, .i32⟩
  | 13 => ⟨S128x1, .i32⟩
  | 14 => ⟨S128x243, .i32⟩
  | 15 => ⟨S128x243, .i32⟩
  | 16 => ⟨S128x243, .i1⟩
  | 17 => ⟨S128x243, .i32⟩
  | 18 => ⟨S128x243, .i32⟩
  | 19 => ⟨S_, .i32⟩
  | 20 => ⟨S128x243, .i32⟩
  | 21 => ⟨S128x243, .i32⟩
  | 22 => ⟨S128x243, .i32⟩
  | 23 => ⟨S128x243, .i32⟩
  | 24 => ⟨S128x243, .i32⟩
  | 25 => ⟨S_, .i32⟩
  | 26 => ⟨S128x243, .i32⟩
  | 27 => ⟨S128x243, .i32⟩
  | 28 => ⟨S128x243, .i32⟩
  | 29 => ⟨S128x243, .i32⟩
  | 30 => ⟨S_, .i32⟩
  | 31 => ⟨S_, .i32⟩
  | 32 => ⟨S_, .i32⟩
  | 33 => ⟨S128x243, .i32⟩
  | 34 => ⟨S128x243, .i32⟩
  | 35 => ⟨S_, .i32⟩
  | 36 => ⟨S128x243, .i32⟩
  | 37 => ⟨S128x243, .i32⟩
  | 38 => ⟨S_, .i32⟩
  | 39 => ⟨S128x243, .i32⟩
  | 40 => ⟨S128x243, .i1⟩
  | 41 => ⟨S_, .i32⟩
  | 42 => ⟨S128x243, .i32⟩
  | 43 => ⟨S128x243, .i32⟩
  | 44 => ⟨S128x243, .i32⟩
  | 45 => ⟨S128x243x1, .i32⟩
  | 46 => ⟨S128x243, .f32⟩
  | 47 => ⟨S_, .f32⟩
  | 48 => ⟨S128x243, .f32⟩
  | 49 => ⟨S128x243, .f32⟩
  | 50 => ⟨S_, .i32⟩
  | 51 => ⟨S128x243, .i32⟩
  | 52 => ⟨S128x243, .i1⟩
  | 53 => ⟨S_, .i32⟩
  | 54 => ⟨S128x243, .i32⟩
  | 55 => ⟨S128x243, .i32⟩
  | 56 => ⟨S128x243, .i32⟩
  | 57 => ⟨S128x243x1, .i32⟩
  | 58 => ⟨S1, .i32⟩
  | 59 => ⟨S_, .i32⟩
  | 60 => ⟨S128x243x1, .i32⟩
  | 61 => ⟨S128x243x1, .i1⟩
  | 62 => ⟨S1x1x1, .i32⟩
  | 63 => ⟨S128x243x1, .i32⟩
  | 64 => ⟨S128x243x1, .i1⟩
  | 65 => ⟨S128x243x1, .i1⟩
  | 66 => ⟨S_, .i1⟩
  | 67 => ⟨S128x243, .i1⟩
  | 68 => ⟨S128x243, .f32⟩
  | 69 => ⟨S_, .f32⟩
  | 70 => ⟨S128x243, .f32⟩
  | 71 => ⟨S128x243, .f32⟩
  | 72 => ⟨S128x243, .f32⟩
  | 73 => ⟨S_, .f32⟩
  | 74 => ⟨S128, .f32⟩
  | 75 => ⟨S_, .f32⟩
  | 76 => ⟨S128, .f32⟩
  | 77 => ⟨S128, .f32⟩
  | 78 => ⟨S128x1, .f32⟩
  | 79 => ⟨S128x243, .f32⟩
  | 80 => ⟨S128x243, .f32⟩
  | 81 => ⟨S128x243, .f32⟩
  | 82 => ⟨S_, .f32⟩
  | 83 => ⟨S128, .f32⟩
  | 84 => ⟨S128x1, .f32⟩
  | 85 => ⟨S128x243, .f32⟩
  | 86 => ⟨S128x243, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S64x128, .f32⟩
  | .local _ .vmem, ⟨5, _⟩ => ⟨S64x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x3, .f32⟩
  | .local _ .vmem, ⟨10, _⟩ => ⟨S1x3, .f32⟩
  | .local _ .vmem, ⟨11, _⟩ => ⟨S64x128x3, .f32⟩
  | .local _ .vmem, ⟨12, _⟩ => ⟨S64x128x3, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_call0_c : Ref sig .tc := ⟨.hbm, 41, rfl⟩
abbrev main_call2_call0_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_c : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_c_0 : Ref sig .tc := ⟨.hbm, 67, rfl⟩
abbrev main_call3_v14 : Ref sig .tc := ⟨.hbm, 68, rfl⟩
abbrev main_call3_v15 : Ref sig .tc := ⟨.hbm, 69, rfl⟩
abbrev main_v30 : Ref sig .tc := ⟨.hbm, 70, rfl⟩
abbrev main_c_0 : Ref sig .tc := ⟨.hbm, 71, rfl⟩
abbrev main_v31 : Ref sig .tc := ⟨.hbm, 72, rfl⟩
abbrev main_v32 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_c_1 : Ref sig .tc := ⟨.hbm, 83, rfl⟩
abbrev main_call4_v7 : Ref sig .tc := ⟨.hbm, 84, rfl⟩
abbrev main_call4_v8 : Ref sig .tc := ⟨.hbm, 85, rfl⟩
abbrev main_call4_c_2 : Ref sig .tc := ⟨.hbm, 86, rfl⟩
abbrev main_call4_v9 : Ref sig .tc := ⟨.hbm, 87, rfl⟩
abbrev main_call4_v10 : Ref sig .tc := ⟨.hbm, 88, rfl⟩
abbrev main_call4_c_3 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_v14 : Ref sig .tc := ⟨.hbm, 93, rfl⟩
abbrev main_call4_v15 : Ref sig .tc := ⟨.hbm, 94, rfl⟩
abbrev main_call4_v16 : Ref sig .tc := ⟨.hbm, 95, rfl⟩
abbrev main_call4_v17 : Ref sig .tc := ⟨.hbm, 96, rfl⟩
abbrev main_v33 : Ref sig .tc := ⟨.hbm, 97, rfl⟩
abbrev main_c_1 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_c : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_c_0 : Ref sig .tc := ⟨.hbm, 112, rfl⟩
abbrev main_call5_v12 : Ref sig .tc := ⟨.hbm, 113, rfl⟩
abbrev main_call5_v13 : Ref sig .tc := ⟨.hbm, 114, rfl⟩
abbrev main_v34 : Ref sig .tc := ⟨.hbm, 115, rfl⟩
abbrev main_c_2 : Ref sig .tc := ⟨.hbm, 116, rfl⟩
abbrev main_call6_v0 : Ref sig .tc := ⟨.hbm, 117, rfl⟩
abbrev main_call6_c : Ref sig .tc := ⟨.hbm, 118, rfl⟩
abbrev main_call6_v1 : Ref sig .tc := ⟨.hbm, 119, rfl⟩
abbrev main_call6_c_0 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_c_1 : Ref sig .tc := ⟨.hbm, 124, rfl⟩
abbrev main_call6_v5 : Ref sig .tc := ⟨.hbm, 125, rfl⟩
abbrev main_call6_v6 : Ref sig .tc := ⟨.hbm, 126, rfl⟩
abbrev main_call6_c_2 : Ref sig .tc := ⟨.hbm, 127, rfl⟩
abbrev main_call6_v7 : Ref sig .tc := ⟨.hbm, 128, rfl⟩
abbrev main_call6_v8 : Ref sig .tc := ⟨.hbm, 129, rfl⟩
abbrev main_call6_c_3 : Ref sig .tc := ⟨.hbm, 130, rfl⟩
abbrev main_call6_v9 : Ref sig .tc := ⟨.hbm, 131, rfl⟩
abbrev main_call6_v10 : Ref sig .tc := ⟨.hbm, 132, rfl⟩
abbrev main_call6_v11 : Ref sig .tc := ⟨.hbm, 133, rfl⟩
abbrev main_call6_v12 : Ref sig .tc := ⟨.hbm, 134, rfl⟩
abbrev main_call6_v13 : Ref sig .tc := ⟨.hbm, 135, rfl⟩
abbrev main_call6_v14 : Ref sig .tc := ⟨.hbm, 136, rfl⟩
abbrev main_v35 : Ref sig .tc := ⟨.hbm, 137, rfl⟩
abbrev main_v36 : Ref sig .tc := ⟨.hbm, 138, rfl⟩
abbrev main_c_3 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_c_4 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_c_5 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_c_6 : Ref sig .tc := ⟨.hbm, 158, rfl⟩
abbrev main_c_7 : Ref sig .tc := ⟨.hbm, 159, rfl⟩
abbrev main_call7_v0 : Ref sig .tc := ⟨.hbm, 160, rfl⟩
abbrev main_call7_v1 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_v53 : Ref sig .tc := ⟨.hbm, 165, rfl⟩
abbrev main_c_8 : Ref sig .tc := ⟨.hbm, 166, rfl⟩
abbrev main_v54 : Ref sig .tc := ⟨.hbm, 167, rfl⟩
abbrev main_v55 : Ref sig .tc := ⟨.hbm, 168, rfl⟩
abbrev main_c_9 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_cst_10 : Ref sig .tc := ⟨.hbm, 175, rfl⟩
abbrev main_call8_v0 : Ref sig .tc := ⟨.hbm, 176, rfl⟩
abbrev main_v61 : Ref sig .tc := ⟨.hbm, 177, rfl⟩
abbrev main_call9_c : Ref sig .tc := ⟨.hbm, 178, rfl⟩
abbrev main_call9_v0 : Ref sig .tc := ⟨.hbm, 179, rfl⟩
abbrev main_call9_v1 : Ref sig .tc := ⟨.hbm, 180, rfl⟩
abbrev main_call9_c_0 : Ref sig .tc := ⟨.hbm, 181, rfl⟩
abbrev main_call9_v2 : Ref sig .tc := ⟨.hbm, 182, rfl⟩
abbrev main_call9_v3 : Ref sig .tc := ⟨.hbm, 183, rfl⟩
abbrev main_call9_v4 : Ref sig .tc := ⟨.hbm, 184, rfl⟩
abbrev main_call9_v5 : Ref sig .tc := ⟨.hbm, 185, rfl⟩
abbrev main_call9_c_1 : Ref sig .tc := ⟨.hbm, 186, rfl⟩
abbrev main_call9_c_2 : Ref sig .tc := ⟨.hbm, 187, rfl⟩
abbrev main_call9_v6 : Ref sig .tc := ⟨.hbm, 188, rfl⟩
abbrev main_call9_v7 : Ref sig .tc := ⟨.hbm, 189, rfl⟩
abbrev main_call9_v8 : Ref sig .tc := ⟨.hbm, 190, rfl⟩
abbrev main_call9_v9 : Ref sig .tc := ⟨.hbm, 191, rfl⟩
abbrev main_call9_v10 : Ref sig .tc := ⟨.hbm, 192, rfl⟩
abbrev main_call9_v11 : Ref sig .tc := ⟨.hbm, 193, rfl⟩
abbrev main_call9_c_3 : Ref sig .tc := ⟨.hbm, 194, rfl⟩
abbrev main_call9_v12 : Ref sig .tc := ⟨.hbm, 195, rfl⟩
abbrev main_call9_v13 : Ref sig .tc := ⟨.hbm, 196, rfl⟩
abbrev main_call9_cst : Ref sig .tc := ⟨.hbm, 197, rfl⟩
abbrev main_call9_v14 : Ref sig .tc := ⟨.hbm, 198, rfl⟩
abbrev main_v62 : Ref sig .tc := ⟨.hbm, 199, rfl⟩
abbrev main_v63 : Ref sig .tc := ⟨.hbm, 200, rfl⟩
abbrev main_cst_11 : Ref sig .tc := ⟨.hbm, 201, rfl⟩
abbrev main_v64 : Ref sig .tc := ⟨.hbm, 202, rfl⟩
abbrev main_cst_12 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_v70 : Ref sig .tc := ⟨.hbm, 209, rfl⟩
abbrev main_cst_13 : Ref sig .tc := ⟨.hbm, 210, rfl⟩
abbrev main_v71 : Ref sig .tc := ⟨.hbm, 211, rfl⟩
abbrev main_v72 : Ref sig .tc := ⟨.hbm, 212, rfl⟩
abbrev main_v73 : Ref sig .tc := ⟨.hbm, 213, rfl⟩
abbrev main_v74 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x128x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S128x128 : S_.BroadcastsInDim S128x128 (![] : Fin 0 → Fin S128x128.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S1024x128 : S_.BroadcastsInDim S1024x128 (![] : Fin 0 → Fin S1024x128.rank)
  slices_S256x128_S128x128_0_0 : S256x128.Slices ![0, 0] S128x128
  slices_S256x128_S128x128_128_0 : S256x128.Slices ![128, 0] S128x128
  transposes_S128x1024_S1024x128_1_0 : S128x1024.Transposes [1, 0] S1024x128
  shapeCasts_S128_S1x128 : S128.ShapeCasts S1x128
  shapeCasts_S3_S1x3 : S3.ShapeCasts S1x3
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  broadcasts_S1x1x128_S64x128x128 : S1x1x128.Broadcasts S64x128x128
  bitsLt_bf16_f32 : FTy.bits .bf16 < FTy.bits .f32
  shapeCasts_S64x128x128_S8192x128 : S64x128x128.ShapeCasts S8192x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S1x3_S3 : S1x3.ShapeCasts S3
  shapeCasts_S8192x3_S64x128x3 : S8192x3.ShapeCasts S64x128x3
  shapeCasts_S3_S1x1x3 : S3.ShapeCasts S1x1x3
  broadcasts_S1x1x3_S64x128x3 : S1x1x3.Broadcasts S64x128x3
  transposes_S128x128_p1_0_S128x128 : S128x128.Transposes [1, 0] S128x128
  shapeCasts_S64x128_S64x128x1 : S64x128.ShapeCasts S64x128x1
  broadcasts_S64x128x1_S64x128x3 : S64x128x1.Broadcasts S64x128x3
  inb_S64x128x3_S64x128x3_0_0_0 : ∀ a, (![0, 0, 0] : Fin 3 → Nat) a + S64x128x3.size a ≤ S64x128x3.size a
  h_S64x128x3 : 0 < S64x128x3.numel
  shapeCasts_S1024x1024x3_S3145728 : S1024x1024x3.ShapeCasts S3145728
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S243_S1x243_1 : S243.BroadcastsInDim S1x243 (![1] : Fin 1 → Fin S1x243.rank)
  bcast_S128_S128x1_0 : S128.BroadcastsInDim S128x1 (![0] : Fin 1 → Fin S128x1.rank)
  bcast_S_S128x1 : S_.BroadcastsInDim S128x1 (![] : Fin 0 → Fin S128x1.rank)
  bcast_S1x243_S128x243_0_1 : S1x243.BroadcastsInDim S128x243 (![0, 1] : Fin 2 → Fin S128x243.rank)
  bcast_S128x1_S128x243_0_1 : S128x1.BroadcastsInDim S128x243 (![0, 1] : Fin 2 → Fin S128x243.rank)
  bcast_S_S128x243 : S_.BroadcastsInDim S128x243 (![] : Fin 0 → Fin S128x243.rank)
  bcast_S_S1x243 : S_.BroadcastsInDim S1x243 (![] : Fin 0 → Fin S1x243.rank)
  bcast_S128x243_S128x243x1_0_1 : S128x243.BroadcastsInDim S128x243x1 (![0, 1] : Fin 2 → Fin S128x243x1.rank)
  shapeCasts_S128x243_S128x243x1 : S128x243.ShapeCasts S128x243x1
  bcast_S_S128x243x1 : S_.BroadcastsInDim S128x243x1 (![] : Fin 0 → Fin S128x243x1.rank)
  bcast_S1_S1x1x1_2 : S1.BroadcastsInDim S1x1x1 (![2] : Fin 1 → Fin S1x1x1.rank)
  bcast_S1x1x1_S128x243x1_0_1_2 : S1x1x1.BroadcastsInDim S128x243x1 (![0, 1, 2] : Fin 3 → Fin S128x243x1.rank)
  reducesTo_S128x243x1_S128x243_d2 : S128x243x1.ReducesTo [2] S128x243
  reducesTo_S128x243_S128_d1 : S128x243.ReducesTo [1] S128
  bcast_S_S128 : S_.BroadcastsInDim S128 (![] : Fin 0 → Fin S128.rank)
  scatter_S128x128_S1024x1_S1024x128_1_0_0_1_wf : ScatterDims.WF S128x128 S1024x1 S1024x128 [1] [0] [0] 1
  dot_S128x128_S128x64_S128x64_1_0_0_1_n_n_wf : DotDims.WF S128x128 S128x64 S128x64 [1] [0] [0] [1] [] []
  dot_S128x64_S64x1_S128x1_1_0_0_1_n_n_wf : DotDims.WF S128x64 S64x1 S128x1 [1] [0] [0] [1] [] []
  dot_S1024x128_S128x128_S1024x128_1_0_0_1_n_n_wf : DotDims.WF S1024x128 S128x128 S1024x128 [1] [0] [0] [1] [] []
  dot_S8192x128_S128x3_S8192x3_1_0_0_1_n_n_wf : DotDims.WF S8192x128 S128x3 S8192x3 [1] [0] [0] [1] [] []
  dot_S64x128_S128x128_S64x128_1_0_0_1_n_n_wf : DotDims.WF S64x128 S128x128 S64x128 [1] [0] [0] [1] [] []
  gather_S3145728_S128x243x1_S128x243_n_0_n_n_0_2_1_wf : GatherDims.WF S3145728 S128x243x1 S128x243 [] [0] [] [0] [] 2 ![1]
  gather_S128x243_S128x243x1_S128x243_n_1_0_0_1_2_11_wf : GatherDims.WF S128x243 S128x243x1 S128x243 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x128.size a
  hwx0_0 : ∀ i : grid0.Coords, EltTy.bits .f32 = 32 ∨ (Rect.block (s := S1024x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S1024x128.size a
  hwx0_2 : ∀ i : grid0.Coords, EltTy.bits .f32 = 32 ∨ (Rect.block (s := S1024x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x128.size a
  hwx0_3 : ∀ i : grid0.Coords, EltTy.bits .f32 = 32 ∨ (Rect.block (s := S1024x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x3.size a ≤ S128x3.size a
  hwx0_5 : ∀ i : grid0.Coords, EltTy.bits .f32 = 32 ∨ (Rect.block (s := S128x3) S128x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128x3.size a ≤ S1024x1024x3.size a
  hwx0_7 : ∀ i : grid0.Coords, EltTy.bits .f32 = 32 ∨ (Rect.block (s := S1024x1024x3) S64x128x3.size (cc0_transform_7 i) (hinb0_7 i)).WholeWords (EltTy.packing .f32)

variable [Facts₀]

def scatter_S128x128_S1024x1_S1024x128_1_0_0_1 : ScatterDims S128x128 S1024x1 S1024x128 where
  updateWindowDims := [1]
  insertedWindowDims := [0]
  scatterDimsToOperandDims := [0]
  indexVectorDim := 1
  wf := scatter_S128x128_S1024x1_S1024x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S3145728_S128x243x1_S128x243_n_0_n_n_0_2_1 : GatherDims S3145728 S128x243x1 S128x243 where
  offsetDims := []
  collapsedSliceDims := [0]
  operandBatchingDims := []
  startIndicesBatchingDims := []
  startIndexMap := [0]
  indexVectorDim := 2
  sliceSizes := ![1]
  wf := gather_S3145728_S128x243x1_S128x243_n_0_n_n_0_2_1_wf
def gather_S128x243_S128x243x1_S128x243_n_1_0_0_1_2_11 : GatherDims S128x243 S128x243x1 S128x243 where
  offsetDims := []
  collapsedSliceDims := [1]
  operandBatchingDims := [0]
  startIndicesBatchingDims := [0]
  startIndexMap := [1]
  indexVectorDim := 2
  sliceSizes := ![1, 1]
  wf := gather_S128x243_S128x243x1_S128x243_n_1_0_0_1_2_11_wf

abbrev win0_0 : Pipeline.Window sig grid0 :=
  Pipeline.Window.ofSpec (Memref.whole main_v14) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S64x128x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x1024 : Shape := ⟨2, ![128, 1024]⟩
abbrev S128x243 : Shape := ⟨2, ![128, 243]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1024 : Shape := ⟨1, ![1024]⟩
abbrev S_ : Shape := ⟨0, ![]⟩
abbrev S128x128 : Shape := ⟨2, ![128, 128]⟩
abbrev S1024x1 : Shape := ⟨2, ![1024, 1]⟩
abbrev S1x64 : Shape := ⟨2, ![1, 64]⟩
abbrev S128x1 : Shape := ⟨2, ![128, 1]⟩
abbrev S1x1 : Shape := ⟨2, ![1, 1]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1x1x128 : Shape := ⟨3, ![1, 1, 128]⟩
abbrev S1024x1024 : Shape := ⟨2, ![1024, 1024]⟩
abbrev S1024x1024x1 : Shape := ⟨3, ![1024, 1024, 1]⟩
abbrev S1024x1024x3 : Shape := ⟨3, ![1024, 1024, 3]⟩
abbrev S1x1x3 : Shape := ⟨3, ![1, 1, 3]⟩
abbrev S3145728 : Shape := ⟨1, ![3145728]⟩
abbrev S243 : Shape := ⟨1, ![243]⟩
abbrev S1x243 : Shape := ⟨2, ![1, 243]⟩
abbrev S128x243x1 : Shape := ⟨3, ![128, 243, 1]⟩
abbrev S1x1x1 : Shape := ⟨3, ![1, 1, 1]⟩

abbrev nBuf : Space → Nat
  | .hbm => 231
  | .vmem => 0
  | .smem => 0
  | _ => 0

abbrev hbmTy0_0 (i : Nat) : BufTy := match i % 128 with
  | 0 => ⟨S1024x128, .f32⟩
  | 1 => ⟨S128x1024, .f32⟩
  | 2 => ⟨S128x243, .f32⟩
  | 3 => ⟨S128x64, .f32⟩
  | 4 => ⟨S64, .f32⟩
  | 5 => ⟨S64x1, .f32⟩
  | 6 => ⟨S1, .f32⟩
  | 7 => ⟨S256x128, .f32⟩
  | 8 => ⟨S128, .f32⟩
  | 9 => ⟨S128x3, .f32⟩
  | 10 => ⟨S3, .f32⟩
  | 11 => ⟨S128x243, .i32⟩
  | 12 => ⟨S1024, .i32⟩
  | 13 => ⟨S128, .i32⟩
  | 14 => ⟨S_, .f32⟩
  | 15 => ⟨S128x128, .f32⟩
  | 16 => ⟨S1024x1, .i32⟩
  | 17 => ⟨S128x128, .f32⟩
  | 18 => ⟨S128x64, .f32⟩
  | 19 => ⟨S1x64, .f32⟩
  | 20 => ⟨S128x64, .f32⟩
  | 21 => ⟨S128x64, .f32⟩
  | 22 => ⟨S_, .f32⟩
  | 23 => ⟨S128x64, .f32⟩
  | 24 => ⟨S128x64, .f32⟩
  | 25 => ⟨S128x1, .f32⟩
  | 26 => ⟨S1x1, .f32⟩
  | 27 => ⟨S128x1, .f32⟩
  | 28 => ⟨S128x1, .f32⟩
  | 29 => ⟨S_, .f32⟩
  | 30 => ⟨S1024x128, .f32⟩
  | 31 => ⟨S1024x128, .f32⟩
  | 32 => ⟨S128x128, .f32⟩
  | 33 => ⟨S1024x128, .f32⟩
  | 34 => ⟨S128x128, .f32⟩
  | 35 => ⟨S1024x128, .f32⟩
  | 36 => ⟨S1024x1x128, .f32⟩
  | 37 => ⟨S1x1024x128, .f32⟩
  | 38 => ⟨S1024x1024x128, .f32⟩
  | 39 => ⟨S1024x1024x128, .f32⟩
  | 40 => ⟨S1024x1024x128, .f32⟩
  | 41 => ⟨S1x1x128, .f32⟩
  | 42 => ⟨S1024x1024x128, .f32⟩
  | 43 => ⟨S1024x1024x128, .f32⟩
  | 44 => ⟨S_, .f32⟩
  | 45 => ⟨S1024x1024x128, .f32⟩
  | 46 => ⟨S1024x1024x128, .f32⟩
  | 47 => ⟨S1024x128, .f32⟩
  | 48 => ⟨S1024x1024, .f32⟩
  | 49 => ⟨S1024x1024x1, .f32⟩
  | 50 => ⟨S1024x1024x3, .f32⟩
  | 51 => ⟨S1x1x3, .f32⟩
  | 52 => ⟨S1024x1024x3, .f32⟩
  | 53 => ⟨S1024x1024x3, .f32⟩
  | 54 => ⟨S1024x1024x3, .f32⟩
  | 55 => ⟨S1024x1024x3, .f32⟩
  | 56 => ⟨S3145728, .f32⟩
  | 57 => ⟨S_, .i32⟩
  | 58 => ⟨S_, .i32⟩
  | 59 => ⟨S128, .i32⟩
  | 60 => ⟨S128, .i32⟩
  | 61 => ⟨S243, .i32⟩
  | 62 => ⟨S1x243, .i32⟩
  | 63 => ⟨S128x1, .i32⟩
  | 64 => ⟨S128x1, .i32⟩
  | 65 => ⟨S_, .i32⟩
  | 66 => ⟨S128x1, .i32⟩
  | 67 => ⟨S128x1, .i32⟩
  | 68 => ⟨S128x243, .i32⟩
  | 69 => ⟨S128x243, .i32⟩
  | 70 => ⟨S128x243, .i32⟩
  | 71 => ⟨S1x243, .i32⟩
  | 72 => ⟨S128x1, .i32⟩
  | 73 => ⟨S128x243, .i32⟩
  | 74 => ⟨S128x243, .i32⟩
  | 75 => ⟨S128x243, .i1⟩
  | 76 => ⟨S128x243, .i32⟩
  | 77 => ⟨S128x243, .i32⟩
  | 78 => ⟨S128x243, .i32⟩
  | 79 => ⟨S_, .i32⟩
  | 80 => ⟨S128x243, .i32⟩
  | 81 => ⟨S128x243, .i1⟩
  | 82 => ⟨S128x243, .i1⟩
  | 83 => ⟨S_, .i32⟩
  | 84 => ⟨S128x243, .i32⟩
  | 85 => ⟨S128x243, .i32⟩
  | 86 => ⟨S128x243, .i32⟩
  | 87 => ⟨S_, .i32⟩
  | 88 => ⟨S128x1, .i32⟩
  | 89 => ⟨S128x1, .i32⟩
  | 90 => ⟨S_, .i32⟩
  | 91 => ⟨S128x1, .i32⟩
  | 92 => ⟨S128x1, .i1⟩
  | 93 => ⟨S_, .i32⟩
  | 94 => ⟨S128x1, .i32⟩
  | 95 => ⟨S128x1, .i32⟩
  | 96 => ⟨S128x243, .i32⟩
  | 97 => ⟨S128x243, .i32⟩
  | 98 => ⟨S128x243, .i32⟩
  | 99 => ⟨S_, .i32⟩
  | 100 => ⟨S128x243, .i32⟩
  | 101 => ⟨S128x243, .i1⟩
  | 102 => ⟨S_, .i32⟩
  | 103 => ⟨S128x243, .i32⟩
  | 104 => ⟨S128x243, .i1⟩
  | 105 => ⟨S_, .i32⟩
  | 106 => ⟨S128x1, .i32⟩
  | 107 => ⟨S128x1, .i1⟩
  | 108 => ⟨S128x243, .i1⟩
  | 109 => ⟨S128x243, .i1⟩
  | 110 => ⟨S128x243, .i1⟩
  | 111 => ⟨S128x243, .i32⟩
  | 112 => ⟨S128x243, .i32⟩
  | 113 => ⟨S128x243, .i32⟩
  | 114 => ⟨S_, .i32⟩
  | 115 => ⟨S_, .i32⟩
  | 116 => ⟨S128x243, .i32⟩
  | 117 => ⟨S128x243, .i32⟩
  | 118 => ⟨S128x243, .i32⟩
  | 119 => ⟨S_, .i32⟩
  | 120 => ⟨S128x243, .i32⟩
  | 121 => ⟨S128x243, .i1⟩
  | 122 => ⟨S128x243, .i32⟩
  | 123 => ⟨S128x243, .i32⟩
  | 124 => ⟨S_, .i32⟩
  | 125 => ⟨S128x243, .i32⟩
  | 126 => ⟨S128x243, .i1⟩
  | 127 => ⟨S128x243, .i1⟩
  | _ => ⟨S1024x128, .f32⟩

abbrev hbmTy0_1 (i : Nat) : BufTy := match i % 128 with
  | 0 => ⟨S_, .i32⟩
  | 1 => ⟨S128x243, .i32⟩
  | 2 => ⟨S128x243, .i32⟩
  | 3 => ⟨S128x243, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S1x243, .i32⟩
  | 11 => ⟨S1x243, .i32⟩
  | 12 => ⟨S_, .i32⟩
  | 13 => ⟨S1x243, .i32⟩
  | 14 => ⟨S1x243, .i1⟩
  | 15 => ⟨S_, .i32⟩
  | 16 => ⟨S1x243, .i32⟩
  | 17 => ⟨S1x243, .i1⟩
  | 18 => ⟨S_, .i32⟩
  | 19 => ⟨S_, .i1⟩
  | 20 => ⟨S1x243, .i1⟩
  | 21 => ⟨S1x243, .i1⟩
  | 22 => ⟨S1x243, .i1⟩
  | 23 => ⟨S1x243, .i32⟩
  | 24 => ⟨S1x243, .i32⟩
  | 25 => ⟨S1x243, .i32⟩
  | 26 => ⟨S128x1, .i32⟩
  | 27 => ⟨S_, .i32⟩
  | 28 => ⟨S128x1, .i32⟩
  | 29 => ⟨S128x1, .i32⟩
  | 30 => ⟨S128x243, .i32⟩
  | 31 => ⟨S128x243, .i32⟩
  | 32 => ⟨S128x243, .i1⟩
  | 33 => ⟨S128x243, .i32⟩
  | 34 => ⟨S128x243, .i32⟩
  | 35 => ⟨S_, .i32⟩
  | 36 => ⟨S128x243, .i32⟩
  | 37 => ⟨S128x243, .i32⟩
  | 38 => ⟨S128x243, .i32⟩
  | 39 => ⟨S128x243, .i32⟩
  | 40 => ⟨S128x243, .i32⟩
  | 41 => ⟨S_, .i32⟩
  | 42 => ⟨S128x243, .i32⟩
  | 43 => ⟨S128x243, .i32⟩
  | 44 => ⟨S128x243, .i32⟩
  | 45 => ⟨S128x243, .i32⟩
  | 46 => ⟨S_, .i32⟩
  | 47 => ⟨S_, .i32⟩
  | 48 => ⟨S_, .i32⟩
  | 49 => ⟨S128x243, .i32⟩
  | 50 => ⟨S128x243, .i32⟩
  | 51 => ⟨S_, .i32⟩
  | 52 => ⟨S128x243, .i32⟩
  | 53 => ⟨S128x243, .i32⟩
  | 54 => ⟨S_, .i32⟩
  | 55 => ⟨S128x243, .i32⟩
  | 56 => ⟨S128x243, .i1⟩
  | 57 => ⟨S_, .i32⟩
  | 58 => ⟨S128x243, .i32⟩
  | 59 => ⟨S128x243, .i32⟩
  | 60 => ⟨S128x243, .i32⟩
  | 61 => ⟨S128x243x1, .i32⟩
  | 62 => ⟨S128x243, .f32⟩
  | 63 => ⟨S_, .f32⟩
  | 64 => ⟨S128x243, .f32⟩
  | 65 => ⟨S128x243, .f32⟩
  | 66 => ⟨S_, .i32⟩
  | 67 => ⟨S128x243, .i32⟩
  | 68 => ⟨S128x243, .i1⟩
  | 69 => ⟨S_, .i32⟩
  | 70 => ⟨S128x243, .i32⟩
  | 71 => ⟨S128x243, .i32⟩
  | 72 => ⟨S128x243, .i32⟩
  | 73 => ⟨S128x243x1, .i32⟩
  | 74 => ⟨S1, .i32⟩
  | 75 => ⟨S_, .i32⟩
  | 76 => ⟨S128x243x1, .i32⟩
  | 77 => ⟨S128x243x1, .i1⟩
  | 78 => ⟨S1x1x1, .i32⟩
  | 79 => ⟨S128x243x1, .i32⟩
  | 80 => ⟨S128x243x1, .i1⟩
  | 81 => ⟨S128x243x1, .i1⟩
  | 82 => ⟨S_, .i1⟩
  | 83 => ⟨S128x243, .i1⟩
  | 84 => ⟨S128x243, .f32⟩
  | 85 => ⟨S_, .f32⟩
  | 86 => ⟨S128x243, .f32⟩
  | 87 => ⟨S128x243, .f32⟩
  | 88 => ⟨S128x243, .f32⟩
  | 89 => ⟨S_, .f32⟩
  | 90 => ⟨S128, .f32⟩
  | 91 => ⟨S_, .f32⟩
  | 92 => ⟨S128, .f32⟩
  | 93 => ⟨S128, .f32⟩
  | 94 => ⟨S128x1, .f32⟩
  | 95 => ⟨S128x243, .f32⟩
  | 96 => ⟨S128x243, .f32⟩
  | 97 => ⟨S128x243, .f32⟩
  | 98 => ⟨S_, .f32⟩
  | 99 => ⟨S128, .f32⟩
  | 100 => ⟨S128x1, .f32⟩
  | 101 => ⟨S128x243, .f32⟩
  | 102 => ⟨S128x243, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call2_cst : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call3_call0_c : Ref sig .tc := ⟨.hbm, 57, rfl⟩
abbrev main_call3_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c : Ref sig .tc := ⟨.hbm, 65, rfl⟩
abbrev main_v42 : Ref sig .tc := ⟨.hbm, 66, rfl⟩
abbrev main_v43 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_c : Ref sig .tc := ⟨.hbm, 79, rfl⟩
abbrev main_call4_v11 : Ref sig .tc := ⟨.hbm, 80, rfl⟩
abbrev main_call4_v12 : Ref sig .tc := ⟨.hbm, 81, rfl⟩
abbrev main_call4_v13 : Ref sig .tc := ⟨.hbm, 82, rfl⟩
abbrev main_call4_c_0 : Ref sig .tc := ⟨.hbm, 83, rfl⟩
abbrev main_call4_v14 : Ref sig .tc := ⟨.hbm, 84, rfl⟩
abbrev main_call4_v15 : Ref sig .tc := ⟨.hbm, 85, rfl⟩
abbrev main_v44 : Ref sig .tc := ⟨.hbm, 86, rfl⟩
abbrev main_c_0 : Ref sig .tc := ⟨.hbm, 87, rfl⟩
abbrev main_v45 : Ref sig .tc := ⟨.hbm, 88, rfl⟩
abbrev main_v46 : Ref sig .tc := ⟨.hbm, 89, rfl⟩
abbrev main_call5_c : Ref sig .tc := ⟨.hbm, 90, rfl⟩
abbrev main_call5_v0 : Ref sig .tc := ⟨.hbm, 91, rfl⟩
abbrev main_call5_v1 : Ref sig .tc := ⟨.hbm, 92, rfl⟩
abbrev main_call5_c_0 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_c_1 : Ref sig .tc := ⟨.hbm, 99, rfl⟩
abbrev main_call5_v7 : Ref sig .tc := ⟨.hbm, 100, rfl⟩
abbrev main_call5_v8 : Ref sig .tc := ⟨.hbm, 101, rfl⟩
abbrev main_call5_c_2 : Ref sig .tc := ⟨.hbm, 102, rfl⟩
abbrev main_call5_v9 : Ref sig .tc := ⟨.hbm, 103, rfl⟩
abbrev main_call5_v10 : Ref sig .tc := ⟨.hbm, 104, rfl⟩
abbrev main_call5_c_3 : Ref sig .tc := ⟨.hbm, 105, rfl⟩
abbrev main_call5_v11 : Ref sig .tc := ⟨.hbm, 106, rfl⟩
abbrev main_call5_v12 : Ref sig .tc := ⟨.hbm, 107, rfl⟩
abbrev main_call5_v13 : Ref sig .tc := ⟨.hbm, 108, rfl⟩
abbrev main_call5_v14 : Ref sig .tc := ⟨.hbm, 109, rfl⟩
abbrev main_call5_v15 : Ref sig .tc := ⟨.hbm, 110, rfl⟩
abbrev main_call5_v16 : Ref sig .tc := ⟨.hbm, 111, rfl⟩
abbrev main_call5_v17 : Ref sig .tc := ⟨.hbm, 112, rfl⟩
abbrev main_v47 : Ref sig .tc := ⟨.hbm, 113, rfl⟩
abbrev main_c_1 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_c : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_0 : Ref sig .tc := ⟨.hbm, 128, rfl⟩
abbrev main_call6_v12 : Ref sig .tc := ⟨.hbm, 129, rfl⟩
abbrev main_call6_v13 : Ref sig .tc := ⟨.hbm, 130, rfl⟩
abbrev main_v48 : Ref sig .tc := ⟨.hbm, 131, rfl⟩
abbrev main_c_2 : Ref sig .tc := ⟨.hbm, 132, rfl⟩
abbrev main_call7_v0 : Ref sig .tc := ⟨.hbm, 133, rfl⟩
abbrev main_call7_c : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_c_1 : Ref sig .tc := ⟨.hbm, 140, rfl⟩
abbrev main_call7_v5 : Ref sig .tc := ⟨.hbm, 141, rfl⟩
abbrev main_call7_v6 : Ref sig .tc := ⟨.hbm, 142, rfl⟩
abbrev main_call7_c_2 : Ref sig .tc := ⟨.hbm, 143, rfl⟩
abbrev main_call7_v7 : Ref sig .tc := ⟨.hbm, 144, rfl⟩
abbrev main_call7_v8 : Ref sig .tc := ⟨.hbm, 145, rfl⟩
abbrev main_call7_c_3 : Ref sig .tc := ⟨.hbm, 146, rfl⟩
abbrev main_call7_v9 : Ref sig .tc := ⟨.hbm, 147, rfl⟩
abbrev main_call7_v10 : Ref sig .tc := ⟨.hbm, 148, rfl⟩
abbrev main_call7_v11 : Ref sig .tc := ⟨.hbm, 149, rfl⟩
abbrev main_call7_v12 : Ref sig .tc := ⟨.hbm, 150, rfl⟩
abbrev main_call7_v13 : Ref sig .tc := ⟨.hbm, 151, rfl⟩
abbrev main_call7_v14 : Ref sig .tc := ⟨.hbm, 152, rfl⟩
abbrev main_v49 : Ref sig .tc := ⟨.hbm, 153, rfl⟩
abbrev main_v50 : Ref sig .tc := ⟨.hbm, 154, rfl⟩
abbrev main_c_3 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_c_4 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_c_5 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_c_6 : Ref sig .tc := ⟨.hbm, 174, rfl⟩
abbrev main_c_7 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v67 : Ref sig .tc := ⟨.hbm, 181, rfl⟩
abbrev main_c_8 : Ref sig .tc := ⟨.hbm, 182, rfl⟩
abbrev main_v68 : Ref sig .tc := ⟨.hbm, 183, rfl⟩
abbrev main_v69 : Ref sig .tc := ⟨.hbm, 184, rfl⟩
abbrev main_c_9 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_cst_10 : Ref sig .tc := ⟨.hbm, 191, rfl⟩
abbrev main_call9_v0 : Ref sig .tc := ⟨.hbm, 192, rfl⟩
abbrev main_v75 : Ref sig .tc := ⟨.hbm, 193, rfl⟩
abbrev main_call10_c : Ref sig .tc := ⟨.hbm, 194, rfl⟩
abbrev main_call10_v0 : Ref sig .tc := ⟨.hbm, 195, rfl⟩
abbrev main_call10_v1 : Ref sig .tc := ⟨.hbm, 196, rfl⟩
abbrev main_call10_c_0 : Ref sig .tc := ⟨.hbm, 197, rfl⟩
abbrev main_call10_v2 : Ref sig .tc := ⟨.hbm, 198, rfl⟩
abbrev main_call10_v3 : Ref sig .tc := ⟨.hbm, 199, rfl⟩
abbrev main_call10_v4 : Ref sig .tc := ⟨.hbm, 200, rfl⟩
abbrev main_call10_v5 : Ref sig .tc := ⟨.hbm, 201, rfl⟩
abbrev main_call10_c_1 : Ref sig .tc := ⟨.hbm, 202, rfl⟩
abbrev main_call10_c_2 : Ref sig .tc := ⟨.hbm, 203, rfl⟩
abbrev main_call10_v6 : Ref sig .tc := ⟨.hbm, 204, rfl⟩
abbrev main_call10_v7 : Ref sig .tc := ⟨.hbm, 205, rfl⟩
abbrev main_call10_v8 : Ref sig .tc := ⟨.hbm, 206, rfl⟩
abbrev main_call10_v9 : Ref sig .tc := ⟨.hbm, 207, rfl⟩
abbrev main_call10_v10 : Ref sig .tc := ⟨.hbm, 208, rfl⟩
abbrev main_call10_v11 : Ref sig .tc := ⟨.hbm, 209, rfl⟩
abbrev main_call10_c_3 : Ref sig .tc := ⟨.hbm, 210, rfl⟩
abbrev main_call10_v12 : Ref sig .tc := ⟨.hbm, 211, rfl⟩
abbrev main_call10_v13 : Ref sig .tc := ⟨.hbm, 212, rfl⟩
abbrev main_call10_cst : Ref sig .tc := ⟨.hbm, 213, rfl⟩
abbrev main_call10_v14 : Ref sig .tc := ⟨.hbm, 214, rfl⟩
abbrev main_v76 : Ref sig .tc := ⟨.hbm, 215, rfl⟩
abbrev main_v77 : Ref sig .tc := ⟨.hbm, 216, rfl⟩
abbrev main_cst_11 : Ref sig .tc := ⟨.hbm, 217, rfl⟩
abbrev main_v78 : Ref sig .tc := ⟨.hbm, 218, rfl⟩
abbrev main_cst_12 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_cst_13 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S1024x128 : S_.BroadcastsInDim S1024x128 (![] : Fin 0 → Fin S1024x128.rank)
  slices_S256x128_S128x128_0_0 : S256x128.Slices ![0, 0] S128x128
  slices_S256x128_S128x128_128_0 : S256x128.Slices ![128, 0] S128x128
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  transposes_S128x1024_S1024x128_1_0 : S128x1024.Transposes [1, 0] S1024x128
  bcast_S1024x1024_S1024x1024x1_0_1 : S1024x1024.BroadcastsInDim S1024x1024x1 (![0, 1] : Fin 2 → Fin S1024x1024x1.rank)
  bcast_S3_S1x1x3_2 : S3.BroadcastsInDim S1x1x3 (![2] : Fin 1 → Fin S1x1x3.rank)
  bcast_S1x1x3_S1024x1024x3_0_1_2 : S1x1x3.BroadcastsInDim S1024x1024x3 (![0, 1, 2] : Fin 3 → Fin S1024x1024x3.rank)
  bcast_S1024x1024x1_S1024x1024x3_0_1_2 : S1024x1024x1.BroadcastsInDim S1024x1024x3 (![0, 1, 2] : Fin 3 → Fin S1024x1024x3.rank)
  shapeCasts_S1024x1024x3_S3145728 : S1024x1024x3.ShapeCasts S3145728
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S243_S1x243_1 : S243.BroadcastsInDim S1x243 (![1] : Fin 1 → Fin S1x243.rank)
  bcast_S128_S128x1_0 : S128.BroadcastsInDim S128x1 (![0] : Fin 1 → Fin S128x1.rank)
  bcast_S_S128x1 : S_.BroadcastsInDim S128x1 (![] : Fin 0 → Fin S128x1.rank)
  bcast_S1x243_S128x243_0_1 : S1x243.BroadcastsInDim S128x243 (![0, 1] : Fin 2 → Fin S128x243.rank)
  bcast_S128x1_S128x243_0_1 : S128x1.BroadcastsInDim S128x243 (![0, 1] : Fin 2 → Fin S128x243.rank)
  bcast_S_S128x243 : S_.BroadcastsInDim S128x243 (![] : Fin 0 → Fin S128x243.rank)
  bcast_S_S1x243 : S_.BroadcastsInDim S1x243 (![] : Fin 0 → Fin S1x243.rank)
  bcast_S128x243_S128x243x1_0_1 : S128x243.BroadcastsInDim S128x243x1 (![0, 1] : Fin 2 → Fin S128x243x1.rank)
  shapeCasts_S128x243_S128x243x1 : S128x243.ShapeCasts S128x243x1
  bcast_S_S128x243x1 : S_.BroadcastsInDim S128x243x1 (![] : Fin 0 → Fin S128x243x1.rank)
  bcast_S1_S1x1x1_2 : S1.BroadcastsInDim S1x1x1 (![2] : Fin 1 → Fin S1x1x1.rank)
  bcast_S1x1x1_S128x243x1_0_1_2 : S1x1x1.BroadcastsInDim S128x243x1 (![0, 1, 2] : Fin 3 → Fin S128x243x1.rank)
  reducesTo_S128x243x1_S128x243_d2 : S128x243x1.ReducesTo [2] S128x243
  reducesTo_S128x243_S128_d1 : S128x243.ReducesTo [1] S128
  bcast_S_S128 : S_.BroadcastsInDim S128 (![] : Fin 0 → Fin S128.rank)
  scatter_S128x128_S1024x1_S1024x128_1_0_0_1_wf : ScatterDims.WF S128x128 S1024x1 S1024x128 [1] [0] [0] 1
  dot_S128x128_S128x64_S128x64_1_0_0_1_n_n_wf : DotDims.WF S128x128 S128x64 S128x64 [1] [0] [0] [1] [] []
  dot_S128x64_S64x1_S128x1_1_0_0_1_n_n_wf : DotDims.WF S128x64 S64x1 S128x1 [1] [0] [0] [1] [] []
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S1024x1024x128_S128x3_S1024x1024x3_2_0_01_1_n_n_wf : DotDims.WF S1024x1024x128 S128x3 S1024x1024x3 [2] [0] [0, 1] [1] [] []
  gather_S3145728_S128x243x1_S128x243_n_0_n_n_0_2_1_wf : GatherDims.WF S3145728 S128x243x1 S128x243 [] [0] [] [0] [] 2 ![1]
  gather_S128x243_S128x243x1_S128x243_n_1_0_0_1_2_11_wf : GatherDims.WF S128x243 S128x243x1 S128x243 [] [1] [0] [1] [0] 2 ![1, 1]

variable [Facts₀]

def scatter_S128x128_S1024x1_S1024x128_1_0_0_1 : ScatterDims S128x128 S1024x1 S1024x128 where
  updateWindowDims := [1]
  insertedWindowDims := [0]
  scatterDimsToOperandDims := [0]
  indexVectorDim := 1
  wf := scatter_S128x128_S1024x1_S1024x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024x128_S128x3_S1024x1024x3_2_0_01_1_n_n : DotDims S1024x1024x128 S128x3 S1024x1024x3 where
  lhsContracting := [2]
  rhsContracting := [0]
  lhsNonContracting := [0, 1]
  rhsNonContracting := [1]
  lhsBatch := []
  rhsBatch := []
  wf := dot_S1024x1024x128_S128x3_S1024x1024x3_2_0_01_1_n_n_wf
def gather_S3145728_S128x243x1_S128x243_n_0_n_n_0_2_1 : GatherDims S3145728 S128x243x1 S128x243 where
  offsetDims := []
  collapsedSliceDims := [0]
  operandBatchingDims := []
  startIndicesBatchingDims := []
  startIndexMap := [0]
  indexVectorDim := 2
  sliceSizes := ![1]
  wf := gather_S3145728_S128x243x1_S128x243_n_0_n_n_0_2_1_wf
def gather_S128x243_S128x243x1_S128x243_n_1_0_0_1_2_11 : GatherDims S128x243 S128x243x1 S128x243 where
  offsetDims := []
  collapsedSliceDims := [1]
  operandBatchingDims := [0]
  startIndicesBatchingDims := [0]
  startIndexMap := [1]
  indexVectorDim := 2
  sliceSizes := ![1, 1]
  wf := gather_S128x243_S128x243x1_S128x243_n_1_0_0_1_2_11_wf

class Facts : Prop extends Facts₀ where

variable [Facts]
-- ==== Proof.PairTriple.lean ====
/-
  The kernel body run once on whole staging buffers.

  The body reads seven blocks whole — a [64,128] block of the row projection, a [128,128] block of the column
  projection, the hidden bias as a row, the output weights, the output bias as a row, and two row blocks
  ([64,128] and [128,128]) of the transposed membership matrix — computes one [64,128,3] block of masked pair
  scores from them, and stores it over the whole output buffer. Whatever the output buffer held before is read
  once and not used. So after the body every input buffer holds what it held, and the output buffer holds the
  canonical reading of that single covering store: the score block as a pure function of the seven blocks read.
-/
import proofs.«101599_j23914377904744_1_alg».proof.Proof.Gen.KernelIdeal.Launch
import proofs.«101599_j23914377904744_1_alg».proof.Proof.Gen.KernelIdeal.Skeleton
import proofs.«101599_j23914377904744_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each a whole buffer -/

abbrev rRow : Rect S64x128 := Rect.unit (s := S64x128) ![0, 0] S64x128.size inb_S64x128_S64x128_0_0
abbrev rCol : Rect S128x128 := Rect.unit (s := S128x128) ![0, 0] S128x128.size inb_S128x128_S128x128_0_0
abbrev rBias : Rect S1x128 := Rect.unit (s := S1x128) ![0, 0] S1x128.size inb_S1x128_S1x128_0_0
abbrev rWout : Rect S128x3 := Rect.unit (s := S128x3) ![0, 0] S128x3.size inb_S128x3_S128x3_0_0
abbrev rBout : Rect S1x3 := Rect.unit (s := S1x3) ![0, 0] S1x3.size inb_S1x3_S1x3_0_0
abbrev rOut : Rect S64x128x3 := Rect.unit (s := S64x128x3) ![0, 0, 0] S64x128x3.size inb_S64x128x3_S64x128x3_0_0_0

/-! ## What the body leaves in the output buffer -/

/-- The output buffer after the body: its one store, read canonically, over the score block computed from the
    seven input blocks (row projection, column projection, row membership, column membership, hidden bias,
    output weights, output bias — in the order of the body's operands). -/
def scoreBlock (xRow : Vec F S64x128 .f32) (xCol : Vec F S128x128 .f32) (xMemRow : Vec F S64x128 .f32) (xMemCol : Vec F S128x128 .f32)
    (xBias : Vec F S1x128 .f32) (xWout : Vec F S128x3 .f32) (xBout : Vec F S1x3 .f32) : Vec F S64x128x3 .f32 :=
  View.canon [⟨rOut, k0_pay1 (View.ld xRow rRow) (View.ld xCol rCol) (View.ld xBias rBias) (View.ld xWout rWout) (View.ld xBout rBout)
    (View.ld xMemRow rRow) (View.ld xMemCol rCol)⟩]

/-- The single store covers the output buffer. -/
theorem scoreBlock_cover (p0 : Vec F S64x128x3 .f32) (y : S64x128x3.Idx) :
    ∃ pc ∈ ([⟨rOut, p0⟩] : List (View.Piece (Elt F) S64x128x3 .f32)), y ∈ pc.1.set :=
  View.cover_of_tiled [⟨rOut, p0⟩] S64x128x3.size (by rfl) y

/-! ## The body's triple -/

set_option maxHeartbeats 1000000 in
/-- The body on whole staging buffers — the seven inputs at known contents, the output at any contents — runs to
    its continuation with the inputs unchanged and the output at `scoreBlock` of the inputs. -/
theorem sound_kernel (c : Dev nD) (E : Set ℕ) (i : grid0.Coords)
    (arg2 : Memref sig .tc .vmem S64x128 .f32) (harg2 : arg2.IsWhole) (arg3 : Memref sig .tc .vmem S128x128 .f32) (harg3 : arg3.IsWhole)
    (arg4 : Memref sig .tc .vmem S64x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x3 .f32) (harg7 : arg7.IsWhole)
    (arg8 : Memref sig .tc .vmem S1x3 .f32) (harg8 : arg8.IsWhole) (arg9 : Memref sig .tc .vmem S64x128x3 .f32) (harg9 : arg9.IsWhole)
    (x0 : Vec F S64x128 .f32) (x1 : Vec F S128x128 .f32) (x2 : Vec F S64x128 .f32) (x3 : Vec F S128x128 .f32)
    (x4 : Vec F S1x128 .f32) (x5 : Vec F S128x3 .f32) (x6 : Vec F S1x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (scoreBlock x0 x1 x2 x3 x4 x5 x6)) -∗ K ⟨⟩))
      ⊢ wp frame (wpE (defs₀ (F := F)) Variants.none c none) E
          (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (scoreBlock_cover _)

end Cert.KernelIdeal.Pair

end
-- ==== Proof.PairHost.lean ====
/-
  The host lines of the program around its one pipelined region.

  Before the region the program computes, on the host, the per-graph readout, the two node projections, the
  transposed membership matrix and the two biases as rows; after it, it flattens the score array, gathers the
  in-graph entries, permutes them and normalises each row by a soft maximum. Here: what every buffer holds when
  the region is entered (the host lines before it applied to the launch contents), that the program is those
  lines, the region, and the later lines in order, and that no line before the region writes an argument array.
-/
import proofs.«101599_j23914377904744_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ)

/-- The host lines before the region, stretch by stretch. -/
abbrev linesBefore : List (List (HloOp τ sig (Elt F))) := [hostOps0, hostOps0_1, hostOps0_2, hostOps0_3, hostOps0_4]
/-- The host lines after the region, stretch by stretch. -/
abbrev linesAfter : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- What each buffer of core `c` holds when the region is entered: the lines before it applied to the launch contents. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

set_option maxRecDepth 200000 in
/-- The program is the lines before the region, the region, and the lines after it: holding the unscoped buffers
    at the launch contents it reduces to the region continued by the later lines, holding them at `V`. -/
theorem hmain (𝒱₀ : Variants) : Pipeline.HMainK (Ix := Unit) (Name := ℕ) (U := UR sig nD τ) (Lvl := ℕ) cfgs 0 defs₀ 𝒱₀ m (main (F := F))
      (fun c b => StableHlo.after (List.flatten [hostOps0, hostOps0_1, hostOps0_2, hostOps0_3, hostOps0_4]) (fun b => m (c, b)) b)
      (fun _ => Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## No line before the region writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## No line after the region writes the first argument array (the others alike, where they are needed) -/

theorem after_keeps_main_arg0 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg0 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

end Cert.KernelIdeal.Pair

end
-- ==== Proof.PairData.lean ====
/-
  The proof data of the pipelined region and the body's obligation at every grid point.

  The region walks a 16 × 8 grid. At point (i, j) the pipeline hands the body rows 64·i … of the row projection
  and of the transposed membership matrix, rows 128·j … of the column projection and of the same transposed
  membership matrix, and the two biases and the output weights whole; the body writes block (i, j) of the
  [1024, 1024, 3] score array. Two of the eight windows read the SAME array (the transposed membership matrix),
  so that array's read share is dealt between them, one half each; every other array is held whole. Nothing is
  kept between points: after the body each input buffer holds its block and the output buffer holds the score
  block of the seven input blocks.
-/
import proofs.«101599_j23914377904744_1_alg».proof.Proof.PairTriple
import proofs.«101599_j23914377904744_1_alg».proof.Proof.PairHost

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data whose
    array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data whose
    array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data whose
    array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data whose
    array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data whose
    array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data whose
    array is the entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data whose
    array is the entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`: the arrays as the region finds them; after the body at point `t` each
    input's buffer at its block and the output's at the score block of the input blocks; the scoped rest and the
    generator register untouched; nothing owed; the transposed membership matrix's share dealt between the two
    windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => scoreBlock (iblk m c 0 t) (iblk m c 1 t) (iblk m c 2 t) (iblk m c 3 t) (iblk m c 4 t) (iblk m c 5 t) (iblk m c 6 t)
  Φ _ := Pipeline.ΦA spec0 c
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = scoreBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Pair

end
-- ==== Proof.PairLaunch.lean ====
/-
  The region's launch when two windows read one array, and the host lines that follow it.

  Seven distinct buffers stand behind the eight windows: the transposed membership matrix is read through two
  of them. At the region's entry each of the seven is held whole; the membership buffer's read permission is dealt
  in two halves, one per window, and every other buffer goes to its one window whole. At the exit no input array has
  changed, so the two halves hold the same contents and join again, and the host lines after the region run over
  all the unscoped buffers as the lines before it did.
-/
import proofs.«101599_j23914377904744_1_alg».proof.Proof.PairData

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows, and each window's share -/

/-- The seven distinct buffers behind the eight windows. -/
theorem arrRefs_eq : Finset.univ.image (Pipeline.arrRef spec0)
    = insert main_v14 (insert main_v16 (insert main_v17 (insert main_v18 (insert main_arg9 (insert main_v19 {main_v20}))))) := by decide

theorem arrRef_0 : Pipeline.arrRef spec0 0 = main_v14 := rfl
theorem arrRef_1 : Pipeline.arrRef spec0 1 = main_v16 := rfl
theorem arrRef_2 : Pipeline.arrRef spec0 2 = main_v17 := rfl
theorem arrRef_3 : Pipeline.arrRef spec0 3 = main_v17 := rfl
theorem arrRef_4 : Pipeline.arrRef spec0 4 = main_v18 := rfl
theorem arrRef_5 : Pipeline.arrRef spec0 5 = main_arg9 := rfl
theorem arrRef_6 : Pipeline.arrRef spec0 6 = main_v19 := rfl
theorem arrRef_7 : Pipeline.arrRef spec0 7 = main_v20 := rfl

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The seven buffers, each whole at a valuation `W`, one by one. -/
theorem arrBufs_chain (c : Dev nD) (W : (b : Ref sig .tc) → Buf (Elt F) ((c.tc : Thread nD τ).loc b)) :
    (Pipeline.arrBufs spec0 c W : sProp 𝕄) = iprop((((c.tc : Thread nD τ).loc main_v14) ↦{fullShare} W main_v14)
      ∗ (((c.tc : Thread nD τ).loc main_v16) ↦{fullShare} W main_v16)
      ∗ (((c.tc : Thread nD τ).loc main_v17) ↦{fullShare} W main_v17)
      ∗ (((c.tc : Thread nD τ).loc main_v18) ↦{fullShare} W main_v18)
      ∗ (((c.tc : Thread nD τ).loc main_arg9) ↦{fullShare} W main_arg9)
      ∗ (((c.tc : Thread nD τ).loc main_v19) ↦{fullShare} W main_v19)
      ∗ (((c.tc : Thread nD τ).loc main_v20) ↦{fullShare} W main_v20)) := by
  classical
  unfold Pipeline.arrBufs
  rw [arrRefs_eq, bigSep_insert (by decide), bigSep_insert (by decide), bigSep_insert (by decide), bigSep_insert (by decide),
    bigSep_insert (by decide), bigSep_insert (by decide), bigSep_singleton]
  rfl

/-- Window by window: its array at its share, after `n` points, is the buffer behind it at that share and a
    valuation that agrees with the arrays there. -/
theorem arr_at_0 (c : Dev nD) (n : ℕ) (W : (b : Ref sig .tc) → Buf (Elt F) ((c.tc : Thread nD τ).loc b))
    (hW : ∀ w, (dats m 0 c).arrAt w n = W (Pipeline.arrRef spec0 w)) :
    ((cfg0.win 0).arr.view.loc (c.tc : Thread nD τ) ↦[(cfg0.win 0).arr.view.set]{(dats m 0 c).share 0} (dats m 0 c).arrAt 0 n : sProp 𝕄)
      = (((c.tc : Thread nD τ).loc main_v14) ↦{fullShare} W main_v14) := by
  rw [(arr_whole0 0).set_eq_univ, hW 0, share_0 m c]
  try rfl
theorem arr_at_1 (c : Dev nD) (n : ℕ) (W : (b : Ref sig .tc) → Buf (Elt F) ((c.tc : Thread nD τ).loc b))
    (hW : ∀ w, (dats m 0 c).arrAt w n = W (Pipeline.arrRef spec0 w)) :
    ((cfg0.win 1).arr.view.loc (c.tc : Thread nD τ) ↦[(cfg0.win 1).arr.view.set]{(dats m 0 c).share 1} (dats m 0 c).arrAt 1 n : sProp 𝕄)
      = (((c.tc : Thread nD τ).loc main_v16) ↦{fullShare} W main_v16) := by
  rw [(arr_whole0 1).set_eq_univ, hW 1, share_1 m c]
  try rfl
theorem arr_at_2 (c : Dev nD) (n : ℕ) (W : (b : Ref sig .tc) → Buf (Elt F) ((c.tc : Thread nD τ).loc b))
    (hW : ∀ w, (dats m 0 c).arrAt w n = W (Pipeline.arrRef spec0 w)) :
    ((cfg0.win 2).arr.view.loc (c.tc : Thread nD τ) ↦[(cfg0.win 2).arr.view.set]{(dats m 0 c).share 2} (dats m 0 c).arrAt 2 n : sProp 𝕄)
      = (((c.tc : Thread nD τ).loc main_v17) ↦{fullShare.left} W main_v17) := by
  rw [(arr_whole0 2).set_eq_univ, hW 2, share_2 m c]
  try rfl
theorem arr_at_3 (c : Dev nD) (n : ℕ) (W : (b : Ref sig .tc) → Buf (Elt F) ((c.tc : Thread nD τ).loc b))
    (hW : ∀ w, (dats m 0 c).arrAt w n = W (Pipeline.arrRef spec0 w)) :
    ((cfg0.win 3).arr.view.loc (c.tc : Thread nD τ) ↦[(cfg0.win 3).arr.view.set]{(dats m 0 c).share 3} (dats m 0 c).arrAt 3 n : sProp 𝕄)
      = (((c.tc : Thread nD τ).loc main_v17) ↦{fullShare.right} W main_v17) := by
  rw [(arr_whole0 3).set_eq_univ, hW 3, share_3 m c]
  try rfl
theorem arr_at_4 (c : Dev nD) (n : ℕ) (W : (b : Ref sig .tc) → Buf (Elt F) ((c.tc : Thread nD τ).loc b))
    (hW : ∀ w, (dats m 0 c).arrAt w n = W (Pipeline.arrRef spec0 w)) :
    ((cfg0.win 4).arr.view.loc (c.tc : Thread nD τ) ↦[(cfg0.win 4).arr.view.set]{(dats m 0 c).share 4} (dats m 0 c).arrAt 4 n : sProp 𝕄)
      = (((c.tc : Thread nD τ).loc main_v18) ↦{fullShare} W main_v18) := by
  rw [(arr_whole0 4).set_eq_univ, hW 4, share_4 m c]
  try rfl
theorem arr_at_5 (c : Dev nD) (n : ℕ) (W : (b : Ref sig .tc) → Buf (Elt F) ((c.tc : Thread nD τ).loc b))
    (hW : ∀ w, (dats m 0 c).arrAt w n = W (Pipeline.arrRef spec0 w)) :
    ((cfg0.win 5).arr.view.loc (c.tc : Thread nD τ) ↦[(cfg0.win 5).arr.view.set]{(dats m 0 c).share 5} (dats m 0 c).arrAt 5 n : sProp 𝕄)
      = (((c.tc : Thread nD τ).loc main_arg9) ↦{fullShare} W main_arg9) := by
  rw [(arr_whole0 5).set_eq_univ, hW 5, share_5 m c]
  try rfl
theorem arr_at_6 (c : Dev nD) (n : ℕ) (W : (b : Ref sig .tc) → Buf (Elt F) ((c.tc : Thread nD τ).loc b))
    (hW : ∀ w, (dats m 0 c).arrAt w n = W (Pipeline.arrRef spec0 w)) :
    ((cfg0.win 6).arr.view.loc (c.tc : Thread nD τ) ↦[(cfg0.win 6).arr.view.set]{(dats m 0 c).share 6} (dats m 0 c).arrAt 6 n : sProp 𝕄)
      = (((c.tc : Thread nD τ).loc main_v19) ↦{fullShare} W main_v19) := by
  rw [(arr_whole0 6).set_eq_univ, hW 6, share_6 m c]
  try rfl
theorem arr_at_7 (c : Dev nD) (n : ℕ) (W : (b : Ref sig .tc) → Buf (Elt F) ((c.tc : Thread nD τ).loc b))
    (hW : ∀ w, (dats m 0 c).arrAt w n = W (Pipeline.arrRef spec0 w)) :
    ((cfg0.win 7).arr.view.loc (c.tc : Thread nD τ) ↦[(cfg0.win 7).arr.view.set]{(dats m 0 c).share 7} (dats m 0 c).arrAt 7 n : sProp 𝕄)
      = (((c.tc : Thread nD τ).loc main_v20) ↦{fullShare} W main_v20) := by
  rw [(arr_whole0 7).set_eq_univ, hW 7, share_7 m c]
  try rfl

set_option maxHeartbeats 1000000 in
/-- The eight windows' arrays at their shares, after `n` points, one by one. -/
theorem arrays_chain (c : Dev nD) (n : ℕ) (W : (b : Ref sig .tc) → Buf (Elt F) ((c.tc : Thread nD τ).loc b))
    (hW : ∀ w, (dats m 0 c).arrAt w n = W (Pipeline.arrRef spec0 w)) :
    ((dats m 0 c).arrays ((dats m 0 c).arrAt · n) : sProp 𝕄) = iprop((((c.tc : Thread nD τ).loc main_v14) ↦{fullShare} W main_v14)
      ∗ (((c.tc : Thread nD τ).loc main_v16) ↦{fullShare} W main_v16)
      ∗ (((c.tc : Thread nD τ).loc main_v17) ↦{fullShare.left} W main_v17)
      ∗ (((c.tc : Thread nD τ).loc main_v17) ↦{fullShare.right} W main_v17)
      ∗ (((c.tc : Thread nD τ).loc main_v18) ↦{fullShare} W main_v18)
      ∗ (((c.tc : Thread nD τ).loc main_arg9) ↦{fullShare} W main_arg9)
      ∗ (((c.tc : Thread nD τ).loc main_v19) ↦{fullShare} W main_v19)
      ∗ (((c.tc : Thread nD τ).loc main_v20) ↦{fullShare} W main_v20)) := by
  unfold Dat.arrays
  rw [bigSep_W0]
  simp only [arr_at_0 m c n W hW, arr_at_1 m c n W hW, arr_at_2 m c n W hW, arr_at_3 m c n W hW, arr_at_4 m c n W hW, arr_at_5 m c n W hW, arr_at_6 m c n W hW, arr_at_7 m c n W hW]

/-! ## The arrays against the buffers behind them, both ways -/

/-- The seven buffers whole are the eight windows' arrays at their shares: the membership buffer's permission halved
    between the two windows that read it. -/
theorem arrays_of_bufs (c : Dev nD) (n : ℕ) (W : (b : Ref sig .tc) → Buf (Elt F) ((c.tc : Thread nD τ).loc b))
    (hW : ∀ w, (dats m 0 c).arrAt w n = W (Pipeline.arrRef spec0 w)) :
    (Pipeline.arrBufs spec0 c W : sProp 𝕄) ⊢ (dats m 0 c).arrays ((dats m 0 c).arrAt · n) := by
  rw [arrBufs_chain, arrays_chain m c n W hW]
  iintro ⟨H14, H16, H17, H18, H9, H19, H20⟩
  ihave H17' := (pointsTo_share (PosShare.mem_left_op_right fullShare)).1 $$ H17
  icases H17' with ⟨H17l, H17r⟩
  isplitl [H14]; · iexact H14
  isplitl [H16]; · iexact H16
  isplitl [H17l]; · iexact H17l
  isplitl [H17r]; · iexact H17r
  isplitl [H18]; · iexact H18
  isplitl [H9]; · iexact H9
  isplitl [H19]; · iexact H19
  iexact H20

/-- And back: the two halves, at the same contents, join. -/
theorem bufs_of_arrays (c : Dev nD) (n : ℕ) (W : (b : Ref sig .tc) → Buf (Elt F) ((c.tc : Thread nD τ).loc b))
    (hW : ∀ w, (dats m 0 c).arrAt w n = W (Pipeline.arrRef spec0 w)) :
    ((dats m 0 c).arrays ((dats m 0 c).arrAt · n) : sProp 𝕄) ⊢ Pipeline.arrBufs spec0 c W := by
  rw [arrBufs_chain, arrays_chain m c n W hW]
  iintro ⟨H14, H16, H17l, H17r, H18, H9, H19, H20⟩
  ihave H17 := (pointsTo_share (PosShare.mem_left_op_right fullShare)).2 $$ [H17l H17r]
  · isplitl [H17l]; · iexact H17l
    iexact H17r
  isplitl [H14]; · iexact H14
  isplitl [H16]; · iexact H16
  isplitl [H17]; · iexact H17
  isplitl [H18]; · iexact H18
  isplitl [H9]; · iexact H9
  isplitl [H19]; · iexact H19
  iexact H20

/-- At the region's entry: `hsplit` of the launch. -/
theorem hsplit (c : Dev nD) : (Pipeline.arrBufs spec0 c (V m c) : sProp 𝕄) ⊢ (dats m 0 c).arrays ((dats m 0 c).arrAt · 0) :=
  arrays_of_bufs m c 0 (V m c) (fun w => rfl)

end Cert.KernelIdeal.Pair

end
-- ==== Proof.PairKeeps.lean ====
/-
  The host lines after the region write only their own result buffers: none of them writes an argument array, an
  array a window of the region reads or writes, or the readout computed before the region. So each of those holds
  after the lines what it held when they began.
-/
import proofs.«101599_j23914377904744_1_alg».proof.Proof.PairHost

set_option maxRecDepth 16384

noncomputable section

namespace Cert.KernelIdeal.Pair

open Idealize.ShloMosaic Idealize.ShloMosaic.TcCoe
open Idealize.SL Idealize.SL.Sem
open Cert.KernelIdeal Cert.KernelIdeal.Gen

variable {F : FTy → Type} [FloatOps F]

theorem after_keeps_main_arg1 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg1 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg2 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg2 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg3 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg3 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg4 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg4 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg5 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg5 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg6 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg6 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg7 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg7 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg8 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg8 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg9 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg9 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg10 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg10 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg11 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg11 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg12 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg12 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg13 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg13 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v14 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v14 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v16 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v16 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v17 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v17 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v18 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v18 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v19 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v19 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v20 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v20 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v11 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v11 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- A buffer no later line writes holds after them what it held before. -/
theorem after_lines_of_keeps (W : Valuation τ sig (Elt F)) (r : Ref sig .tc)
    (h : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc r ∉ op.writes) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) W (Proc.devRef .tc r) = W (Proc.devRef .tc r) :=
  StableHlo.after_of_forall_not_mem (b := Proc.devRef .tc r) _ _ h

end Cert.KernelIdeal.Pair

end
-- ==== Proof.PairRun.lean ====
/-
  The whole run of the program: the host lines, the region launched over its grid, the host lines after it.

  At the region's exit every buffer holds what it held at the entry, except the score array, which holds what the
  grid's points wrote. The later host lines then run from those contents over all the unscoped buffers; none of
  them writes an array the region's windows name, so the region's arrays are handed back as they were. Every weakly
  fair execution therefore ends with the windows' arrays at what the region computed and every other unscoped buffer
  at what the later lines leave.
-/
import proofs.«101599_j23914377904744_1_alg».proof.Proof.PairLaunch
import proofs.«101599_j23914377904744_1_alg».proof.Proof.PairKeeps

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The contents at the region's exit, and after the later lines -/

open Classical in
/-- What each buffer holds when the region is left: the entry contents, but the score array at what the grid wrote. -/
def Wexit (c : Dev nD) : Valuation τ sig (Elt F) :=
  Function.update (V0 m c) (Proc.devRef .tc main_v20) ((dats m 0 c).arrAt 7 cfg0.N)

theorem Wexit_out (c : Dev nD) : Wexit m c (Proc.devRef .tc main_v20) = (dats m 0 c).arrAt 7 cfg0.N := by
  unfold Wexit; exact Function.update_self ..

theorem Wexit_of_ne (c : Dev nD) (b : Ref sig .tc) (hb : b ≠ main_v20) : Wexit m c (Proc.devRef .tc b) = V m c b := by
  unfold Wexit; exact Function.update_of_ne (StableHlo.devRef_ne_of_ne hb) ..

/-- What each buffer holds after the later host lines. -/
abbrev Wfin (c : Dev nD) (b : Ref sig .tc) : Buf (Elt F) ((c : Thread nD τ).loc b) :=
  StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c) (Proc.devRef .tc b)

/-- After the last point each window's array is the exit contents of the buffer behind it: an input array never
    changes, the score array is what the grid wrote. -/
theorem arrAt_exit (c : Dev nD) : ∀ w, (dats m 0 c).arrAt w cfg0.N = (fun b : Ref sig .tc => Wexit m c (Proc.devRef .tc b)) (Pipeline.arrRef spec0 w)
  | ⟨0, _⟩ => (((dats m 0 c).arrAt_in 0 rfl cfg0.N).trans (A_eq m c 0)).trans (Wexit_of_ne m c main_v14 (by decide)).symm
  | ⟨1, _⟩ => (((dats m 0 c).arrAt_in 1 rfl cfg0.N).trans (A_eq m c 1)).trans (Wexit_of_ne m c main_v16 (by decide)).symm
  | ⟨2, _⟩ => (((dats m 0 c).arrAt_in 2 rfl cfg0.N).trans (A_eq m c 2)).trans (Wexit_of_ne m c main_v17 (by decide)).symm
  | ⟨3, _⟩ => (((dats m 0 c).arrAt_in 3 rfl cfg0.N).trans (A_eq m c 3)).trans (Wexit_of_ne m c main_v17 (by decide)).symm
  | ⟨4, _⟩ => (((dats m 0 c).arrAt_in 4 rfl cfg0.N).trans (A_eq m c 4)).trans (Wexit_of_ne m c main_v18 (by decide)).symm
  | ⟨5, _⟩ => (((dats m 0 c).arrAt_in 5 rfl cfg0.N).trans (A_eq m c 5)).trans (Wexit_of_ne m c main_arg9 (by decide)).symm
  | ⟨6, _⟩ => (((dats m 0 c).arrAt_in 6 rfl cfg0.N).trans (A_eq m c 6)).trans (Wexit_of_ne m c main_v19 (by decide)).symm
  | ⟨7, _⟩ => (Wexit_out m c).symm

/-- And the later lines write none of them. -/
theorem arrAt_fin (c : Dev nD) : ∀ w, (dats m 0 c).arrAt w cfg0.N = (fun b : Ref sig .tc => Wfin m c b) (Pipeline.arrRef spec0 w)
  | ⟨0, _⟩ => (arrAt_exit m c 0).trans (after_lines_of_keeps (Wexit m c) main_v14 after_keeps_main_v14).symm
  | ⟨1, _⟩ => (arrAt_exit m c 1).trans (after_lines_of_keeps (Wexit m c) main_v16 after_keeps_main_v16).symm
  | ⟨2, _⟩ => (arrAt_exit m c 2).trans (after_lines_of_keeps (Wexit m c) main_v17 after_keeps_main_v17).symm
  | ⟨3, _⟩ => (arrAt_exit m c 3).trans (after_lines_of_keeps (Wexit m c) main_v17 after_keeps_main_v17).symm
  | ⟨4, _⟩ => (arrAt_exit m c 4).trans (after_lines_of_keeps (Wexit m c) main_v18 after_keeps_main_v18).symm
  | ⟨5, _⟩ => (arrAt_exit m c 5).trans (after_lines_of_keeps (Wexit m c) main_arg9 after_keeps_main_arg9).symm
  | ⟨6, _⟩ => (arrAt_exit m c 6).trans (after_lines_of_keeps (Wexit m c) main_v19 after_keeps_main_v19).symm
  | ⟨7, _⟩ => (arrAt_exit m c 7).trans (after_lines_of_keeps (Wexit m c) main_v20 after_keeps_main_v20).symm

/-- The buffers no window names hold at the exit what they held at the entry. -/
theorem rest_exit (c : Dev nD) : (Pipeline.unscopedRest (Ix := Unit) (Name := ℕ) (U := UR sig nD τ) (Lvl := ℕ) spec0 c (V m c) : sProp 𝕄)
    = Pipeline.unscopedRest spec0 c (fun b => Wexit m c (Proc.devRef .tc b)) := by
  unfold Pipeline.unscopedRest
  exact bigSep_congr fun b hb => congrArg (fun v => (((c.tc : Thread nD τ).loc b) ↦{fullShare} v : sProp 𝕄))
    (Wexit_of_ne m c b (fun e => (Finset.mem_sdiff.mp hb).2 (Finset.mem_image.mpr ⟨7, Finset.mem_univ _, arrRef_7.trans e.symm⟩))).symm

/-! ## The host lines after the region -/

theorem linesAfter_sub : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (List (HloOp τ sig (Elt F)))).Forall fun ops => ops.Forall fun op => op.bufs ⊆ StableHlo.tcRefs τ sig := by
  simp only [List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub⟩
theorem linesAfter_fresh : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (List (HloOp τ sig (Elt F)))).Forall fun ops => ops.Forall fun op => op.fresh = ∅ := by
  simp only [List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh⟩

/-- The windows' arrays at the exit with the other unscoped buffers are all the unscoped buffers at the exit contents. -/
theorem held_of_exit (c : Dev nD) :
    iprop((dats m 0 c).arrays ((dats m 0 c).arrAt · cfg0.N) ∗ Pipeline.unscopedRest (Ix := Unit) (Name := ℕ) (U := UR sig nD τ) (Lvl := ℕ) spec0 c (fun b => Wexit m c (Proc.devRef .tc b)))
      ⊢ (StableHlo.held (c.tc : Thread nD τ) (Pipeline.ucRefs τ sig) (Wexit m c) : sProp 𝕄) :=
  (sep_mono (bufs_of_arrays m c cfg0.N _ (arrAt_exit m c)) .rfl).trans
    (Entails.of_eq ((Pipeline.unscopedBufs_split₀ cfgs 0 winFacts₀0.arr_unscoped c _).symm.trans
      (Pipeline.unscopedBufs_held (Ix := Unit) (Name := ℕ) (U := UR sig nD τ) (Lvl := ℕ) c (Wexit m c))))

/-- All the unscoped buffers at the contents after the later lines are the windows' arrays as the region left them
    with the other unscoped buffers at those contents. -/
theorem fin_of_held (c : Dev nD) :
    (StableHlo.held (c.tc : Thread nD τ) (Pipeline.ucRefs τ sig) (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c)) : sProp 𝕄)
      ⊢ iprop((dats m 0 c).arrays ((dats m 0 c).arrAt · cfg0.N) ∗ Pipeline.unscopedRest (Ix := Unit) (Name := ℕ) (U := UR sig nD τ) (Lvl := ℕ) spec0 c (Wfin m c)) :=
  (Entails.of_eq ((Pipeline.unscopedBufs_held (Ix := Unit) (Name := ℕ) (U := UR sig nD τ) (Lvl := ℕ) c (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c))).symm.trans
      (Pipeline.unscopedBufs_split₀ cfgs 0 winFacts₀0.arr_unscoped c _))).trans
    (sep_mono (arrays_of_bufs m c cfg0.N _ (arrAt_fin m c)) .rfl)

set_option backward.isDefEq.respectTransparency.types false in
set_option maxHeartbeats 1000000 in
/-- The later lines, from the region's exit: holding the windows' arrays as the region left them and the other unscoped
    buffers at the entry contents, they run and hand back the arrays unchanged and the other buffers at `Wfin`. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Wfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) Q' := by
  classical
  rw [Pipeline.unscopedRestP_none, Pipeline.unscopedRestP_none, rest_exit m c, ← List.append_nil (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])]
  iintro ⟨Hk, Hb, Ha, Hr⟩
  iapply (Pipeline.wp_seqs_then (fun q => (cfgs q).toPCfg (Val := Elt F)) defs₀ Variants.none c (Pipeline.ucRefs τ sig) [] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]
    (fun ops ho op h => Pipeline.sub_ucRefs op ((List.forall_iff_forall_mem.mp ((List.forall_iff_forall_mem.mp linesAfter_sub) ops ho)) op h))
    (fun ops ho op h => (List.forall_iff_forall_mem.mp ((List.forall_iff_forall_mem.mp linesAfter_fresh) ops ho)) op h) (Wexit m c)) $$ [Hb Ha Hr]
  · isplitl [Hb]; · iexact Hb
    iapply (held_of_exit m c)
    isplitl [Ha]; · iexact Ha
    iexact Hr
  iintro ⟨Hb, Hh⟩
  rw [Pipeline.chain_nil, wp_pure]
  imodintro
  iapply Hk
  iapply (fin_of_held m c)
  iexact Hh

/-! ## The run -/

set_option backward.isDefEq.respectTransparency.types false in
set_option maxHeartbeats 2000000 in
set_option maxRecDepth 400000 in
/-- From any memory with zero counters every weakly fair execution of the program terminates, nothing faulting, with
    every window's array at what the proof data computes after the last point and every other unscoped buffer at
    what the later host lines leave. -/
theorem run_main : θ_run (defs (F := F)) (onTc (τ := τ) (main (F := F))) (s₀ m ρ) (Pipeline.FramePost cfgs (dats m) 0 (Wfin m)) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m c) s')
      isplitl [HU] <;> iassumption)
    (hQ := fun s h c => ⟨(h c).1, Pipeline.rest_of_restP Pipeline.Prefetch.none spec0 Pipeline.Prefetch.Contents.none c (Wfin m c) s (fun k => k.elim0) (h c).2.1 (h c).2.2⟩)

end Cert.KernelIdeal.Pair

end
-- ==== Proof.PairFrame.lean ====
/-
  The program's frame: it runs to the end, nothing faulting, and every argument array ends as it began.

  Thirteen of the fourteen argument arrays are named by no window of the region: no host line before or after the
  region writes them, and the region does not touch them. The output weights are read by one window of the region,
  as an input, and an input window's array never changes.
-/
import proofs.«101599_j23914377904744_1_alg».proof.Proof.PairRun

set_option maxRecDepth 16384

noncomputable section

namespace Cert.KernelIdeal.Pair

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F] [∀ e, Nonempty (Elt F e)]

variable (m : (ℓ : Loc nD τ sig) → Buf (Elt F) ℓ) (ρ : Dev nD → PrngReg)

theorem Wfin_main_arg0 (c : Dev nD) : Wfin m c main_arg0 = m ((c : Thread nD τ).loc main_arg0) :=
  (after_lines_of_keeps (Wexit m c) main_arg0 after_keeps_main_arg0).trans ((Wexit_of_ne m c main_arg0 (by decide)).trans (V_main_arg0 m c))
theorem Wfin_main_arg1 (c : Dev nD) : Wfin m c main_arg1 = m ((c : Thread nD τ).loc main_arg1) :=
  (after_lines_of_keeps (Wexit m c) main_arg1 after_keeps_main_arg1).trans ((Wexit_of_ne m c main_arg1 (by decide)).trans (V_main_arg1 m c))
theorem Wfin_main_arg2 (c : Dev nD) : Wfin m c main_arg2 = m ((c : Thread nD τ).loc main_arg2) :=
  (after_lines_of_keeps (Wexit m c) main_arg2 after_keeps_main_arg2).trans ((Wexit_of_ne m c main_arg2 (by decide)).trans (V_main_arg2 m c))
theorem Wfin_main_arg3 (c : Dev nD) : Wfin m c main_arg3 = m ((c : Thread nD τ).loc main_arg3) :=
  (after_lines_of_keeps (Wexit m c) main_arg3 after_keeps_main_arg3).trans ((Wexit_of_ne m c main_arg3 (by decide)).trans (V_main_arg3 m c))
theorem Wfin_main_arg4 (c : Dev nD) : Wfin m c main_arg4 = m ((c : Thread nD τ).loc main_arg4) :=
  (after_lines_of_keeps (Wexit m c) main_arg4 after_keeps_main_arg4).trans ((Wexit_of_ne m c main_arg4 (by decide)).trans (V_main_arg4 m c))
theorem Wfin_main_arg5 (c : Dev nD) : Wfin m c main_arg5 = m ((c : Thread nD τ).loc main_arg5) :=
  (after_lines_of_keeps (Wexit m c) main_arg5 after_keeps_main_arg5).trans ((Wexit_of_ne m c main_arg5 (by decide)).trans (V_main_arg5 m c))
theorem Wfin_main_arg6 (c : Dev nD) : Wfin m c main_arg6 = m ((c : Thread nD τ).loc main_arg6) :=
  (after_lines_of_keeps (Wexit m c) main_arg6 after_keeps_main_arg6).trans ((Wexit_of_ne m c main_arg6 (by decide)).trans (V_main_arg6 m c))
theorem Wfin_main_arg7 (c : Dev nD) : Wfin m c main_arg7 = m ((c : Thread nD τ).loc main_arg7) :=
  (after_lines_of_keeps (Wexit m c) main_arg7 after_keeps_main_arg7).trans ((Wexit_of_ne m c main_arg7 (by decide)).trans (V_main_arg7 m c))
theorem Wfin_main_arg8 (c : Dev nD) : Wfin m c main_arg8 = m ((c : Thread nD τ).loc main_arg8) :=
  (after_lines_of_keeps (Wexit m c) main_arg8 after_keeps_main_arg8).trans ((Wexit_of_ne m c main_arg8 (by decide)).trans (V_main_arg8 m c))
theorem Wfin_main_arg10 (c : Dev nD) : Wfin m c main_arg10 = m ((c : Thread nD τ).loc main_arg10) :=
  (after_lines_of_keeps (Wexit m c) main_arg10 after_keeps_main_arg10).trans ((Wexit_of_ne m c main_arg10 (by decide)).trans (V_main_arg10 m c))
theorem Wfin_main_arg11 (c : Dev nD) : Wfin m c main_arg11 = m ((c : Thread nD τ).loc main_arg11) :=
  (after_lines_of_keeps (Wexit m c) main_arg11 after_keeps_main_arg11).trans ((Wexit_of_ne m c main_arg11 (by decide)).trans (V_main_arg11 m c))
theorem Wfin_main_arg12 (c : Dev nD) : Wfin m c main_arg12 = m ((c : Thread nD τ).loc main_arg12) :=
  (after_lines_of_keeps (Wexit m c) main_arg12 after_keeps_main_arg12).trans ((Wexit_of_ne m c main_arg12 (by decide)).trans (V_main_arg12 m c))
theorem Wfin_main_arg13 (c : Dev nD) : Wfin m c main_arg13 = m ((c : Thread nD τ).loc main_arg13) :=
  (after_lines_of_keeps (Wexit m c) main_arg13 after_keeps_main_arg13).trans ((Wexit_of_ne m c main_arg13 (by decide)).trans (V_main_arg13 m c))

/-- The output weights, read through the region's sixth window, end as they began. -/
theorem arrAt_main_arg9 (c : Dev nD) : (dats m 0 c).arrAt 5 cfg0.N = m ((c : Thread nD τ).loc main_arg9) :=
  ((dats m 0 c).arrAt_in 5 rfl cfg0.N).trans ((A_eq m c 5).trans (V_main_arg9 m c))

/-- The frame, at any instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (Wfin_main_arg0 m c),
    ((h c).2 main_arg1 (Pipeline.mem_restRefs_of main_arg1 (by decide) (by decide))).trans (Wfin_main_arg1 m c),
    ((h c).2 main_arg2 (Pipeline.mem_restRefs_of main_arg2 (by decide) (by decide))).trans (Wfin_main_arg2 m c),
    ((h c).2 main_arg3 (Pipeline.mem_restRefs_of main_arg3 (by decide) (by decide))).trans (Wfin_main_arg3 m c),
    ((h c).2 main_arg4 (Pipeline.mem_restRefs_of main_arg4 (by decide) (by decide))).trans (Wfin_main_arg4 m c),
    ((h c).2 main_arg5 (Pipeline.mem_restRefs_of main_arg5 (by decide) (by decide))).trans (Wfin_main_arg5 m c),
    ((h c).2 main_arg6 (Pipeline.mem_restRefs_of main_arg6 (by decide) (by decide))).trans (Wfin_main_arg6 m c),
    ((h c).2 main_arg7 (Pipeline.mem_restRefs_of main_arg7 (by decide) (by decide))).trans (Wfin_main_arg7 m c),
    ((h c).2 main_arg8 (Pipeline.mem_restRefs_of main_arg8 (by decide) (by decide))).trans (Wfin_main_arg8 m c),
    ((h c).1 5).trans (arrAt_main_arg9 m c),
    ((h c).2 main_arg10 (Pipeline.mem_restRefs_of main_arg10 (by decide) (by decide))).trans (Wfin_main_arg10 m c),
    ((h c).2 main_arg11 (Pipeline.mem_restRefs_of main_arg11 (by decide) (by decide))).trans (Wfin_main_arg11 m c),
    ((h c).2 main_arg12 (Pipeline.mem_restRefs_of main_arg12 (by decide) (by decide))).trans (Wfin_main_arg12 m c),
    ((h c).2 main_arg13 (Pipeline.mem_restRefs_of main_arg13 (by decide) (by decide))).trans (Wfin_main_arg13 m c)⟩) (run_main m ρ)

/-- The readout, computed before the region, is written by no later line. -/
theorem Wfin_main_v11 (c : Dev nD) : Wfin m c main_v11 = V m c main_v11 :=
  (after_lines_of_keeps (Wexit m c) main_v11 after_keeps_main_v11).trans (Wexit_of_ne m c main_v11 (by decide))

/-- The same run with the two result buffers named: the probabilities at what the later host lines leave there,
    the readout at what the lines before the region computed. -/
theorem run_full : θ_run (defs (F := F)) (onTc (τ := τ) (main (F := F))) ⟨m, fun _ => 0, ρ⟩ (fun r => ∀ c : Dev nD,
      r.2.mem ((c.tc : Thread nD τ).loc main_v74) = Wfin m c main_v74
      ∧ r.2.mem ((c.tc : Thread nD τ).loc main_v11) = V m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v74 (Pipeline.mem_restRefs_of main_v74 (by decide) (by decide)),
    ((h c).2 main_v11 (Pipeline.mem_restRefs_of main_v11 (by decide) (by decide))).trans (Wfin_main_v11 m c),
    ((h c).2 main_arg0 (Pipeline.mem_restRefs_of main_arg0 (by decide) (by decide))).trans (Wfin_main_arg0 m c),
    ((h c).2 main_arg1 (Pipeline.mem_restRefs_of main_arg1 (by decide) (by decide))).trans (Wfin_main_arg1 m c),
    ((h c).2 main_arg2 (Pipeline.mem_restRefs_of main_arg2 (by decide) (by decide))).trans (Wfin_main_arg2 m c),
    ((h c).2 main_arg3 (Pipeline.mem_restRefs_of main_arg3 (by decide) (by decide))).trans (Wfin_main_arg3 m c),
    ((h c).2 main_arg4 (Pipeline.mem_restRefs_of main_arg4 (by decide) (by decide))).trans (Wfin_main_arg4 m c),
    ((h c).2 main_arg5 (Pipeline.mem_restRefs_of main_arg5 (by decide) (by decide))).trans (Wfin_main_arg5 m c),
    ((h c).2 main_arg6 (Pipeline.mem_restRefs_of main_arg6 (by decide) (by decide))).trans (Wfin_main_arg6 m c),
    ((h c).2 main_arg7 (Pipeline.mem_restRefs_of main_arg7 (by decide) (by decide))).trans (Wfin_main_arg7 m c),
    ((h c).2 main_arg8 (Pipeline.mem_restRefs_of main_arg8 (by decide) (by decide))).trans (Wfin_main_arg8 m c),
    ((h c).1 5).trans (arrAt_main_arg9 m c),
    ((h c).2 main_arg10 (Pipeline.mem_restRefs_of main_arg10 (by decide) (by decide))).trans (Wfin_main_arg10 m c),
    ((h c).2 main_arg11 (Pipeline.mem_restRefs_of main_arg11 (by decide) (by decide))).trans (Wfin_main_arg11 m c),
    ((h c).2 main_arg12 (Pipeline.mem_restRefs_of main_arg12 (by decide) (by decide))).trans (Wfin_main_arg12 m c),
    ((h c).2 main_arg13 (Pipeline.mem_restRefs_of main_arg13 (by decide) (by decide))).trans (Wfin_main_arg13 m c)⟩) (run_main m ρ)

end Cert.KernelIdeal.Pair

end
-- ==== Proof.KPairTriple.lean ====
/-
  The kernel body run once on whole staging buffers.

  The body reads seven blocks whole — a [64,128] block of the row projection, a [128,128] block of the column
  projection, the hidden bias as a row, the output weights, the output bias as a row, and two row blocks
  ([64,128] and [128,128]) of the transposed membership matrix — computes one [64,128,3] block of masked pair
  scores from them, and stores it over the whole output buffer. Whatever the output buffer held before is read
  once and not used. So after the body every input buffer holds what it held, and the output buffer holds the
  canonical reading of that single covering store: the score block as a pure function of the seven blocks read.
-/
import proofs.«101599_j23914377904744_1_alg».proof.Proof.Gen.Kernel.Launch
import proofs.«101599_j23914377904744_1_alg».proof.Proof.Gen.Kernel.Skeleton
import proofs.«101599_j23914377904744_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each a whole buffer -/

abbrev rRow : Rect S64x128 := Rect.unit (s := S64x128) ![0, 0] S64x128.size inb_S64x128_S64x128_0_0
abbrev rCol : Rect S128x128 := Rect.unit (s := S128x128) ![0, 0] S128x128.size inb_S128x128_S128x128_0_0
abbrev rBias : Rect S1x128 := Rect.unit (s := S1x128) ![0, 0] S1x128.size inb_S1x128_S1x128_0_0
abbrev rWout : Rect S128x3 := Rect.unit (s := S128x3) ![0, 0] S128x3.size inb_S128x3_S128x3_0_0
abbrev rBout : Rect S1x3 := Rect.unit (s := S1x3) ![0, 0] S1x3.size inb_S1x3_S1x3_0_0
abbrev rOut : Rect S64x128x3 := Rect.unit (s := S64x128x3) ![0, 0, 0] S64x128x3.size inb_S64x128x3_S64x128x3_0_0_0

/-! ## What the body leaves in the output buffer -/

/-- The output buffer after the body: its one store, read canonically, over the score block computed from the
    seven input blocks (row projection, column projection, row membership, column membership, hidden bias,
    output weights, output bias — in the order of the body's operands). -/
def scoreBlock (xRow : Vec F S64x128 .f32) (xCol : Vec F S128x128 .f32) (xMemRow : Vec F S64x128 .f32) (xMemCol : Vec F S128x128 .f32)
    (xBias : Vec F S1x128 .f32) (xWout : Vec F S128x3 .f32) (xBout : Vec F S1x3 .f32) : Vec F S64x128x3 .f32 :=
  View.canon [⟨rOut, k0_pay1 (View.ld xRow rRow) (View.ld xCol rCol) (View.ld xBias rBias) (View.ld xWout rWout) (View.ld xBout rBout)
    (View.ld xMemRow rRow) (View.ld xMemCol rCol)⟩]

/-- The single store covers the output buffer. -/
theorem scoreBlock_cover (p0 : Vec F S64x128x3 .f32) (y : S64x128x3.Idx) :
    ∃ pc ∈ ([⟨rOut, p0⟩] : List (View.Piece (Elt F) S64x128x3 .f32)), y ∈ pc.1.set :=
  View.cover_of_tiled [⟨rOut, p0⟩] S64x128x3.size (by rfl) y

/-! ## The body's triple -/

set_option maxHeartbeats 1000000 in
/-- The body on whole staging buffers — the seven inputs at known contents, the output at any contents — runs to
    its continuation with the inputs unchanged and the output at `scoreBlock` of the inputs. -/
theorem sound_kernel (c : Dev nD) (E : Set ℕ) (i : grid0.Coords)
    (arg2 : Memref sig .tc .vmem S64x128 .f32) (harg2 : arg2.IsWhole) (arg3 : Memref sig .tc .vmem S128x128 .f32) (harg3 : arg3.IsWhole)
    (arg4 : Memref sig .tc .vmem S64x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x3 .f32) (harg7 : arg7.IsWhole)
    (arg8 : Memref sig .tc .vmem S1x3 .f32) (harg8 : arg8.IsWhole) (arg9 : Memref sig .tc .vmem S64x128x3 .f32) (harg9 : arg9.IsWhole)
    (x0 : Vec F S64x128 .f32) (x1 : Vec F S128x128 .f32) (x2 : Vec F S64x128 .f32) (x3 : Vec F S128x128 .f32)
    (x4 : Vec F S1x128 .f32) (x5 : Vec F S128x3 .f32) (x6 : Vec F S1x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (scoreBlock x0 x1 x2 x3 x4 x5 x6)) -∗ K ⟨⟩))
      ⊢ wp frame (wpE (defs₀ (F := F)) Variants.none c none) E
          (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (scoreBlock_cover _)

end Cert.Kernel.Pair

end
-- ==== Proof.KPairHost.lean ====
/-
  The host lines of the program around its one pipelined region.

  Before the region the program computes, on the host, the per-graph readout, the two node projections, the
  transposed membership matrix and the two biases as rows; after it, it flattens the score array, gathers the
  in-graph entries, permutes them and normalises each row by a soft maximum. Here: what every buffer holds when
  the region is entered (the host lines before it applied to the launch contents), that the program is those
  lines, the region, and the later lines in order, and that no line before the region writes an argument array.
-/
import proofs.«101599_j23914377904744_1_alg».proof.Proof.Gen.Kernel.Launch
import Idealize.ShloMosaic.Lib.Pipeline.FrameBody
import Idealize.ShloMosaic.Lib.Pipeline.FrameSuffix

set_option maxRecDepth 16384

noncomputable section

namespace Cert.Kernel.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

variable (m : (ℓ : Loc nD τ sig) → Buf (Elt F) ℓ)

/-- The host lines before the region, stretch by stretch. -/
abbrev linesBefore : List (List (HloOp τ sig (Elt F))) := [hostOps0, hostOps0_1, hostOps0_2, hostOps0_3, hostOps0_4]
/-- The host lines after the region, stretch by stretch. -/
abbrev linesAfter : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- What each buffer of core `c` holds when the region is entered: the lines before it applied to the launch contents. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

set_option maxRecDepth 200000 in
/-- The program is the lines before the region, the region, and the lines after it: holding the unscoped buffers
    at the launch contents it reduces to the region continued by the later lines, holding them at `V`. -/
theorem hmain (𝒱₀ : Variants) : Pipeline.HMainK (Ix := Unit) (Name := ℕ) (U := UR sig nD τ) (Lvl := ℕ) cfgs 0 defs₀ 𝒱₀ m (main (F := F))
      (fun c b => StableHlo.after (List.flatten [hostOps0, hostOps0_1, hostOps0_2, hostOps0_3, hostOps0_4]) (fun b => m (c, b)) b)
      (fun _ => Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## No line before the region writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## No line after the region writes the first argument array (the others alike, where they are needed) -/

theorem after_keeps_main_arg0 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg0 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

end Cert.Kernel.Pair

end
-- ==== Proof.KPairData.lean ====
/-
  The proof data of the pipelined region and the body's obligation at every grid point.

  The region walks a 16 × 8 grid. At point (i, j) the pipeline hands the body rows 64·i … of the row projection
  and of the transposed membership matrix, rows 128·j … of the column projection and of the same transposed
  membership matrix, and the two biases and the output weights whole; the body writes block (i, j) of the
  [1024, 1024, 3] score array. Two of the eight windows read the SAME array (the transposed membership matrix),
  so that array's read share is dealt between them, one half each; every other array is held whole. Nothing is
  kept between points: after the body each input buffer holds its block and the output buffer holds the score
  block of the seven input blocks.
-/
import proofs.«101599_j23914377904744_1_alg».proof.Proof.KPairTriple
import proofs.«101599_j23914377904744_1_alg».proof.Proof.KPairHost

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data whose
    array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data whose
    array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data whose
    array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data whose
    array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data whose
    array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data whose
    array is the entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data whose
    array is the entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`: the arrays as the region finds them; after the body at point `t` each
    input's buffer at its block and the output's at the score block of the input blocks; the scoped rest and the
    generator register untouched; nothing owed; the transposed membership matrix's share dealt between the two
    windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => scoreBlock (iblk m c 0 t) (iblk m c 1 t) (iblk m c 2 t) (iblk m c 3 t) (iblk m c 4 t) (iblk m c 5 t) (iblk m c 6 t)
  Φ _ := Pipeline.ΦA spec0 c
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = scoreBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Pair

end
-- ==== Proof.KPairLaunch.lean ====
/-
  The region's launch when two windows read one array, and the host lines that follow it.

  Seven distinct buffers stand behind the eight windows: the transposed membership matrix is read through two
  of them. At the region's entry each of the seven is held whole; the membership buffer's read permission is dealt
  in two halves, one per window, and every other buffer goes to its one window whole. At the exit no input array has
  changed, so the two halves hold the same contents and join again, and the host lines after the region run over
  all the unscoped buffers as the lines before it did.
-/
import proofs.«101599_j23914377904744_1_alg».proof.Proof.KPairData

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows, and each window's share -/

/-- The seven distinct buffers behind the eight windows. -/
theorem arrRefs_eq : Finset.univ.image (Pipeline.arrRef spec0)
    = insert main_v14 (insert main_v16 (insert main_v17 (insert main_v18 (insert main_arg9 (insert main_v19 {main_v20}))))) := by decide

theorem arrRef_0 : Pipeline.arrRef spec0 0 = main_v14 := rfl
theorem arrRef_1 : Pipeline.arrRef spec0 1 = main_v16 := rfl
theorem arrRef_2 : Pipeline.arrRef spec0 2 = main_v17 := rfl
theorem arrRef_3 : Pipeline.arrRef spec0 3 = main_v17 := rfl
theorem arrRef_4 : Pipeline.arrRef spec0 4 = main_v18 := rfl
theorem arrRef_5 : Pipeline.arrRef spec0 5 = main_arg9 := rfl
theorem arrRef_6 : Pipeline.arrRef spec0 6 = main_v19 := rfl
theorem arrRef_7 : Pipeline.arrRef spec0 7 = main_v20 := rfl

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The seven buffers, each whole at a valuation `W`, one by one. -/
theorem arrBufs_chain (c : Dev nD) (W : (b : Ref sig .tc) → Buf (Elt F) ((c.tc : Thread nD τ).loc b)) :
    (Pipeline.arrBufs spec0 c W : sProp 𝕄) = iprop((((c.tc : Thread nD τ).loc main_v14) ↦{fullShare} W main_v14)
      ∗ (((c.tc : Thread nD τ).loc main_v16) ↦{fullShare} W main_v16)
      ∗ (((c.tc : Thread nD τ).loc main_v17) ↦{fullShare} W main_v17)
      ∗ (((c.tc : Thread nD τ).loc main_v18) ↦{fullShare} W main_v18)
      ∗ (((c.tc : Thread nD τ).loc main_arg9) ↦{fullShare} W main_arg9)
      ∗ (((c.tc : Thread nD τ).loc main_v19) ↦{fullShare} W main_v19)
      ∗ (((c.tc : Thread nD τ).loc main_v20) ↦{fullShare} W main_v20)) := by
  classical
  unfold Pipeline.arrBufs
  rw [arrRefs_eq, bigSep_insert (by decide), bigSep_insert (by decide), bigSep_insert (by decide), bigSep_insert (by decide),
    bigSep_insert (by decide), bigSep_insert (by decide), bigSep_singleton]
  rfl

/-- Window by window: its array at its share, after `n` points, is the buffer behind it at that share and a
    valuation that agrees with the arrays there. -/
theorem arr_at_0 (c : Dev nD) (n : ℕ) (W : (b : Ref sig .tc) → Buf (Elt F) ((c.tc : Thread nD τ).loc b))
    (hW : ∀ w, (dats m 0 c).arrAt w n = W (Pipeline.arrRef spec0 w)) :
    ((cfg0.win 0).arr.view.loc (c.tc : Thread nD τ) ↦[(cfg0.win 0).arr.view.set]{(dats m 0 c).share 0} (dats m 0 c).arrAt 0 n : sProp 𝕄)
      = (((c.tc : Thread nD τ).loc main_v14) ↦{fullShare} W main_v14) := by
  rw [(arr_whole0 0).set_eq_univ, hW 0, share_0 m c]
  try rfl
theorem arr_at_1 (c : Dev nD) (n : ℕ) (W : (b : Ref sig .tc) → Buf (Elt F) ((c.tc : Thread nD τ).loc b))
    (hW : ∀ w, (dats m 0 c).arrAt w n = W (Pipeline.arrRef spec0 w)) :
    ((cfg0.win 1).arr.view.loc (c.tc : Thread nD τ) ↦[(cfg0.win 1).arr.view.set]{(dats m 0 c).share 1} (dats m 0 c).arrAt 1 n : sProp 𝕄)
      = (((c.tc : Thread nD τ).loc main_v16) ↦{fullShare} W main_v16) := by
  rw [(arr_whole0 1).set_eq_univ, hW 1, share_1 m c]
  try rfl
theorem arr_at_2 (c : Dev nD) (n : ℕ) (W : (b : Ref sig .tc) → Buf (Elt F) ((c.tc : Thread nD τ).loc b))
    (hW : ∀ w, (dats m 0 c).arrAt w n = W (Pipeline.arrRef spec0 w)) :
    ((cfg0.win 2).arr.view.loc (c.tc : Thread nD τ) ↦[(cfg0.win 2).arr.view.set]{(dats m 0 c).share 2} (dats m 0 c).arrAt 2 n : sProp 𝕄)
      = (((c.tc : Thread nD τ).loc main_v17) ↦{fullShare.left} W main_v17) := by
  rw [(arr_whole0 2).set_eq_univ, hW 2, share_2 m c]
  try rfl
theorem arr_at_3 (c : Dev nD) (n : ℕ) (W : (b : Ref sig .tc) → Buf (Elt F) ((c.tc : Thread nD τ).loc b))
    (hW : ∀ w, (dats m 0 c).arrAt w n = W (Pipeline.arrRef spec0 w)) :
    ((cfg0.win 3).arr.view.loc (c.tc : Thread nD τ) ↦[(cfg0.win 3).arr.view.set]{(dats m 0 c).share 3} (dats m 0 c).arrAt 3 n : sProp 𝕄)
      = (((c.tc : Thread nD τ).loc main_v17) ↦{fullShare.right} W main_v17) := by
  rw [(arr_whole0 3).set_eq_univ, hW 3, share_3 m c]
  try rfl
theorem arr_at_4 (c : Dev nD) (n : ℕ) (W : (b : Ref sig .tc) → Buf (Elt F) ((c.tc : Thread nD τ).loc b))
    (hW : ∀ w, (dats m 0 c).arrAt w n = W (Pipeline.arrRef spec0 w)) :
    ((cfg0.win 4).arr.view.loc (c.tc : Thread nD τ) ↦[(cfg0.win 4).arr.view.set]{(dats m 0 c).share 4} (dats m 0 c).arrAt 4 n : sProp 𝕄)
      = (((c.tc : Thread nD τ).loc main_v18) ↦{fullShare} W main_v18) := by
  rw [(arr_whole0 4).set_eq_univ, hW 4, share_4 m c]
  try rfl
theorem arr_at_5 (c : Dev nD) (n : ℕ) (W : (b : Ref sig .tc) → Buf (Elt F) ((c.tc : Thread nD τ).loc b))
    (hW : ∀ w, (dats m 0 c).arrAt w n = W (Pipeline.arrRef spec0 w)) :
    ((cfg0.win 5).arr.view.loc (c.tc : Thread nD τ) ↦[(cfg0.win 5).arr.view.set]{(dats m 0 c).share 5} (dats m 0 c).arrAt 5 n : sProp 𝕄)
      = (((c.tc : Thread nD τ).loc main_arg9) ↦{fullShare} W main_arg9) := by
  rw [(arr_whole0 5).set_eq_univ, hW 5, share_5 m c]
  try rfl
theorem arr_at_6 (c : Dev nD) (n : ℕ) (W : (b : Ref sig .tc) → Buf (Elt F) ((c.tc : Thread nD τ).loc b))
    (hW : ∀ w, (dats m 0 c).arrAt w n = W (Pipeline.arrRef spec0 w)) :
    ((cfg0.win 6).arr.view.loc (c.tc : Thread nD τ) ↦[(cfg0.win 6).arr.view.set]{(dats m 0 c).share 6} (dats m 0 c).arrAt 6 n : sProp 𝕄)
      = (((c.tc : Thread nD τ).loc main_v19) ↦{fullShare} W main_v19) := by
  rw [(arr_whole0 6).set_eq_univ, hW 6, share_6 m c]
  try rfl
theorem arr_at_7 (c : Dev nD) (n : ℕ) (W : (b : Ref sig .tc) → Buf (Elt F) ((c.tc : Thread nD τ).loc b))
    (hW : ∀ w, (dats m 0 c).arrAt w n = W (Pipeline.arrRef spec0 w)) :
    ((cfg0.win 7).arr.view.loc (c.tc : Thread nD τ) ↦[(cfg0.win 7).arr.view.set]{(dats m 0 c).share 7} (dats m 0 c).arrAt 7 n : sProp 𝕄)
      = (((c.tc : Thread nD τ).loc main_v20) ↦{fullShare} W main_v20) := by
  rw [(arr_whole0 7).set_eq_univ, hW 7, share_7 m c]
  try rfl

set_option maxHeartbeats 1000000 in
/-- The eight windows' arrays at their shares, after `n` points, one by one. -/
theorem arrays_chain (c : Dev nD) (n : ℕ) (W : (b : Ref sig .tc) → Buf (Elt F) ((c.tc : Thread nD τ).loc b))
    (hW : ∀ w, (dats m 0 c).arrAt w n = W (Pipeline.arrRef spec0 w)) :
    ((dats m 0 c).arrays ((dats m 0 c).arrAt · n) : sProp 𝕄) = iprop((((c.tc : Thread nD τ).loc main_v14) ↦{fullShare} W main_v14)
      ∗ (((c.tc : Thread nD τ).loc main_v16) ↦{fullShare} W main_v16)
      ∗ (((c.tc : Thread nD τ).loc main_v17) ↦{fullShare.left} W main_v17)
      ∗ (((c.tc : Thread nD τ).loc main_v17) ↦{fullShare.right} W main_v17)
      ∗ (((c.tc : Thread nD τ).loc main_v18) ↦{fullShare} W main_v18)
      ∗ (((c.tc : Thread nD τ).loc main_arg9) ↦{fullShare} W main_arg9)
      ∗ (((c.tc : Thread nD τ).loc main_v19) ↦{fullShare} W main_v19)
      ∗ (((c.tc : Thread nD τ).loc main_v20) ↦{fullShare} W main_v20)) := by
  unfold Dat.arrays
  rw [bigSep_W0]
  simp only [arr_at_0 m c n W hW, arr_at_1 m c n W hW, arr_at_2 m c n W hW, arr_at_3 m c n W hW, arr_at_4 m c n W hW, arr_at_5 m c n W hW, arr_at_6 m c n W hW, arr_at_7 m c n W hW]

/-! ## The arrays against the buffers behind them, both ways -/

/-- The seven buffers whole are the eight windows' arrays at their shares: the membership buffer's permission halved
    between the two windows that read it. -/
theorem arrays_of_bufs (c : Dev nD) (n : ℕ) (W : (b : Ref sig .tc) → Buf (Elt F) ((c.tc : Thread nD τ).loc b))
    (hW : ∀ w, (dats m 0 c).arrAt w n = W (Pipeline.arrRef spec0 w)) :
    (Pipeline.arrBufs spec0 c W : sProp 𝕄) ⊢ (dats m 0 c).arrays ((dats m 0 c).arrAt · n) := by
  rw [arrBufs_chain, arrays_chain m c n W hW]
  iintro ⟨H14, H16, H17, H18, H9, H19, H20⟩
  ihave H17' := (pointsTo_share (PosShare.mem_left_op_right fullShare)).1 $$ H17
  icases H17' with ⟨H17l, H17r⟩
  isplitl [H14]; · iexact H14
  isplitl [H16]; · iexact H16
  isplitl [H17l]; · iexact H17l
  isplitl [H17r]; · iexact H17r
  isplitl [H18]; · iexact H18
  isplitl [H9]; · iexact H9
  isplitl [H19]; · iexact H19
  iexact H20

/-- And back: the two halves, at the same contents, join. -/
theorem bufs_of_arrays (c : Dev nD) (n : ℕ) (W : (b : Ref sig .tc) → Buf (Elt F) ((c.tc : Thread nD τ).loc b))
    (hW : ∀ w, (dats m 0 c).arrAt w n = W (Pipeline.arrRef spec0 w)) :
    ((dats m 0 c).arrays ((dats m 0 c).arrAt · n) : sProp 𝕄) ⊢ Pipeline.arrBufs spec0 c W := by
  rw [arrBufs_chain, arrays_chain m c n W hW]
  iintro ⟨H14, H16, H17l, H17r, H18, H9, H19, H20⟩
  ihave H17 := (pointsTo_share (PosShare.mem_left_op_right fullShare)).2 $$ [H17l H17r]
  · isplitl [H17l]; · iexact H17l
    iexact H17r
  isplitl [H14]; · iexact H14
  isplitl [H16]; · iexact H16
  isplitl [H17]; · iexact H17
  isplitl [H18]; · iexact H18
  isplitl [H9]; · iexact H9
  isplitl [H19]; · iexact H19
  iexact H20

/-- At the region's entry: `hsplit` of the launch. -/
theorem hsplit (c : Dev nD) : (Pipeline.arrBufs spec0 c (V m c) : sProp 𝕄) ⊢ (dats m 0 c).arrays ((dats m 0 c).arrAt · 0) :=
  arrays_of_bufs m c 0 (V m c) (fun w => rfl)

end Cert.Kernel.Pair

end
-- ==== Proof.KPairKeeps.lean ====
/-
  The host lines after the region write only their own result buffers: none of them writes an argument array, an
  array a window of the region reads or writes, or the readout computed before the region. So each of those holds
  after the lines what it held when they began.
-/
import proofs.«101599_j23914377904744_1_alg».proof.Proof.KPairHost

set_option maxRecDepth 16384

noncomputable section

namespace Cert.Kernel.Pair

open Idealize.ShloMosaic Idealize.ShloMosaic.TcCoe
open Idealize.SL Idealize.SL.Sem
open Cert.Kernel Cert.Kernel.Gen

variable {F : FTy → Type} [FloatOps F]

theorem after_keeps_main_arg1 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg1 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg2 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg2 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg3 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg3 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg4 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg4 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg5 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg5 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg6 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg6 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg7 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg7 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg8 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg8 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg9 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg9 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg10 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg10 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg11 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg11 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg12 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg12 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_arg13 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_arg13 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v14 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v14 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v16 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v16 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v17 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v17 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v18 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v18 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v19 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v19 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v20 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v20 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem after_keeps_main_v11 : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc main_v11 ∉ op.writes :=
  List.forall_iff_forall_mem.mp (by
    simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- A buffer no later line writes holds after them what it held before. -/
theorem after_lines_of_keeps (W : Valuation τ sig (Elt F)) (r : Ref sig .tc)
    (h : ∀ op ∈ (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (HloOp τ sig (Elt F))), Proc.devRef .tc r ∉ op.writes) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) W (Proc.devRef .tc r) = W (Proc.devRef .tc r) :=
  StableHlo.after_of_forall_not_mem (b := Proc.devRef .tc r) _ _ h

end Cert.Kernel.Pair

end
-- ==== Proof.KPairRun.lean ====
/-
  The whole run of the program: the host lines, the region launched over its grid, the host lines after it.

  At the region's exit every buffer holds what it held at the entry, except the score array, which holds what the
  grid's points wrote. The later host lines then run from those contents over all the unscoped buffers; none of
  them writes an array the region's windows name, so the region's arrays are handed back as they were. Every weakly
  fair execution therefore ends with the windows' arrays at what the region computed and every other unscoped buffer
  at what the later lines leave.
-/
import proofs.«101599_j23914377904744_1_alg».proof.Proof.KPairLaunch
import proofs.«101599_j23914377904744_1_alg».proof.Proof.KPairKeeps

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The contents at the region's exit, and after the later lines -/

open Classical in
/-- What each buffer holds when the region is left: the entry contents, but the score array at what the grid wrote. -/
def Wexit (c : Dev nD) : Valuation τ sig (Elt F) :=
  Function.update (V0 m c) (Proc.devRef .tc main_v20) ((dats m 0 c).arrAt 7 cfg0.N)

theorem Wexit_out (c : Dev nD) : Wexit m c (Proc.devRef .tc main_v20) = (dats m 0 c).arrAt 7 cfg0.N := by
  unfold Wexit; exact Function.update_self ..

theorem Wexit_of_ne (c : Dev nD) (b : Ref sig .tc) (hb : b ≠ main_v20) : Wexit m c (Proc.devRef .tc b) = V m c b := by
  unfold Wexit; exact Function.update_of_ne (StableHlo.devRef_ne_of_ne hb) ..

/-- What each buffer holds after the later host lines. -/
abbrev Wfin (c : Dev nD) (b : Ref sig .tc) : Buf (Elt F) ((c : Thread nD τ).loc b) :=
  StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c) (Proc.devRef .tc b)

/-- After the last point each window's array is the exit contents of the buffer behind it: an input array never
    changes, the score array is what the grid wrote. -/
theorem arrAt_exit (c : Dev nD) : ∀ w, (dats m 0 c).arrAt w cfg0.N = (fun b : Ref sig .tc => Wexit m c (Proc.devRef .tc b)) (Pipeline.arrRef spec0 w)
  | ⟨0, _⟩ => (((dats m 0 c).arrAt_in 0 rfl cfg0.N).trans (A_eq m c 0)).trans (Wexit_of_ne m c main_v14 (by decide)).symm
  | ⟨1, _⟩ => (((dats m 0 c).arrAt_in 1 rfl cfg0.N).trans (A_eq m c 1)).trans (Wexit_of_ne m c main_v16 (by decide)).symm
  | ⟨2, _⟩ => (((dats m 0 c).arrAt_in 2 rfl cfg0.N).trans (A_eq m c 2)).trans (Wexit_of_ne m c main_v17 (by decide)).symm
  | ⟨3, _⟩ => (((dats m 0 c).arrAt_in 3 rfl cfg0.N).trans (A_eq m c 3)).trans (Wexit_of_ne m c main_v17 (by decide)).symm
  | ⟨4, _⟩ => (((dats m 0 c).arrAt_in 4 rfl cfg0.N).trans (A_eq m c 4)).trans (Wexit_of_ne m c main_v18 (by decide)).symm
  | ⟨5, _⟩ => (((dats m 0 c).arrAt_in 5 rfl cfg0.N).trans (A_eq m c 5)).trans (Wexit_of_ne m c main_arg9 (by decide)).symm
  | ⟨6, _⟩ => (((dats m 0 c).arrAt_in 6 rfl cfg0.N).trans (A_eq m c 6)).trans (Wexit_of_ne m c main_v19 (by decide)).symm
  | ⟨7, _⟩ => (Wexit_out m c).symm

/-- And the later lines write none of them. -/
theorem arrAt_fin (c : Dev nD) : ∀ w, (dats m 0 c).arrAt w cfg0.N = (fun b : Ref sig .tc => Wfin m c b) (Pipeline.arrRef spec0 w)
  | ⟨0, _⟩ => (arrAt_exit m c 0).trans (after_lines_of_keeps (Wexit m c) main_v14 after_keeps_main_v14).symm
  | ⟨1, _⟩ => (arrAt_exit m c 1).trans (after_lines_of_keeps (Wexit m c) main_v16 after_keeps_main_v16).symm
  | ⟨2, _⟩ => (arrAt_exit m c 2).trans (after_lines_of_keeps (Wexit m c) main_v17 after_keeps_main_v17).symm
  | ⟨3, _⟩ => (arrAt_exit m c 3).trans (after_lines_of_keeps (Wexit m c) main_v17 after_keeps_main_v17).symm
  | ⟨4, _⟩ => (arrAt_exit m c 4).trans (after_lines_of_keeps (Wexit m c) main_v18 after_keeps_main_v18).symm
  | ⟨5, _⟩ => (arrAt_exit m c 5).trans (after_lines_of_keeps (Wexit m c) main_arg9 after_keeps_main_arg9).symm
  | ⟨6, _⟩ => (arrAt_exit m c 6).trans (after_lines_of_keeps (Wexit m c) main_v19 after_keeps_main_v19).symm
  | ⟨7, _⟩ => (arrAt_exit m c 7).trans (after_lines_of_keeps (Wexit m c) main_v20 after_keeps_main_v20).symm

/-- The buffers no window names hold at the exit what they held at the entry. -/
theorem rest_exit (c : Dev nD) : (Pipeline.unscopedRest (Ix := Unit) (Name := ℕ) (U := UR sig nD τ) (Lvl := ℕ) spec0 c (V m c) : sProp 𝕄)
    = Pipeline.unscopedRest spec0 c (fun b => Wexit m c (Proc.devRef .tc b)) := by
  unfold Pipeline.unscopedRest
  exact bigSep_congr fun b hb => congrArg (fun v => (((c.tc : Thread nD τ).loc b) ↦{fullShare} v : sProp 𝕄))
    (Wexit_of_ne m c b (fun e => (Finset.mem_sdiff.mp hb).2 (Finset.mem_image.mpr ⟨7, Finset.mem_univ _, arrRef_7.trans e.symm⟩))).symm

/-! ## The host lines after the region -/

theorem linesAfter_sub : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (List (HloOp τ sig (Elt F)))).Forall fun ops => ops.Forall fun op => op.bufs ⊆ StableHlo.tcRefs τ sig := by
  simp only [List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub⟩
theorem linesAfter_fresh : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] : List (List (HloOp τ sig (Elt F)))).Forall fun ops => ops.Forall fun op => op.fresh = ∅ := by
  simp only [List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh⟩

/-- The windows' arrays at the exit with the other unscoped buffers are all the unscoped buffers at the exit contents. -/
theorem held_of_exit (c : Dev nD) :
    iprop((dats m 0 c).arrays ((dats m 0 c).arrAt · cfg0.N) ∗ Pipeline.unscopedRest (Ix := Unit) (Name := ℕ) (U := UR sig nD τ) (Lvl := ℕ) spec0 c (fun b => Wexit m c (Proc.devRef .tc b)))
      ⊢ (StableHlo.held (c.tc : Thread nD τ) (Pipeline.ucRefs τ sig) (Wexit m c) : sProp 𝕄) :=
  (sep_mono (bufs_of_arrays m c cfg0.N _ (arrAt_exit m c)) .rfl).trans
    (Entails.of_eq ((Pipeline.unscopedBufs_split₀ cfgs 0 winFacts₀0.arr_unscoped c _).symm.trans
      (Pipeline.unscopedBufs_held (Ix := Unit) (Name := ℕ) (U := UR sig nD τ) (Lvl := ℕ) c (Wexit m c))))

/-- All the unscoped buffers at the contents after the later lines are the windows' arrays as the region left them
    with the other unscoped buffers at those contents. -/
theorem fin_of_held (c : Dev nD) :
    (StableHlo.held (c.tc : Thread nD τ) (Pipeline.ucRefs τ sig) (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c)) : sProp 𝕄)
      ⊢ iprop((dats m 0 c).arrays ((dats m 0 c).arrAt · cfg0.N) ∗ Pipeline.unscopedRest (Ix := Unit) (Name := ℕ) (U := UR sig nD τ) (Lvl := ℕ) spec0 c (Wfin m c)) :=
  (Entails.of_eq ((Pipeline.unscopedBufs_held (Ix := Unit) (Name := ℕ) (U := UR sig nD τ) (Lvl := ℕ) c (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) (Wexit m c))).symm.trans
      (Pipeline.unscopedBufs_split₀ cfgs 0 winFacts₀0.arr_unscoped c _))).trans
    (sep_mono (arrays_of_bufs m c cfg0.N _ (arrAt_fin m c)) .rfl)

set_option backward.isDefEq.respectTransparency.types false in
set_option maxHeartbeats 1000000 in
/-- The later lines, from the region's exit: holding the windows' arrays as the region left them and the other unscoped
    buffers at the entry contents, they run and hand back the arrays unchanged and the other buffers at `Wfin`. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Wfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) Q' := by
  classical
  rw [Pipeline.unscopedRestP_none, Pipeline.unscopedRestP_none, rest_exit m c, ← List.append_nil (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])]
  iintro ⟨Hk, Hb, Ha, Hr⟩
  iapply (Pipeline.wp_seqs_then (fun q => (cfgs q).toPCfg (Val := Elt F)) defs₀ Variants.none c (Pipeline.ucRefs τ sig) [] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]
    (fun ops ho op h => Pipeline.sub_ucRefs op ((List.forall_iff_forall_mem.mp ((List.forall_iff_forall_mem.mp linesAfter_sub) ops ho)) op h))
    (fun ops ho op h => (List.forall_iff_forall_mem.mp ((List.forall_iff_forall_mem.mp linesAfter_fresh) ops ho)) op h) (Wexit m c)) $$ [Hb Ha Hr]
  · isplitl [Hb]; · iexact Hb
    iapply (held_of_exit m c)
    isplitl [Ha]; · iexact Ha
    iexact Hr
  iintro ⟨Hb, Hh⟩
  rw [Pipeline.chain_nil, wp_pure]
  imodintro
  iapply Hk
  iapply (fin_of_held m c)
  iexact Hh

/-! ## The run -/

set_option backward.isDefEq.respectTransparency.types false in
set_option maxHeartbeats 2000000 in
set_option maxRecDepth 400000 in
/-- From any memory with zero counters every weakly fair execution of the program terminates, nothing faulting, with
    every window's array at what the proof data computes after the last point and every other unscoped buffer at
    what the later host lines leave. -/
theorem run_main : θ_run (defs (F := F)) (onTc (τ := τ) (main (F := F))) (s₀ m ρ) (Pipeline.FramePost cfgs (dats m) 0 (Wfin m)) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain (List.map StableHlo.seq [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15])) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m c) s')
      isplitl [HU] <;> iassumption)
    (hQ := fun s h c => ⟨(h c).1, Pipeline.rest_of_restP Pipeline.Prefetch.none spec0 Pipeline.Prefetch.Contents.none c (Wfin m c) s (fun k => k.elim0) (h c).2.1 (h c).2.2⟩)

end Cert.Kernel.Pair

end
-- ==== Proof.KPairFrame.lean ====
/-
  The program's frame: it runs to the end, nothing faulting, and every argument array ends as it began.

  Thirteen of the fourteen argument arrays are named by no window of the region: no host line before or after the
  region writes them, and the region does not touch them. The output weights are read by one window of the region,
  as an input, and an input window's array never changes.
-/
import proofs.«101599_j23914377904744_1_alg».proof.Proof.KPairRun

set_option maxRecDepth 16384

noncomputable section

namespace Cert.Kernel.Pair

open Idealize.ShloMosaic Idealize.ShloMosaic.TcCoe
open Idealize.SL Idealize.SL.Sem
open Idealize.ShloMosaic.Pipeline (Dat)
open Cert.Kernel Cert.Kernel.Gen

variable {F : FTy → Type} [FloatOps F] [∀ e, Nonempty (Elt F e)]

variable (m : (ℓ : Loc nD τ sig) → Buf (Elt F) ℓ) (ρ : Dev nD → PrngReg)

theorem Wfin_main_arg0 (c : Dev nD) : Wfin m c main_arg0 = m ((c : Thread nD τ).loc main_arg0) :=
  (after_lines_of_keeps (Wexit m c) main_arg0 after_keeps_main_arg0).trans ((Wexit_of_ne m c main_arg0 (by decide)).trans (V_main_arg0 m c))
theorem Wfin_main_arg1 (c : Dev nD) : Wfin m c main_arg1 = m ((c : Thread nD τ).loc main_arg1) :=
  (after_lines_of_keeps (Wexit m c) main_arg1 after_keeps_main_arg1).trans ((Wexit_of_ne m c main_arg1 (by decide)).trans (V_main_arg1 m c))
theorem Wfin_main_arg2 (c : Dev nD) : Wfin m c main_arg2 = m ((c : Thread nD τ).loc main_arg2) :=
  (after_lines_of_keeps (Wexit m c) main_arg2 after_keeps_main_arg2).trans ((Wexit_of_ne m c main_arg2 (by decide)).trans (V_main_arg2 m c))
theorem Wfin_main_arg3 (c : Dev nD) : Wfin m c main_arg3 = m ((c : Thread nD τ).loc main_arg3) :=
  (after_lines_of_keeps (Wexit m c) main_arg3 after_keeps_main_arg3).trans ((Wexit_of_ne m c main_arg3 (by decide)).trans (V_main_arg3 m c))
theorem Wfin_main_arg4 (c : Dev nD) : Wfin m c main_arg4 = m ((c : Thread nD τ).loc main_arg4) :=
  (after_lines_of_keeps (Wexit m c) main_arg4 after_keeps_main_arg4).trans ((Wexit_of_ne m c main_arg4 (by decide)).trans (V_main_arg4 m c))
theorem Wfin_main_arg5 (c : Dev nD) : Wfin m c main_arg5 = m ((c : Thread nD τ).loc main_arg5) :=
  (after_lines_of_keeps (Wexit m c) main_arg5 after_keeps_main_arg5).trans ((Wexit_of_ne m c main_arg5 (by decide)).trans (V_main_arg5 m c))
theorem Wfin_main_arg6 (c : Dev nD) : Wfin m c main_arg6 = m ((c : Thread nD τ).loc main_arg6) :=
  (after_lines_of_keeps (Wexit m c) main_arg6 after_keeps_main_arg6).trans ((Wexit_of_ne m c main_arg6 (by decide)).trans (V_main_arg6 m c))
theorem Wfin_main_arg7 (c : Dev nD) : Wfin m c main_arg7 = m ((c : Thread nD τ).loc main_arg7) :=
  (after_lines_of_keeps (Wexit m c) main_arg7 after_keeps_main_arg7).trans ((Wexit_of_ne m c main_arg7 (by decide)).trans (V_main_arg7 m c))
theorem Wfin_main_arg8 (c : Dev nD) : Wfin m c main_arg8 = m ((c : Thread nD τ).loc main_arg8) :=
  (after_lines_of_keeps (Wexit m c) main_arg8 after_keeps_main_arg8).trans ((Wexit_of_ne m c main_arg8 (by decide)).trans (V_main_arg8 m c))
theorem Wfin_main_arg10 (c : Dev nD) : Wfin m c main_arg10 = m ((c : Thread nD τ).loc main_arg10) :=
  (after_lines_of_keeps (Wexit m c) main_arg10 after_keeps_main_arg10).trans ((Wexit_of_ne m c main_arg10 (by decide)).trans (V_main_arg10 m c))
theorem Wfin_main_arg11 (c : Dev nD) : Wfin m c main_arg11 = m ((c : Thread nD τ).loc main_arg11) :=
  (after_lines_of_keeps (Wexit m c) main_arg11 after_keeps_main_arg11).trans ((Wexit_of_ne m c main_arg11 (by decide)).trans (V_main_arg11 m c))
theorem Wfin_main_arg12 (c : Dev nD) : Wfin m c main_arg12 = m ((c : Thread nD τ).loc main_arg12) :=
  (after_lines_of_keeps (Wexit m c) main_arg12 after_keeps_main_arg12).trans ((Wexit_of_ne m c main_arg12 (by decide)).trans (V_main_arg12 m c))
theorem Wfin_main_arg13 (c : Dev nD) : Wfin m c main_arg13 = m ((c : Thread nD τ).loc main_arg13) :=
  (after_lines_of_keeps (Wexit m c) main_arg13 after_keeps_main_arg13).trans ((Wexit_of_ne m c main_arg13 (by decide)).trans (V_main_arg13 m c))

/-- The output weights, read through the region's sixth window, end as they began. -/
theorem arrAt_main_arg9 (c : Dev nD) : (dats m 0 c).arrAt 5 cfg0.N = m ((c : Thread nD τ).loc main_arg9) :=
  ((dats m 0 c).arrAt_in 5 rfl cfg0.N).trans ((A_eq m c 5).trans (V_main_arg9 m c))

/-- The frame, at any instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (Wfin_main_arg0 m c),
    ((h c).2 main_arg1 (Pipeline.mem_restRefs_of main_arg1 (by decide) (by decide))).trans (Wfin_main_arg1 m c),
    ((h c).2 main_arg2 (Pipeline.mem_restRefs_of main_arg2 (by decide) (by decide))).trans (Wfin_main_arg2 m c),
    ((h c).2 main_arg3 (Pipeline.mem_restRefs_of main_arg3 (by decide) (by decide))).trans (Wfin_main_arg3 m c),
    ((h c).2 main_arg4 (Pipeline.mem_restRefs_of main_arg4 (by decide) (by decide))).trans (Wfin_main_arg4 m c),
    ((h c).2 main_arg5 (Pipeline.mem_restRefs_of main_arg5 (by decide) (by decide))).trans (Wfin_main_arg5 m c),
    ((h c).2 main_arg6 (Pipeline.mem_restRefs_of main_arg6 (by decide) (by decide))).trans (Wfin_main_arg6 m c),
    ((h c).2 main_arg7 (Pipeline.mem_restRefs_of main_arg7 (by decide) (by decide))).trans (Wfin_main_arg7 m c),
    ((h c).2 main_arg8 (Pipeline.mem_restRefs_of main_arg8 (by decide) (by decide))).trans (Wfin_main_arg8 m c),
    ((h c).1 5).trans (arrAt_main_arg9 m c),
    ((h c).2 main_arg10 (Pipeline.mem_restRefs_of main_arg10 (by decide) (by decide))).trans (Wfin_main_arg10 m c),
    ((h c).2 main_arg11 (Pipeline.mem_restRefs_of main_arg11 (by decide) (by decide))).trans (Wfin_main_arg11 m c),
    ((h c).2 main_arg12 (Pipeline.mem_restRefs_of main_arg12 (by decide) (by decide))).trans (Wfin_main_arg12 m c),
    ((h c).2 main_arg13 (Pipeline.mem_restRefs_of main_arg13 (by decide) (by decide))).trans (Wfin_main_arg13 m c)⟩) (run_main m ρ)

/-- The readout, computed before the region, is written by no later line. -/
theorem Wfin_main_v11 (c : Dev nD) : Wfin m c main_v11 = V m c main_v11 :=
  (after_lines_of_keeps (Wexit m c) main_v11 after_keeps_main_v11).trans (Wexit_of_ne m c main_v11 (by decide))

/-- The same run with the two result buffers named: the probabilities at what the later host lines leave there,
    the readout at what the lines before the region computed. -/
theorem run_full : θ_run (defs (F := F)) (onTc (τ := τ) (main (F := F))) ⟨m, fun _ => 0, ρ⟩ (fun r => ∀ c : Dev nD,
      r.2.mem ((c.tc : Thread nD τ).loc main_v74) = Wfin m c main_v74
      ∧ r.2.mem ((c.tc : Thread nD τ).loc main_v11) = V m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v74 (Pipeline.mem_restRefs_of main_v74 (by decide) (by decide)),
    ((h c).2 main_v11 (Pipeline.mem_restRefs_of main_v11 (by decide) (by decide))).trans (Wfin_main_v11 m c),
    ((h c).2 main_arg0 (Pipeline.mem_restRefs_of main_arg0 (by decide) (by decide))).trans (Wfin_main_arg0 m c),
    ((h c).2 main_arg1 (Pipeline.mem_restRefs_of main_arg1 (by decide) (by decide))).trans (Wfin_main_arg1 m c),
    ((h c).2 main_arg2 (Pipeline.mem_restRefs_of main_arg2 (by decide) (by decide))).trans (Wfin_main_arg2 m c),
    ((h c).2 main_arg3 (Pipeline.mem_restRefs_of main_arg3 (by decide) (by decide))).trans (Wfin_main_arg3 m c),
    ((h c).2 main_arg4 (Pipeline.mem_restRefs_of main_arg4 (by decide) (by decide))).trans (Wfin_main_arg4 m c),
    ((h c).2 main_arg5 (Pipeline.mem_restRefs_of main_arg5 (by decide) (by decide))).trans (Wfin_main_arg5 m c),
    ((h c).2 main_arg6 (Pipeline.mem_restRefs_of main_arg6 (by decide) (by decide))).trans (Wfin_main_arg6 m c),
    ((h c).2 main_arg7 (Pipeline.mem_restRefs_of main_arg7 (by decide) (by decide))).trans (Wfin_main_arg7 m c),
    ((h c).2 main_arg8 (Pipeline.mem_restRefs_of main_arg8 (by decide) (by decide))).trans (Wfin_main_arg8 m c),
    ((h c).1 5).trans (arrAt_main_arg9 m c),
    ((h c).2 main_arg10 (Pipeline.mem_restRefs_of main_arg10 (by decide) (by decide))).trans (Wfin_main_arg10 m c),
    ((h c).2 main_arg11 (Pipeline.mem_restRefs_of main_arg11 (by decide) (by decide))).trans (Wfin_main_arg11 m c),
    ((h c).2 main_arg12 (Pipeline.mem_restRefs_of main_arg12 (by decide) (by decide))).trans (Wfin_main_arg12 m c),
    ((h c).2 main_arg13 (Pipeline.mem_restRefs_of main_arg13 (by decide) (by decide))).trans (Wfin_main_arg13 m c)⟩) (run_main m ρ)

end Cert.Kernel.Pair

end
-- ==== Proof.RefOps.lean ====
/- The reference program's @main as a list of its 217 host operations, every outlined function's
   operations standing at its call over the call's buffers, and the equation `main = seq ops`. The list is cut
   into five stretches: the all-pairs scores up to their flattening (`opsP`), and four stretches of the
   gather-and-softmax tail (`opsT0` … `opsT3`). -/
import proofs.«101599_j23914377904744_1_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 43 of 217. -/
abbrev opsP : List (HloOp τ sig (Elt F)) :=
  [ StableHlo.nullary main_cst (constant S_ .f32 0x00000000#32),
    StableHlo.unary main_cst main_v0 (broadcastInDim S128x128 ![] bcast_S_S128x128 : (⟨S_, .f32⟩ : BufTy).Contents (Elt F) → (⟨S128x128, .f32⟩ : BufTy).Contents (Elt F)),
    StableHlo.unary main_arg12 main_v1 (broadcastInDim S1024x1 ![0] bcast_S1024_S1024x1_0 : (⟨S1024, .i32⟩ : BufTy).Contents (Elt F) → (⟨S1024x1, .i32⟩ : BufTy).Contents (Elt F)),
    StableHlo.ternary main_v0 main_v1 main_arg0 main_v2 ((fun x i u => Host.scatterAdd scatter_S128x128_S1024x1_S1024x128_1_0_0_1 x i u) : (⟨S128x128, .f32⟩ : BufTy).Contents (Elt F) → (⟨S1024x1, .i32⟩ : BufTy).Contents (Elt F) → (⟨S1024x128, .f32⟩ : BufTy).Contents (Elt F) → (⟨S128x128, .f32⟩ : BufTy).Contents (Elt F)),
    StableHlo.binary main_v2 main_arg3 main_v3 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    StableHlo.unary main_arg4 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S128x64 ![0, 1] bcast_S1x64_S128x64_0_1 : (⟨S1x64, .f32⟩ : BufTy).Contents (Elt F) → (⟨S128x64, .f32⟩ : BufTy).Contents (Elt F)),
    StableHlo.binary main_v3 main_v5 main_v6 (addf : (⟨S128x64, .f32⟩ : BufTy).Contents (Elt F) → (⟨S128x64, .f32⟩ : BufTy).Contents (Elt F) → (⟨S128x64, .f32⟩ : BufTy).Contents (Elt F)),
    StableHlo.nullary main_call0_cst (constant S_ .f32 0x00000000#32),
    StableHlo.unary main_call0_cst main_call0_v0 (broadcastInDim S128x64 ![] bcast_S_S128x64 : (⟨S_, .f32⟩ : BufTy).Contents (Elt F) → (⟨S128x64, .f32⟩ : BufTy).Contents (Elt F)),
    StableHlo.binary main_v6 main_call0_v0 main_v7 (maximumf : (⟨S128x64, .f32⟩ : BufTy).Contents (Elt F) → (⟨S128x64, .f32⟩ : BufTy).Contents (Elt F) → (⟨S128x64, .f32⟩ : BufTy).Contents (Elt F)),
    StableHlo.binary main_v7 main_arg5 main_v8 ((fun l r => Host.dotGeneral dot_S128x64_S64x1_S128x1_1_0_0_1_n_n none l r) : (⟨S128x64, .f32⟩ : BufTy).Contents (Elt F) → (⟨S64x1, .f32⟩ : BufTy).Contents (Elt F) → (⟨S128x1, .f32⟩ : BufTy).Contents (Elt F)),
    StableHlo.unary main_arg6 main_v9 (broadcastInDim S1x1 ![1] bcast_S1_S1x1_1 : (⟨S1, .f32⟩ : BufTy).Contents (Elt F) → (⟨S1x1, .f32⟩ : BufTy).Contents (Elt F)),
    StableHlo.unary main_v9 main_v10 (broadcastInDim S128x1 ![0, 1] bcast_S1x1_S128x1_0_1 : (⟨S1x1, .f32⟩ : BufTy).Contents (Elt F) → (⟨S128x1, .f32⟩ : BufTy).Contents (Elt F)),
    StableHlo.binary main_v8 main_v10 main_v11 (addf : (⟨S128x1, .f32⟩ : BufTy).Contents (Elt F) → (⟨S128x1, .f32⟩ : BufTy).Contents (Elt F) → (⟨S128x1, .f32⟩ : BufTy).Contents (Elt F)),
    StableHlo.nullary main_call1_cst (constant S_ .f32 0x00000000#32),
    StableHlo.unary main_call1_cst main_call1_v0 (broadcastInDim S1024x128 ![] bcast_S_S1024x128 : (⟨S_, .f32⟩ : BufTy).Contents (Elt F) → (⟨S1024x128, .f32⟩ : BufTy).Contents (Elt F)),
    StableHlo.binary main_arg0 main_call1_v0 main_v12 (maximumf : (⟨S1024x128, .f32⟩ : BufTy).Contents (Elt F) → (⟨S1024x128, .f32⟩ : BufTy).Contents (Elt F) → (⟨S1024x128, .f32⟩ : BufTy).Contents (Elt F)),
    StableHlo.unary main_arg7 main_v13 ((extractStridedSlice S128x128 ![0, 0] · slices_S256x128_S128x128_0_0) : (⟨S256x128, .f32⟩ : BufTy).Contents (Elt F) → (⟨S128x128, .f32⟩ : BufTy).Contents (Elt F)),
    StableHlo.binary main_v12 main_v13 main_v14 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg7 main_v15 ((extractStridedSlice S128x128 ![128, 0] · slices_S256x128_S128x128_128_0) : (⟨S256x128, .f32⟩ : BufTy).Contents (Elt F) → (⟨S128x128, .f32⟩ : BufTy).Contents (Elt F)),
    StableHlo.binary main_v12 main_v15 main_v16 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_v14 main_v17 (broadcastInDim S1024x1x128 ![0, 2] bcast_S1024x128_S1024x1x128_0_2 : (⟨S1024x128, .f32⟩ : BufTy).Contents (Elt F) → (⟨S1024x1x128, .f32⟩ : BufTy).Contents (Elt F)),
    StableHlo.unary main_v16 main_v18 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v17 main_v19 (broadcastInDim S1024x1024x128 ![0, 1, 2] bcast_S1024x1x128_S1024x1024x128_0_1_2 : (⟨S1024x1x128, .f32⟩ : BufTy).Contents (Elt F) → (⟨S1024x1024x128, .f32⟩ : BufTy).Contents (Elt F)),
    StableHlo.unary main_v18 main_v20 (broadcastInDim S1024x1024x128 ![0, 1, 2] bcast_S1x1024x128_S1024x1024x128_0_1_2 : (⟨S1x1024x128, .f32⟩ : BufTy).Contents (Elt F) → (⟨S1024x1024x128, .f32⟩ : BufTy).Contents (Elt F)),
    StableHlo.binary main_v19 main_v20 main_v21 (addf : (⟨S1024x1024x128, .f32⟩ : BufTy).Contents (Elt F) → (⟨S1024x1024x128, .f32⟩ : BufTy).Contents (Elt F) → (⟨S1024x1024x128, .f32⟩ : BufTy).Contents (Elt F)),
    StableHlo.unary main_arg8 main_v22 (broadcastInDim S1x1x128 ![2] bcast_S128_S1x1x128_2 : (⟨S128, .f32⟩ : BufTy).Contents (Elt F) → (⟨S1x1x128, .f32⟩ : BufTy).Contents (Elt F)),
    StableHlo.unary main_v22 main_v23 (broadcastInDim S1024x1024x128 ![0, 1, 2] bcast_S1x1x128_S1024x1024x128_0_1_2 : (⟨S1x1x128, .f32⟩ : BufTy).Contents (Elt F) → (⟨S1024x1024x128, .f32⟩ : BufTy).Contents (Elt F)),
    StableHlo.binary main_v21 main_v23 main_v24 (addf : (⟨S1024x1024x128, .f32⟩ : BufTy).Contents (Elt F) → (⟨S1024x1024x128, .f32⟩ : BufTy).Contents (Elt F) → (⟨S1024x1024x128, .f32⟩ : BufTy).Contents (Elt F)),
    StableHlo.nullary main_call2_cst (constant S_ .f32 0x00000000#32),
    StableHlo.unary main_call2_cst main_call2_v0 (broadcastInDim S1024x1024x128 ![] bcast_S_S1024x1024x128 : (⟨S_, .f32⟩ : BufTy).Contents (Elt F) → (⟨S1024x1024x128, .f32⟩ : BufTy).Contents (Elt F)),
    StableHlo.binary main_v24 main_call2_v0 main_v25 (maximumf : (⟨S1024x1024x128, .f32⟩ : BufTy).Contents (Elt F) → (⟨S1024x1024x128, .f32⟩ : BufTy).Contents (Elt F) → (⟨S1024x1024x128, .f32⟩ : BufTy).Contents (Elt F)),
    StableHlo.unary main_arg1 main_v26 ((transpose S1024x128 [1, 0] · transposes_S128x1024_S1024x128_1_0) : (⟨S128x1024, .f32⟩ : BufTy).Contents (Elt F) → (⟨S1024x128, .f32⟩ : BufTy).Contents (Elt F)),
    StableHlo.binary main_v26 main_arg1 main_v27 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F)),
    StableHlo.unary main_v27 main_v28 (broadcastInDim S1024x1024x1 ![0, 1] bcast_S1024x1024_S1024x1024x1_0_1 : (⟨S1024x1024, .f32⟩ : BufTy).Contents (Elt F) → (⟨S1024x1024x1, .f32⟩ : BufTy).Contents (Elt F)),
    StableHlo.binary main_v25 main_arg9 main_v29 ((fun l r => Host.dotGeneral dot_S1024x1024x128_S128x3_S1024x1024x3_2_0_01_1_n_n none l r) : (⟨S1024x1024x128, .f32⟩ : BufTy).Contents (Elt F) → (⟨S128x3, .f32⟩ : BufTy).Contents (Elt F) → (⟨S1024x1024x3, .f32⟩ : BufTy).Contents (Elt F)),
    StableHlo.unary main_arg10 main_v30 (broadcastInDim S1x1x3 ![2] bcast_S3_S1x1x3_2 : (⟨S3, .f32⟩ : BufTy).Contents (Elt F) → (⟨S1x1x3, .f32⟩ : BufTy).Contents (Elt F)),
    StableHlo.unary main_v30 main_v31 (broadcastInDim S1024x1024x3 ![0, 1, 2] bcast_S1x1x3_S1024x1024x3_0_1_2 : (⟨S1x1x3, .f32⟩ : BufTy).Contents (Elt F) → (⟨S1024x1024x3, .f32⟩ : BufTy).Contents (Elt F)),
    StableHlo.binary main_v29 main_v31 main_v32 (addf : (⟨S1024x1024x3, .f32⟩ : BufTy).Contents (Elt F) → (⟨S1024x1024x3, .f32⟩ : BufTy).Contents (Elt F) → (⟨S1024x1024x3, .f32⟩ : BufTy).Contents (Elt F)),
    StableHlo.unary main_v28 main_v33 (broadcastInDim S1024x1024x3 ![0, 1, 2] bcast_S1024x1024x1_S1024x1024x3_0_1_2 : (⟨S1024x1024x1, .f32⟩ : BufTy).Contents (Elt F) → (⟨S1024x1024x3, .f32⟩ : BufTy).Contents (Elt F)),
    StableHlo.binary main_v32 main_v33 main_v34 (mulf : (⟨S1024x1024x3, .f32⟩ : BufTy).Contents (Elt F) → (⟨S1024x1024x3, .f32⟩ : BufTy).Contents (Elt F) → (⟨S1024x1024x3, .f32⟩ : BufTy).Contents (Elt F)),
    StableHlo.reshape main_v34 main_v35 rfl shapeCasts_S1024x1024x3_S3145728 ]

/-- Operations 44 … 100 of 217. -/
abbrev opsT0 : List (HloOp τ sig (Elt F)) :=
  [ StableHlo.nullary main_call3_call0_c (constantI S_ 32 0#32),
    StableHlo.unary main_call3_call0_c main_call3_call0_v0 (broadcastInDim S_ ![] bcast_S_S_ : (⟨S_, .i32⟩ : BufTy).Contents (Elt F) → (⟨S_, .i32⟩ : BufTy).Contents (Elt F)),
    StableHlo.binary main_arg13 main_call3_call0_v0 main_v36 (fun x v => Host.reduceWindow IntOp.addi ![128] ![1] ![127] ![0] x v reduceWindows_S128_S128_w128s1p127_0 h_S_ : (⟨S128, .i32⟩ : BufTy).Contents (Elt F) → (⟨S_, .i32⟩ : BufTy).Contents (Elt F) → (⟨S128, .i32⟩ : BufTy).Contents (Elt F)),
    StableHlo.binary main_v36 main_arg13 main_v37 (subi : (⟨S128, .i32⟩ : BufTy).Contents (Elt F) → (⟨S128, .i32⟩ : BufTy).Contents (Elt F) → (⟨S128, .i32⟩ : BufTy).Contents (Elt F)),
    StableHlo.nullary main_v38 (iotaInDim S243 32 0),
    StableHlo.unary main_v38 main_v39 (broadcastInDim S1x243 ![1] bcast_S243_S1x243_1 : (⟨S243, .i32⟩ : BufTy).Contents (Elt F) → (⟨S1x243, .i32⟩ : BufTy).Contents (Elt F)),
    StableHlo.unary main_arg13 main_v40 (broadcastInDim S128x1 ![0] bcast_S128_S128x1_0 : (⟨S128, .i32⟩ : BufTy).Contents (Elt F) → (⟨S128x1, .i32⟩ : BufTy).Contents (Elt F)),
    StableHlo.unary main_v37 main_v41 (broadcastInDim S128x1 ![0] bcast_S128_S128x1_0 : (⟨S128, .i32⟩ : BufTy).Contents (Elt F) → (⟨S128x1, .i32⟩ : BufTy).Contents (Elt F)),
    StableHlo.nullary main_c (constantI S_ 32 3#32),
    StableHlo.unary main_c main_v42 (broadcastInDim S128x1 ![] bcast_S_S128x1 : (⟨S_, .i32⟩ : BufTy).Contents (Elt F) → (⟨S128x1, .i32⟩ : BufTy).Contents (Elt F)),
    StableHlo.binary main_v40 main_v42 main_v43 (muli : (⟨S128x1, .i32⟩ : BufTy).Contents (Elt F) → (⟨S128x1, .i32⟩ : BufTy).Contents (Elt F) → (⟨S128x1, .i32⟩ : BufTy).Contents (Elt F)),
    StableHlo.unary main_v39 main_call4_v0 (broadcastInDim S128x243 ![0, 1] bcast_S1x243_S128x243_0_1 : (⟨S1x243, .i32⟩ : BufTy).Contents (Elt F) → (⟨S128x243, .i32⟩ : BufTy).Contents (Elt F)),
    StableHlo.unary main_v43 main_call4_v1 (broadcastInDim S128x243 ![0, 1] bcast_S128x1_S128x243_0_1 : (⟨S128x1, .i32⟩ : BufTy).Contents (Elt F) → (⟨S128x243, .i32⟩ : BufTy).Contents (Elt F)),
    StableHlo.binary main_call4_v0 main_call4_v1 main_call4_v2 (Host.divsi : (⟨S128x243, .i32⟩ : BufTy).Contents (Elt F) → (⟨S128x243, .i32⟩ : BufTy).Contents (Elt F) → (⟨S128x243, .i32⟩ : BufTy).Contents (Elt F)),
    StableHlo.unary main_v39 main_call4_v3 (signi : (⟨S1x243, .i32⟩ : BufTy).Contents (Elt F) → (⟨S1x243, .i32⟩ : BufTy).Contents (Elt F)),
    StableHlo.unary main_v43 main_call4_v4 (signi : (⟨S128x1, .i32⟩ : BufTy).Contents (Elt F) → (⟨S128x1, .i32⟩ : BufTy).Contents (Elt F)),
    StableHlo.unary main_call4_v3 main_call4_v5 (broadcastInDim S128x243 ![0, 1] bcast_S1x243_S128x243_0_1 : (⟨S1x243, .i32⟩ : BufTy).Contents (Elt F) → (⟨S128x243, .i32⟩ : BufTy).Contents (Elt F)),
    StableHlo.unary main_call4_v4 main_call4_v6 (broadcastInDim S128x243 ![0, 1] bcast_S128x1_S128x243_0_1 : (⟨S128x1, .i32⟩ : BufTy).Contents (Elt F) → (⟨S128x243, .i32⟩ : BufTy).Contents (Elt F)),
    StableHlo.binary main_call4_v5 main_call4_v6 main_call4_v7 (cmpi .ne : (⟨S128x243, .i32⟩ : BufTy).Contents (Elt F) → (⟨S128x243, .i32⟩ : BufTy).Contents (Elt F) → (⟨S128x243, .i1⟩ : BufTy).Contents (Elt F)),
    StableHlo.unary main_v39 main_call4_v8 (broadcastInDim S128x243 ![0, 1] bcast_S1x243_S128x243_0_1 : (⟨S1x243, .i32⟩ : BufTy).Contents (Elt F) → (⟨S128x243, .i32⟩ : BufTy).Contents (Elt F)),
    StableHlo.unary main_v43 main_call4_v9 (broadcastInDim S128x243 ![0, 1] bcast_S128x1_S128x243_0_1 : (⟨S128x1, .i32⟩ : BufTy).Contents (Elt F) → (⟨S128x243, .i32⟩ : BufTy).Contents (Elt F)),
    StableHlo.binary main_call4_v8 main_call4_v9 main_call4_v10 (Host.remsi : (⟨S128x243, .i32⟩ : BufTy).Contents (Elt F) → (⟨S128x243, .i32⟩ : BufTy).Contents (Elt F) → (⟨S128x243, .i32⟩ : BufTy).Contents (Elt F)),
    StableHlo.nullary main_call4_c (constantI S_ 32 0#32),
    StableHlo.unary main_call4_c main_call4_v11 (broadcastInDim S128x243 ![] bcast_S_S128x243 : (⟨S_, .i32⟩ : BufTy).Contents (Elt F) → (⟨S128x243, .i32⟩ : BufTy).Contents (Elt F)),
    StableHlo.binary main_call4_v10 main_call4_v11 main_call4_v12 (cmpi .ne : (⟨S128x243, .i32⟩ : BufTy).Contents (Elt F) → (⟨S128x243, .i32⟩ : BufTy).Contents (Elt F) → (⟨S128x243, .i1⟩ : BufTy).Contents (Elt F)),
    StableHlo.binary main_call4_v7 main_call4_v12 main_call4_v13 (andi : (⟨S128x243, .i1⟩ : BufTy).Contents (Elt F) → (⟨S128x243, .i1⟩ : BufTy).Contents (Elt F) → (⟨S128x243, .i1⟩ : BufTy).Contents (Elt F)),
    StableHlo.nullary main_call4_c_0 (constantI S_ 32 1#32),
    StableHlo.unary main_call4_c_0 main_call4_v14 (broadcastInDim S128x243 ![] bcast_S_S128x243 : (⟨S_, .i32⟩ : BufTy).Contents (Elt F) → (⟨S128x243, .i32⟩ : BufTy).Contents (Elt F)),
    StableHlo.binary main_call4_v2 main_call4_v14 main_call4_v15 (subi : (⟨S128x243, .i32⟩ : BufTy).Contents (Elt F) → (⟨S128x243, .i32⟩ : BufTy).Contents (Elt F) → (⟨S128x243, .i32⟩ : BufTy).Contents (Elt F)),
    StableHlo.ternary main_call4_v13 main_call4_v15 main_call4_v2 main_v44 (select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)),
    StableHlo.nullary main_c_0 (constantI S_ 32 3#32),
    StableHlo.unary main_c_0 main_v45 (broadcastInDim S128x1 ![] bcast_S_S128x1 : (⟨S_, .i32⟩ : BufTy).Contents (Elt F) → (⟨S128x1, .i32⟩ : BufTy).Contents (Elt F)),
    StableHlo.binary main_v40 main_v45 main_v46 (muli : (⟨S128x1, .i32⟩ : BufTy).Contents (Elt F) → (⟨S128x1, .i32⟩ : BufTy).Contents (Elt F) → (⟨S128x1, .i32⟩ : BufTy).Contents (Elt F)),
    StableHlo.nullary main_call5_c (constantI S_ 32 0#32),
    StableHlo.unary main_call5_c main_call5_v0 (broadcastInDim S128x1 ![] bcast_S_S128x1 : (⟨S_, .i32⟩ : BufTy).Contents (Elt F) → (⟨S128x1, .i32⟩ : BufTy).Contents (Elt F)),
    StableHlo.binary main_v46 main_call5_v0 main_call5_v1 (cmpi .eq : (⟨S128x1, .i32⟩ : BufTy).Contents (Elt F) → (⟨S128x1, .i32⟩ : BufTy).Contents (Elt F) → (⟨S128x1, .i1⟩ : BufTy).Contents (Elt F)),
    StableHlo.nullary main_call5_c_0 (constantI S_ 32 1#32),
    StableHlo.unary main_call5_c_0 main_call5_v2 (broadcastInDim S128x1 ![] bcast_S_S128x1 : (⟨S_, .i32⟩ : BufTy).Contents (Elt F) → (⟨S128x1, .i32⟩ : BufTy).Contents (Elt F)),
    StableHlo.ternary main_call5_v1 main_call5_v2 main_v46 main_call5_v3 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.unary main_v39 main_call5_v4 (broadcastInDim S128x243 ![0, 1] bcast_S1x243_S128x243_0_1 : (⟨S1x243, .i32⟩ : BufTy).Contents (Elt F) → (⟨S128x243, .i32⟩ : BufTy).Contents (Elt F)),
    StableHlo.unary main_call5_v3 main_call5_v5 (broadcastInDim S128x243 ![0, 1] bcast_S128x1_S128x243_0_1 : (⟨S128x1, .i32⟩ : BufTy).Contents (Elt F) → (⟨S128x243, .i32⟩ : BufTy).Contents (Elt F)),
    StableHlo.binary main_call5_v4 main_call5_v5 main_call5_v6 (Host.remsi : (⟨S128x243, .i32⟩ : BufTy).Contents (Elt F) → (⟨S128x243, .i32⟩ : BufTy).Contents (Elt F) → (⟨S128x243, .i32⟩ : BufTy).Contents (Elt F)),
    StableHlo.nullary main_call5_c_1 (constantI S_ 32 0#32),
    StableHlo.unary main_call5_c_1 main_call5_v7 (broadcastInDim S128x243 ![] bcast_S_S128x243 : (⟨S_, .i32⟩ : BufTy).Contents (Elt F) → (⟨S128x243, .i32⟩ : BufTy).Contents (Elt F)),
    StableHlo.binary main_call5_v6 main_call5_v7 main_call5_v8 (cmpi .ne : (⟨S128x243, .i32⟩ : BufTy).Contents (Elt F) → (⟨S128x243, .i32⟩ : BufTy).Contents (Elt F) → (⟨S128x243, .i1⟩ : BufTy).Contents (Elt F)),
    StableHlo.nullary main_call5_c_2 (constantI S_ 32 0#32),
    StableHlo.unary main_call5_c_2 main_call5_v9 (broadcastInDim S128x243 ![] bcast_S_S128x243 : (⟨S_, .i32⟩ : BufTy).Contents (Elt F) → (⟨S128x243, .i32⟩ : BufTy).Contents (Elt F)),
    StableHlo.binary main_call5_v6 main_call5_v9 main_call5_v10 (cmpi .slt : (⟨S128x243, .i32⟩ : BufTy).Contents (Elt F) → (⟨S128x243, .i32⟩ : BufTy).Contents (Elt F) → (⟨S128x243, .i1⟩ : BufTy).Contents (Elt F)),
    StableHlo.nullary main_call5_c_3 (constantI S_ 32 0#32),
    StableHlo.unary main_call5_c_3 main_call5_v11 (broadcastInDim S128x1 ![] bcast_S_S128x1 : (⟨S_, .i32⟩ : BufTy).Contents (Elt F) → (⟨S128x1, .i32⟩ : BufTy).Contents (Elt F)),
    StableHlo.binary main_call5_v3 main_call5_v11 main_call5_v12 (cmpi .slt : (⟨S128x1, .i32⟩ : BufTy).Contents (Elt F) → (⟨S128x1, .i32⟩ : BufTy).Contents (Elt F) → (⟨S128x1, .i1⟩ : BufTy).Contents (Elt F)),
    StableHlo.unary main_call5_v12 main_call5_v13 (broadcastInDim S128x243 ![0, 1] bcast_S128x1_S128x243_0_1 : (⟨S128x1, .i1⟩ : BufTy).Contents (Elt F) → (⟨S128x243, .i1⟩ : BufTy).Contents (Elt F)),
    StableHlo.binary main_call5_v10 main_call5_v13 main_call5_v14 (cmpi .ne : (⟨S128x243, .i1⟩ : BufTy).Contents (Elt F) → (⟨S128x243, .i1⟩ : BufTy).Contents (Elt F) → (⟨S128x243, .i1⟩ : BufTy).Contents (Elt F)),
    StableHlo.binary main_call5_v14 main_call5_v8 main_call5_v15 (andi : (⟨S128x243, .i1⟩ : BufTy).Contents (Elt F) → (⟨S128x243, .i1⟩ : BufTy).Contents (Elt F) → (⟨S128x243, .i1⟩ : BufTy).Contents (Elt F)),
    StableHlo.unary main_call5_v3 main_call5_v16 (broadcastInDim S128x243 ![0, 1] bcast_S128x1_S128x243_0_1 : (⟨S128x1, .i32⟩ : BufTy).Contents (Elt F) → (⟨S128x243, .i32⟩ : BufTy).Contents (Elt F)),
    StableHlo.binary main_call5_v6 main_call5_v16 main_call5_v17 (addi : (⟨S128x243, .i32⟩ : BufTy).Contents (Elt F) → (⟨S128x243, .i32⟩ : BufTy).Contents (Elt F) → (⟨S128x243, .i32⟩ : BufTy).Contents (Elt F)),
    StableHlo.ternary main_call5_v15 main_call5_v17 main_call5_v6 main_v47 (select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ]

/-- Operations 101 … 145 of 217. -/
abbrev opsT1 : List (HloOp τ sig (Elt F)) :=
  [ StableHlo.nullary main_c_1 (constantI S_ 32 3#32),
    StableHlo.unary main_c_1 main_call6_v0 (id : (⟨S_, .i32⟩ : BufTy).Contents (Elt F) → (⟨S_, .i32⟩ : BufTy).Contents (Elt F)),
    StableHlo.unary main_call6_v0 main_call6_v1 (broadcastInDim S128x243 ![] bcast_S_S128x243 : (⟨S_, .i32⟩ : BufTy).Contents (Elt F) → (⟨S128x243, .i32⟩ : BufTy).Contents (Elt F)),
    StableHlo.binary main_v47 main_call6_v1 main_call6_v2 (Host.divsi : (⟨S128x243, .i32⟩ : BufTy).Contents (Elt F) → (⟨S128x243, .i32⟩ : BufTy).Contents (Elt F) → (⟨S128x243, .i32⟩ : BufTy).Contents (Elt F)),
    StableHlo.unary main_v47 main_call6_v3 (signi : (⟨S128x243, .i32⟩ : BufTy).Contents (Elt F) → (⟨S128x243, .i32⟩ : BufTy).Contents (Elt F)),
    StableHlo.unary main_call6_v0 main_call6_v4 (signi : (⟨S_, .i32⟩ : BufTy).Contents (Elt F) → (⟨S_, .i32⟩ : BufTy).Contents (Elt F)),
    StableHlo.unary main_call6_v4 main_call6_v5 (broadcastInDim S128x243 ![] bcast_S_S128x243 : (⟨S_, .i32⟩ : BufTy).Contents (Elt F) → (⟨S128x243, .i32⟩ : BufTy).Contents (Elt F)),
    StableHlo.binary main_call6_v3 main_call6_v5 main_call6_v6 (cmpi .ne : (⟨S128x243, .i32⟩ : BufTy).Contents (Elt F) → (⟨S128x243, .i32⟩ : BufTy).Contents (Elt F) → (⟨S128x243, .i1⟩ : BufTy).Contents (Elt F)),
    StableHlo.unary main_call6_v0 main_call6_v7 (broadcastInDim S128x243 ![] bcast_S_S128x243 : (⟨S_, .i32⟩ : BufTy).Contents (Elt F) → (⟨S128x243, .i32⟩ : BufTy).Contents (Elt F)),
    StableHlo.binary main_v47 main_call6_v7 main_call6_v8 (Host.remsi : (⟨S128x243, .i32⟩ : BufTy).Contents (Elt F) → (⟨S128x243, .i32⟩ : BufTy).Contents (Elt F) → (⟨S128x243, .i32⟩ : BufTy).Contents (Elt F)),
    StableHlo.nullary main_call6_c (constantI S_ 32 0#32),
    StableHlo.unary main_call6_c main_call6_v9 (broadcastInDim S128x243 ![] bcast_S_S128x243 : (⟨S_, .i32⟩ : BufTy).Contents (Elt F) → (⟨S128x243, .i32⟩ : BufTy).Contents (Elt F)),
    StableHlo.binary main_call6_v8 main_call6_v9 main_call6_v10 (cmpi .ne : (⟨S128x243, .i32⟩ : BufTy).Contents (Elt F) → (⟨S128x243, .i32⟩ : BufTy).Contents (Elt F) → (⟨S128x243, .i1⟩ : BufTy).Contents (Elt F)),
    StableHlo.binary main_call6_v6 main_call6_v10 main_call6_v11 (andi : (⟨S128x243, .i1⟩ : BufTy).Contents (Elt F) → (⟨S128x243, .i1⟩ : BufTy).Contents (Elt F) → (⟨S128x243, .i1⟩ : BufTy).Contents (Elt F)),
    StableHlo.nullary main_call6_c_0 (constantI S_ 32 1#32),
    StableHlo.unary main_call6_c_0 main_call6_v12 (broadcastInDim S128x243 ![] bcast_S_S128x243 : (⟨S_, .i32⟩ : BufTy).Contents (Elt F) → (⟨S128x243, .i32⟩ : BufTy).Contents (Elt F)),
    StableHlo.binary main_call6_v2 main_call6_v12 main_call6_v13 (subi : (⟨S128x243, .i32⟩ : BufTy).Contents (Elt F) → (⟨S128x243, .i32⟩ : BufTy).Contents (Elt F) → (⟨S128x243, .i32⟩ : BufTy).Contents (Elt F)),
    StableHlo.ternary main_call6_v11 main_call6_v13 main_call6_v2 main_v48 (select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)),
    StableHlo.nullary main_c_2 (constantI S_ 32 3#32),
    StableHlo.unary main_c_2 main_call7_v0 (id : (⟨S_, .i32⟩ : BufTy).Contents (Elt F) → (⟨S_, .i32⟩ : BufTy).Contents (Elt F)),
    StableHlo.nullary main_call7_c (constantI S_ 32 0#32),
    StableHlo.binary main_call7_v0 main_call7_c main_call7_v1 (cmpi .eq : (⟨S_, .i32⟩ : BufTy).Contents (Elt F) → (⟨S_, .i32⟩ : BufTy).Contents (Elt F) → (⟨S_, .i1⟩ : BufTy).Contents (Elt F)),
    StableHlo.nullary main_call7_c_0 (constantI S_ 32 1#32),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 (broadcastInDim S1x243 ![] bcast_S_S1x243 : (⟨S_, .i32⟩ : BufTy).Contents (Elt F) → (⟨S1x243, .i32⟩ : BufTy).Contents (Elt F)),
    StableHlo.binary main_v39 main_call7_v3 main_call7_v4 (Host.remsi : (⟨S1x243, .i32⟩ : BufTy).Contents (Elt F) → (⟨S1x243, .i32⟩ : BufTy).Contents (Elt F) → (⟨S1x243, .i32⟩ : BufTy).Contents (Elt F)),
    StableHlo.nullary main_call7_c_1 (constantI S_ 32 0#32),
    StableHlo.unary main_call7_c_1 main_call7_v5 (broadcastInDim S1x243 ![] bcast_S_S1x243 : (⟨S_, .i32⟩ : BufTy).Contents (Elt F) → (⟨S1x243, .i32⟩ : BufTy).Contents (Elt F)),
    StableHlo.binary main_call7_v4 main_call7_v5 main_call7_v6 (cmpi .ne : (⟨S1x243, .i32⟩ : BufTy).Contents (Elt F) → (⟨S1x243, .i32⟩ : BufTy).Contents (Elt F) → (⟨S1x243, .i1⟩ : BufTy).Contents (Elt F)),
    StableHlo.nullary main_call7_c_2 (constantI S_ 32 0#32),
    StableHlo.unary main_call7_c_2 main_call7_v7 (broadcastInDim S1x243 ![] bcast_S_S1x243 : (⟨S_, .i32⟩ : BufTy).Contents (Elt F) → (⟨S1x243, .i32⟩ : BufTy).Contents (Elt F)),
    StableHlo.binary main_call7_v4 main_call7_v7 main_call7_v8 (cmpi .slt : (⟨S1x243, .i32⟩ : BufTy).Contents (Elt F) → (⟨S1x243, .i32⟩ : BufTy).Contents (Elt F) → (⟨S1x243, .i1⟩ : BufTy).Contents (Elt F)),
    StableHlo.nullary main_call7_c_3 (constantI S_ 32 0#32),
    StableHlo.binary main_call7_v2 main_call7_c_3 main_call7_v9 (cmpi .slt : (⟨S_, .i32⟩ : BufTy).Contents (Elt F) → (⟨S_, .i32⟩ : BufTy).Contents (Elt F) → (⟨S_, .i1⟩ : BufTy).Contents (Elt F)),
    StableHlo.unary main_call7_v9 main_call7_v10 (broadcastInDim S1x243 ![] bcast_S_S1x243 : (⟨S_, .i1⟩ : BufTy).Contents (Elt F) → (⟨S1x243, .i1⟩ : BufTy).Contents (Elt F)),
    StableHlo.binary main_call7_v8 main_call7_v10 main_call7_v11 (cmpi .ne : (⟨S1x243, .i1⟩ : BufTy).Contents (Elt F) → (⟨S1x243, .i1⟩ : BufTy).Contents (Elt F) → (⟨S1x243, .i1⟩ : BufTy).Contents (Elt F)),
    StableHlo.binary main_call7_v11 main_call7_v6 main_call7_v12 (andi : (⟨S1x243, .i1⟩ : BufTy).Contents (Elt F) → (⟨S1x243, .i1⟩ : BufTy).Contents (Elt F) → (⟨S1x243, .i1⟩ : BufTy).Contents (Elt F)),
    StableHlo.unary main_call7_v2 main_call7_v13 (broadcastInDim S1x243 ![] bcast_S_S1x243 : (⟨S_, .i32⟩ : BufTy).Contents (Elt F) → (⟨S1x243, .i32⟩ : BufTy).Contents (Elt F)),
    StableHlo.binary main_call7_v4 main_call7_v13 main_call7_v14 (addi : (⟨S1x243, .i32⟩ : BufTy).Contents (Elt F) → (⟨S1x243, .i32⟩ : BufTy).Contents (Elt F) → (⟨S1x243, .i32⟩ : BufTy).Contents (Elt F)),
    StableHlo.ternary main_call7_v12 main_call7_v14 main_call7_v4 main_v49 (select : (⟨S1x243, .i1⟩ : BufTy).Contents (Elt F) → (⟨S1x243, .i32⟩ : BufTy).Contents (Elt F) → (⟨S1x243, .i32⟩ : BufTy).Contents (Elt F) → (⟨S1x243, .i32⟩ : BufTy).Contents (Elt F)),
    StableHlo.binary main_v40 main_v40 main_v50 (muli : (⟨S128x1, .i32⟩ : BufTy).Contents (Elt F) → (⟨S128x1, .i32⟩ : BufTy).Contents (Elt F) → (⟨S128x1, .i32⟩ : BufTy).Contents (Elt F)),
    StableHlo.nullary main_c_3 (constantI S_ 32 3#32),
    StableHlo.unary main_c_3 main_v51 (broadcastInDim S128x1 ![] bcast_S_S128x1 : (⟨S_, .i32⟩ : BufTy).Contents (Elt F) → (⟨S128x1, .i32⟩ : BufTy).Contents (Elt F)),
    StableHlo.binary main_v50 main_v51 main_v52 (muli : (⟨S128x1, .i32⟩ : BufTy).Contents (Elt F) → (⟨S128x1, .i32⟩ : BufTy).Contents (Elt F) → (⟨S128x1, .i32⟩ : BufTy).Contents (Elt F)),
    StableHlo.unary main_v39 main_v53 (broadcastInDim S128x243 ![0, 1] bcast_S1x243_S128x243_0_1 : (⟨S1x243, .i32⟩ : BufTy).Contents (Elt F) → (⟨S128x243, .i32⟩ : BufTy).Contents (Elt F)) ]

/-- Operations 146 … 180 of 217. -/
abbrev opsT2 : List (HloOp τ sig (Elt F)) :=
  [ StableHlo.unary main_v52 main_v54 (broadcastInDim S128x243 ![0, 1] bcast_S128x1_S128x243_0_1 : (⟨S128x1, .i32⟩ : BufTy).Contents (Elt F) → (⟨S128x243, .i32⟩ : BufTy).Contents (Elt F)),
    StableHlo.binary main_v53 main_v54 main_v55 (cmpi .slt : (⟨S128x243, .i32⟩ : BufTy).Contents (Elt F) → (⟨S128x243, .i32⟩ : BufTy).Contents (Elt F) → (⟨S128x243, .i1⟩ : BufTy).Contents (Elt F)),
    StableHlo.unary main_v41 main_v56 (broadcastInDim S128x243 ![0, 1] bcast_S128x1_S128x243_0_1 : (⟨S128x1, .i32⟩ : BufTy).Contents (Elt F) → (⟨S128x243, .i32⟩ : BufTy).Contents (Elt F)),
    StableHlo.binary main_v56 main_v44 main_v57 (addi : (⟨S128x243, .i32⟩ : BufTy).Contents (Elt F) → (⟨S128x243, .i32⟩ : BufTy).Contents (Elt F) → (⟨S128x243, .i32⟩ : BufTy).Contents (Elt F)),
    StableHlo.nullary main_c_4 (constantI S_ 32 1024#32),
    StableHlo.unary main_c_4 main_v58 (broadcastInDim S128x243 ![] bcast_S_S128x243 : (⟨S_, .i32⟩ : BufTy).Contents (Elt F) → (⟨S128x243, .i32⟩ : BufTy).Contents (Elt F)),
    StableHlo.binary main_v57 main_v58 main_v59 (muli : (⟨S128x243, .i32⟩ : BufTy).Contents (Elt F) → (⟨S128x243, .i32⟩ : BufTy).Contents (Elt F) → (⟨S128x243, .i32⟩ : BufTy).Contents (Elt F)),
    StableHlo.unary main_v41 main_v60 (broadcastInDim S128x243 ![0, 1] bcast_S128x1_S128x243_0_1 : (⟨S128x1, .i32⟩ : BufTy).Contents (Elt F) → (⟨S128x243, .i32⟩ : BufTy).Contents (Elt F)),
    StableHlo.binary main_v60 main_v48 main_v61 (addi : (⟨S128x243, .i32⟩ : BufTy).Contents (Elt F) → (⟨S128x243, .i32⟩ : BufTy).Contents (Elt F) → (⟨S128x243, .i32⟩ : BufTy).Contents (Elt F)),
    StableHlo.binary main_v59 main_v61 main_v62 (addi : (⟨S128x243, .i32⟩ : BufTy).Contents (Elt F) → (⟨S128x243, .i32⟩ : BufTy).Contents (Elt F) → (⟨S128x243, .i32⟩ : BufTy).Contents (Elt F)),
    StableHlo.nullary main_c_5 (constantI S_ 32 3#32),
    StableHlo.unary main_c_5 main_v63 (broadcastInDim S128x243 ![] bcast_S_S128x243 : (⟨S_, .i32⟩ : BufTy).Contents (Elt F) → (⟨S128x243, .i32⟩ : BufTy).Contents (Elt F)),
    StableHlo.binary main_v62 main_v63 main_v64 (muli : (⟨S128x243, .i32⟩ : BufTy).Contents (Elt F) → (⟨S128x243, .i32⟩ : BufTy).Contents (Elt F) → (⟨S128x243, .i32⟩ : BufTy).Contents (Elt F)),
    StableHlo.unary main_v49 main_v65 (broadcastInDim S128x243 ![0, 1] bcast_S1x243_S128x243_0_1 : (⟨S1x243, .i32⟩ : BufTy).Contents (Elt F) → (⟨S128x243, .i32⟩ : BufTy).Contents (Elt F)),
    StableHlo.binary main_v64 main_v65 main_v66 (addi : (⟨S128x243, .i32⟩ : BufTy).Contents (Elt F) → (⟨S128x243, .i32⟩ : BufTy).Contents (Elt F) → (⟨S128x243, .i32⟩ : BufTy).Contents (Elt F)),
    StableHlo.nullary main_c_6 (constantI S_ 32 0#32),
    StableHlo.nullary main_c_7 (constantI S_ 32 3145727#32),
    StableHlo.unary main_c_6 main_call8_v0 (id : (⟨S_, .i32⟩ : BufTy).Contents (Elt F) → (⟨S_, .i32⟩ : BufTy).Contents (Elt F)),
    StableHlo.unary main_call8_v0 main_call8_v1 (broadcastInDim S128x243 ![] bcast_S_S128x243 : (⟨S_, .i32⟩ : BufTy).Contents (Elt F) → (⟨S128x243, .i32⟩ : BufTy).Contents (Elt F)),
    StableHlo.binary main_call8_v1 main_v66 main_call8_v2 (maxsi : (⟨S128x243, .i32⟩ : BufTy).Contents (Elt F) → (⟨S128x243, .i32⟩ : BufTy).Contents (Elt F) → (⟨S128x243, .i32⟩ : BufTy).Contents (Elt F)),
    StableHlo.unary main_c_7 main_call8_v3 (id : (⟨S_, .i32⟩ : BufTy).Contents (Elt F) → (⟨S_, .i32⟩ : BufTy).Contents (Elt F)),
    StableHlo.unary main_call8_v3 main_call8_v4 (broadcastInDim S128x243 ![] bcast_S_S128x243 : (⟨S_, .i32⟩ : BufTy).Contents (Elt F) → (⟨S128x243, .i32⟩ : BufTy).Contents (Elt F)),
    StableHlo.binary main_call8_v4 main_call8_v2 main_v67 (minsi : (⟨S128x243, .i32⟩ : BufTy).Contents (Elt F) → (⟨S128x243, .i32⟩ : BufTy).Contents (Elt F) → (⟨S128x243, .i32⟩ : BufTy).Contents (Elt F)),
    StableHlo.nullary main_c_8 (constantI S_ 32 0#32),
    StableHlo.unary main_c_8 main_v68 (broadcastInDim S128x243 ![] bcast_S_S128x243 : (⟨S_, .i32⟩ : BufTy).Contents (Elt F) → (⟨S128x243, .i32⟩ : BufTy).Contents (Elt F)),
    StableHlo.binary main_v67 main_v68 main_v69 (cmpi .slt : (⟨S128x243, .i32⟩ : BufTy).Contents (Elt F) → (⟨S128x243, .i32⟩ : BufTy).Contents (Elt F) → (⟨S128x243, .i1⟩ : BufTy).Contents (Elt F)),
    StableHlo.nullary main_c_9 (constantI S_ 32 3145728#32),
    StableHlo.unary main_c_9 main_v70 (broadcastInDim S128x243 ![] bcast_S_S128x243 : (⟨S_, .i32⟩ : BufTy).Contents (Elt F) → (⟨S128x243, .i32⟩ : BufTy).Contents (Elt F)),
    StableHlo.binary main_v67 main_v70 main_v71 (addi : (⟨S128x243, .i32⟩ : BufTy).Contents (Elt F) → (⟨S128x243, .i32⟩ : BufTy).Contents (Elt F) → (⟨S128x243, .i32⟩ : BufTy).Contents (Elt F)),
    StableHlo.ternary main_v69 main_v71 main_v67 main_v72 (select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)),
    StableHlo.unary main_v72 main_v73 (broadcastInDim S128x243x1 ![0, 1] bcast_S128x243_S128x243x1_0_1 : (⟨S128x243, .i32⟩ : BufTy).Contents (Elt F) → (⟨S128x243x1, .i32⟩ : BufTy).Contents (Elt F)),
    StableHlo.binary main_v35 main_v73 main_v74 ((fun x i => Host.gather gather_S3145728_S128x243x1_S128x243_n_0_n_n_0_2_1 x i) : (⟨S3145728, .f32⟩ : BufTy).Contents (Elt F) → (⟨S128x243x1, .i32⟩ : BufTy).Contents (Elt F) → (⟨S128x243, .f32⟩ : BufTy).Contents (Elt F)),
    StableHlo.nullary main_cst_10 (constant S_ .f32 0x00000000#32),
    StableHlo.unary main_cst_10 main_call9_v0 (broadcastInDim S128x243 ![] bcast_S_S128x243 : (⟨S_, .f32⟩ : BufTy).Contents (Elt F) → (⟨S128x243, .f32⟩ : BufTy).Contents (Elt F)),
    StableHlo.ternary main_v55 main_v74 main_call9_v0 main_v75 (select : (⟨S128x243, .i1⟩ : BufTy).Contents (Elt F) → (⟨S128x243, .f32⟩ : BufTy).Contents (Elt F) → (⟨S128x243, .f32⟩ : BufTy).Contents (Elt F) → (⟨S128x243, .f32⟩ : BufTy).Contents (Elt F)) ]

/-- Operations 181 … 217 of 217. -/
abbrev opsT3 : List (HloOp τ sig (Elt F)) :=
  [ StableHlo.nullary main_call10_c (constantI S_ 32 0#32),
    StableHlo.unary main_call10_c main_call10_v0 (broadcastInDim S128x243 ![] bcast_S_S128x243 : (⟨S_, .i32⟩ : BufTy).Contents (Elt F) → (⟨S128x243, .i32⟩ : BufTy).Contents (Elt F)),
    StableHlo.binary main_arg11 main_call10_v0 main_call10_v1 (cmpi .slt : (⟨S128x243, .i32⟩ : BufTy).Contents (Elt F) → (⟨S128x243, .i32⟩ : BufTy).Contents (Elt F) → (⟨S128x243, .i1⟩ : BufTy).Contents (Elt F)),
    StableHlo.nullary main_call10_c_0 (constantI S_ 32 243#32),
    StableHlo.unary main_call10_c_0 main_call10_v2 (broadcastInDim S128x243 ![] bcast_S_S128x243 : (⟨S_, .i32⟩ : BufTy).Contents (Elt F) → (⟨S128x243, .i32⟩ : BufTy).Contents (Elt F)),
    StableHlo.binary main_arg11 main_call10_v2 main_call10_v3 (addi : (⟨S128x243, .i32⟩ : BufTy).Contents (Elt F) → (⟨S128x243, .i32⟩ : BufTy).Contents (Elt F) → (⟨S128x243, .i32⟩ : BufTy).Contents (Elt F)),
    StableHlo.ternary main_call10_v1 main_call10_v3 main_arg11 main_call10_v4 (select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)),
    StableHlo.reshape main_call10_v4 main_call10_v5 rfl shapeCasts_S128x243_S128x243x1,
    StableHlo.nullary main_call10_c_1 (constantI S1 32 242#32),
    StableHlo.nullary main_call10_c_2 (constantI S_ 32 0#32),
    StableHlo.unary main_call10_c_2 main_call10_v6 (broadcastInDim S128x243x1 ![] bcast_S_S128x243x1 : (⟨S_, .i32⟩ : BufTy).Contents (Elt F) → (⟨S128x243x1, .i32⟩ : BufTy).Contents (Elt F)),
    StableHlo.binary main_call10_v5 main_call10_v6 main_call10_v7 (cmpi .sge : (⟨S128x243x1, .i32⟩ : BufTy).Contents (Elt F) → (⟨S128x243x1, .i32⟩ : BufTy).Contents (Elt F) → (⟨S128x243x1, .i1⟩ : BufTy).Contents (Elt F)),
    StableHlo.unary main_call10_c_1 main_call10_v8 (broadcastInDim S1x1x1 ![2] bcast_S1_S1x1x1_2 : (⟨S1, .i32⟩ : BufTy).Contents (Elt F) → (⟨S1x1x1, .i32⟩ : BufTy).Contents (Elt F)),
    StableHlo.unary main_call10_v8 main_call10_v9 (broadcastInDim S128x243x1 ![0, 1, 2] bcast_S1x1x1_S128x243x1_0_1_2 : (⟨S1x1x1, .i32⟩ : BufTy).Contents (Elt F) → (⟨S128x243x1, .i32⟩ : BufTy).Contents (Elt F)),
    StableHlo.binary main_call10_v5 main_call10_v9 main_call10_v10 (cmpi .sle : (⟨S128x243x1, .i32⟩ : BufTy).Contents (Elt F) → (⟨S128x243x1, .i32⟩ : BufTy).Contents (Elt F) → (⟨S128x243x1, .i1⟩ : BufTy).Contents (Elt F)),
    StableHlo.binary main_call10_v7 main_call10_v10 main_call10_v11 (andi : (⟨S128x243x1, .i1⟩ : BufTy).Contents (Elt F) → (⟨S128x243x1, .i1⟩ : BufTy).Contents (Elt F) → (⟨S128x243x1, .i1⟩ : BufTy).Contents (Elt F)),
    StableHlo.nullary main_call10_c_3 (constantI S_ 1 1#1),
    StableHlo.binary main_call10_v11 main_call10_c_3 main_call10_v12 (fun x v => Host.reduce IntOp.andi x v reducesTo_S128x243x1_S128x243_d2 h_S_ : (⟨S128x243x1, .i1⟩ : BufTy).Contents (Elt F) → (⟨S_, .i1⟩ : BufTy).Contents (Elt F) → (⟨S128x243, .i1⟩ : BufTy).Contents (Elt F)),
    StableHlo.binary main_v75 main_call10_v5 main_call10_v13 (fun x i => Host.gather gather_S128x243_S128x243x1_S128x243_n_1_0_0_1_2_11 x i : (⟨S128x243, .f32⟩ : BufTy).Contents (Elt F) → (⟨S128x243x1, .i32⟩ : BufTy).Contents (Elt F) → (⟨S128x243, .f32⟩ : BufTy).Contents (Elt F)),
    StableHlo.nullary main_call10_cst (constant S_ .f32 0x7FC00000#32),
    StableHlo.unary main_call10_cst main_call10_v14 (broadcastInDim S128x243 ![] bcast_S_S128x243 : (⟨S_, .f32⟩ : BufTy).Contents (Elt F) → (⟨S128x243, .f32⟩ : BufTy).Contents (Elt F)),
    StableHlo.ternary main_call10_v12 main_call10_v13 main_call10_v14 main_v76 (select : (⟨S128x243, .i1⟩ : BufTy).Contents (Elt F) → (⟨S128x243, .f32⟩ : BufTy).Contents (Elt F) → (⟨S128x243, .f32⟩ : BufTy).Contents (Elt F) → (⟨S128x243, .f32⟩ : BufTy).Contents (Elt F)),
    StableHlo.binary main_v76 main_arg2 main_v77 (addf : (⟨S128x243, .f32⟩ : BufTy).Contents (Elt F) → (⟨S128x243, .f32⟩ : BufTy).Contents (Elt F) → (⟨S128x243, .f32⟩ : BufTy).Contents (Elt F)),
    StableHlo.nullary main_cst_11 (constant S_ .f32 0xFF800000#32),
    StableHlo.binary main_v77 main_cst_11 main_v78 ((fun x v => Host.reduce FloatOps.maximumf x v reducesTo_S128x243_S128_d1 h_S_) : (⟨S128x243, .f32⟩ : BufTy).Contents (Elt F) → (⟨S_, .f32⟩ : BufTy).Contents (Elt F) → (⟨S128, .f32⟩ : BufTy).Contents (Elt F)),
    StableHlo.nullary main_cst_12 (constant S_ .f32 0xFF800000#32),
    StableHlo.unary main_cst_12 main_v79 (broadcastInDim S128 ![] bcast_S_S128 : (⟨S_, .f32⟩ : BufTy).Contents (Elt F) → (⟨S128, .f32⟩ : BufTy).Contents (Elt F)),
    StableHlo.binary main_v79 main_v78 main_v80 (maximumf : (⟨S128, .f32⟩ : BufTy).Contents (Elt F) → (⟨S128, .f32⟩ : BufTy).Contents (Elt F) → (⟨S128, .f32⟩ : BufTy).Contents (Elt F)),
    StableHlo.unary main_v80 main_v81 (broadcastInDim S128x1 ![0] bcast_S128_S128x1_0 : (⟨S128, .f32⟩ : BufTy).Contents (Elt F) → (⟨S128x1, .f32⟩ : BufTy).Contents (Elt F)),
    StableHlo.unary main_v81 main_v82 (broadcastInDim S128x243 ![0, 1] bcast_S128x1_S128x243_0_1 : (⟨S128x1, .f32⟩ : BufTy).Contents (Elt F) → (⟨S128x243, .f32⟩ : BufTy).Contents (Elt F)),
    StableHlo.binary main_v77 main_v82 main_v83 (subf : (⟨S128x243, .f32⟩ : BufTy).Contents (Elt F) → (⟨S128x243, .f32⟩ : BufTy).Contents (Elt F) → (⟨S128x243, .f32⟩ : BufTy).Contents (Elt F)),
    StableHlo.unary main_v83 main_v84 (Host.exp : (⟨S128x243, .f32⟩ : BufTy).Contents (Elt F) → (⟨S128x243, .f32⟩ : BufTy).Contents (Elt F)),
    StableHlo.nullary main_cst_13 (constant S_ .f32 0x00000000#32),
    StableHlo.binary main_v84 main_cst_13 main_v85 ((fun x v => Host.reduceAdd x v reducesTo_S128x243_S128_d1 h_S_) : (⟨S128x243, .f32⟩ : BufTy).Contents (Elt F) → (⟨S_, .f32⟩ : BufTy).Contents (Elt F) → (⟨S128, .f32⟩ : BufTy).Contents (Elt F)),
    StableHlo.unary main_v85 main_v86 (broadcastInDim S128x1 ![0] bcast_S128_S128x1_0 : (⟨S128, .f32⟩ : BufTy).Contents (Elt F) → (⟨S128x1, .f32⟩ : BufTy).Contents (Elt F)),
    StableHlo.unary main_v86 main_v87 (broadcastInDim S128x243 ![0, 1] bcast_S128x1_S128x243_0_1 : (⟨S128x1, .f32⟩ : BufTy).Contents (Elt F) → (⟨S128x243, .f32⟩ : BufTy).Contents (Elt F)),
    StableHlo.binary main_v84 main_v87 main_v88 (Host.divf : (⟨S128x243, .f32⟩ : BufTy).Contents (Elt F) → (⟨S128x243, .f32⟩ : BufTy).Contents (Elt F) → (⟨S128x243, .f32⟩ : BufTy).Contents (Elt F)) ]

/-- @main's 217 operations, in order. -/
abbrev ops : List (HloOp τ sig (Elt F)) :=
  opsP ++ (opsT0 ++ (opsT1 ++ (opsT2 ++ opsT3)))

end Cert.ReferenceIdeal.HandRun

end
-- ==== Proof.RefMain.lean ====
/- The equation `main = seq ops`: each of @main's two windows is the straight line of its operations, every outlined
   function's operations standing at its call (a typed builder at a literal reference is the plain builder at that
   buffer, its transports along `rfl` being the identity), and @main runs the windows in order. -/
import proofs.«101599_j23914377904744_1_alg».proof.Proof.RefOps
import Idealize.ShloMosaic.Lib.Pipeline.Regions

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.Pipeline in
/-- The first window of @main is its 145 operations in order, by unfolding. -/
theorem main_part0_eq (c : Dev nD) : main_part0 (F := F) c = seq (opsP ++ (opsT0 ++ opsT1)) := by
  chain_rfl

open Idealize.ShloMosaic.Pipeline in
/-- The second window of @main is its 72 operations in order, by unfolding. -/
theorem main_part1_eq (c : Dev nD) : main_part1 (F := F) c = seq (opsT2 ++ opsT3) := by
  chain_rfl

/-- @main is the straight line of its 217 operations. -/
theorem main_eq (c : Dev nD) : main (F := F) c = seq ops := by
  show (main_part0 c >>= fun _ => main_part1 c) = _
  rw [main_part0_eq, main_part1_eq, ← seq_append]
  simp only [ops, List.append_assoc]

end Cert.ReferenceIdeal.HandRun

end
-- ==== Proof.RefVals.lean ====
/- The reference program's values, window by window. The contents of each buffer that is read more than once, or
   that outlives the stretch of operations that computes it, is named as a function of the argument arrays (and, past
   the flattening of the scores, of the flattened scores `x`); the fold of each stretch of operations over any
   contents is then read off at those buffers. -/
import proofs.«101599_j23914377904744_1_alg».proof.Proof.RefOps
import Idealize.ShloMosaic.Lib.Pipeline.Frame

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents of `main_v11` as a function of `main_arg0`, `main_arg3`, `main_arg4`, `main_arg5`, `main_arg6`, `main_arg12`. -/
def readoutFn (a0 : (⟨S1024x128, .f32⟩ : BufTy).Contents (Elt F)) (a3 : (⟨S128x64, .f32⟩ : BufTy).Contents (Elt F)) (a4 : (⟨S64, .f32⟩ : BufTy).Contents (Elt F)) (a5 : (⟨S64x1, .f32⟩ : BufTy).Contents (Elt F)) (a6 : (⟨S1, .f32⟩ : BufTy).Contents (Elt F)) (a12 : (⟨S1024, .i32⟩ : BufTy).Contents (Elt F)) : (⟨S128x1, .f32⟩ : BufTy).Contents (Elt F) :=
  ((addf : (⟨S128x1, .f32⟩ : BufTy).Contents (Elt F) → (⟨S128x1, .f32⟩ : BufTy).Contents (Elt F) → (⟨S128x1, .f32⟩ : BufTy).Contents (Elt F)) (Host.dotGeneral dot_S128x64_S64x1_S128x1_1_0_0_1_n_n none ((maximumf : (⟨S128x64, .f32⟩ : BufTy).Contents (Elt F) → (⟨S128x64, .f32⟩ : BufTy).Contents (Elt F) → (⟨S128x64, .f32⟩ : BufTy).Contents (Elt F)) ((addf : (⟨S128x64, .f32⟩ : BufTy).Contents (Elt F) → (⟨S128x64, .f32⟩ : BufTy).Contents (Elt F) → (⟨S128x64, .f32⟩ : BufTy).Contents (Elt F)) (Host.dotGeneral dot_S128x128_S128x64_S128x64_1_0_0_1_n_n none (Host.scatterAdd scatter_S128x128_S1024x1_S1024x128_1_0_0_1 ((broadcastInDim S128x128 ![] bcast_S_S128x128 : (⟨S_, .f32⟩ : BufTy).Contents (Elt F) → (⟨S128x128, .f32⟩ : BufTy).Contents (Elt F)) (constant S_ .f32 0x00000000#32 : (⟨S_, .f32⟩ : BufTy).Contents (Elt F))) ((broadcastInDim S1024x1 ![0] bcast_S1024_S1024x1_0 : (⟨S1024, .i32⟩ : BufTy).Contents (Elt F) → (⟨S1024x1, .i32⟩ : BufTy).Contents (Elt F)) a12) a0 : (⟨S128x128, .f32⟩ : BufTy).Contents (Elt F)) a3 : (⟨S128x64, .f32⟩ : BufTy).Contents (Elt F)) ((broadcastInDim S128x64 ![0, 1] bcast_S1x64_S128x64_0_1 : (⟨S1x64, .f32⟩ : BufTy).Contents (Elt F) → (⟨S128x64, .f32⟩ : BufTy).Contents (Elt F)) ((broadcastInDim S1x64 ![1] bcast_S64_S1x64_1 : (⟨S64, .f32⟩ : BufTy).Contents (Elt F) → (⟨S1x64, .f32⟩ : BufTy).Contents (Elt F)) a4))) ((broadcastInDim S128x64 ![] bcast_S_S128x64 : (⟨S_, .f32⟩ : BufTy).Contents (Elt F) → (⟨S128x64, .f32⟩ : BufTy).Contents (Elt F)) (constant S_ .f32 0x00000000#32 : (⟨S_, .f32⟩ : BufTy).Contents (Elt F)))) a5 : (⟨S128x1, .f32⟩ : BufTy).Contents (Elt F)) ((broadcastInDim S128x1 ![0, 1] bcast_S1x1_S128x1_0_1 : (⟨S1x1, .f32⟩ : BufTy).Contents (Elt F) → (⟨S128x1, .f32⟩ : BufTy).Contents (Elt F)) ((broadcastInDim S1x1 ![1] bcast_S1_S1x1_1 : (⟨S1, .f32⟩ : BufTy).Contents (Elt F) → (⟨S1x1, .f32⟩ : BufTy).Contents (Elt F)) a6)))

/-- The contents of `main_v12` as a function of `main_arg0`. -/
def c_v12 (a0 : (⟨S1024x128, .f32⟩ : BufTy).Contents (Elt F)) : (⟨S1024x128, .f32⟩ : BufTy).Contents (Elt F) :=
  ((maximumf : (⟨S1024x128, .f32⟩ : BufTy).Contents (Elt F) → (⟨S1024x128, .f32⟩ : BufTy).Contents (Elt F) → (⟨S1024x128, .f32⟩ : BufTy).Contents (Elt F)) a0 ((broadcastInDim S1024x128 ![] bcast_S_S1024x128 : (⟨S_, .f32⟩ : BufTy).Contents (Elt F) → (⟨S1024x128, .f32⟩ : BufTy).Contents (Elt F)) (constant S_ .f32 0x00000000#32 : (⟨S_, .f32⟩ : BufTy).Contents (Elt F))))

/-- The contents of `main_v14` as a function of `main_arg0`, `main_arg7`. -/
def resA (a0 : (⟨S1024x128, .f32⟩ : BufTy).Contents (Elt F)) (a7 : (⟨S256x128, .f32⟩ : BufTy).Contents (Elt F)) : (⟨S1024x128, .f32⟩ : BufTy).Contents (Elt F) :=
  (Host.dotGeneral dot_S1024x128_S128x128_S1024x128_1_0_0_1_n_n none (c_v12 a0) (extractStridedSlice S128x128 ![0, 0] a7 slices_S256x128_S128x128_0_0 : (⟨S128x128, .f32⟩ : BufTy).Contents (Elt F)) : (⟨S1024x128, .f32⟩ : BufTy).Contents (Elt F))

/-- The contents of `main_v16` as a function of `main_arg0`, `main_arg7`. -/
def resB (a0 : (⟨S1024x128, .f32⟩ : BufTy).Contents (Elt F)) (a7 : (⟨S256x128, .f32⟩ : BufTy).Contents (Elt F)) : (⟨S1024x128, .f32⟩ : BufTy).Contents (Elt F) :=
  (Host.dotGeneral dot_S1024x128_S128x128_S1024x128_1_0_0_1_n_n none (c_v12 a0) (extractStridedSlice S128x128 ![128, 0] a7 slices_S256x128_S128x128_128_0 : (⟨S128x128, .f32⟩ : BufTy).Contents (Elt F)) : (⟨S1024x128, .f32⟩ : BufTy).Contents (Elt F))

/-- The contents of `main_v34` as a function of `main_v14`'s contents, `main_v16`'s contents, `main_arg1`, `main_arg8`, `main_arg9`, `main_arg10`. -/
def resScores (vA : (⟨S1024x128, .f32⟩ : BufTy).Contents (Elt F)) (vB : (⟨S1024x128, .f32⟩ : BufTy).Contents (Elt F)) (a1 : (⟨S128x1024, .f32⟩ : BufTy).Contents (Elt F)) (a8 : (⟨S128, .f32⟩ : BufTy).Contents (Elt F)) (a9 : (⟨S128x3, .f32⟩ : BufTy).Contents (Elt F)) (a10 : (⟨S3, .f32⟩ : BufTy).Contents (Elt F)) : (⟨S1024x1024x3, .f32⟩ : BufTy).Contents (Elt F) :=
  ((mulf : (⟨S1024x1024x3, .f32⟩ : BufTy).Contents (Elt F) → (⟨S1024x1024x3, .f32⟩ : BufTy).Contents (Elt F) → (⟨S1024x1024x3, .f32⟩ : BufTy).Contents (Elt F)) ((addf : (⟨S1024x1024x3, .f32⟩ : BufTy).Contents (Elt F) → (⟨S1024x1024x3, .f32⟩ : BufTy).Contents (Elt F) → (⟨S1024x1024x3, .f32⟩ : BufTy).Contents (Elt F)) (Host.dotGeneral dot_S1024x1024x128_S128x3_S1024x1024x3_2_0_01_1_n_n none ((maximumf : (⟨S1024x1024x128, .f32⟩ : BufTy).Contents (Elt F) → (⟨S1024x1024x128, .f32⟩ : BufTy).Contents (Elt F) → (⟨S1024x1024x128, .f32⟩ : BufTy).Contents (Elt F)) ((addf : (⟨S1024x1024x128, .f32⟩ : BufTy).Contents (Elt F) → (⟨S1024x1024x128, .f32⟩ : BufTy).Contents (Elt F) → (⟨S1024x1024x128, .f32⟩ : BufTy).Contents (Elt F)) ((addf : (⟨S1024x1024x128, .f32⟩ : BufTy).Contents (Elt F) → (⟨S1024x1024x128, .f32⟩ : BufTy).Contents (Elt F) → (⟨S1024x1024x128, .f32⟩ : BufTy).Contents (Elt F)) ((broadcastInDim S1024x1024x128 ![0, 1, 2] bcast_S1024x1x128_S1024x1024x128_0_1_2 : (⟨S1024x1x128, .f32⟩ : BufTy).Contents (Elt F) → (⟨S1024x1024x128, .f32⟩ : BufTy).Contents (Elt F)) ((broadcastInDim S1024x1x128 ![0, 2] bcast_S1024x128_S1024x1x128_0_2 : (⟨S1024x128, .f32⟩ : BufTy).Contents (Elt F) → (⟨S1024x1x128, .f32⟩ : BufTy).Contents (Elt F)) vA)) ((broadcastInDim S1024x1024x128 ![0, 1, 2] bcast_S1x1024x128_S1024x1024x128_0_1_2 : (⟨S1x1024x128, .f32⟩ : BufTy).Contents (Elt F) → (⟨S1024x1024x128, .f32⟩ : BufTy).Contents (Elt F)) ((broadcastInDim S1x1024x128 ![1, 2] bcast_S1024x128_S1x1024x128_1_2 : (⟨S1024x128, .f32⟩ : BufTy).Contents (Elt F) → (⟨S1x1024x128, .f32⟩ : BufTy).Contents (Elt F)) vB))) ((broadcastInDim S1024x1024x128 ![0, 1, 2] bcast_S1x1x128_S1024x1024x128_0_1_2 : (⟨S1x1x128, .f32⟩ : BufTy).Contents (Elt F) → (⟨S1024x1024x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) a8))) ((broadcastInDim S1024x1024x128 ![] bcast_S_S1024x1024x128 : (⟨S_, .f32⟩ : BufTy).Contents (Elt F) → (⟨S1024x1024x128, .f32⟩ : BufTy).Contents (Elt F)) (constant S_ .f32 0x00000000#32 : (⟨S_, .f32⟩ : BufTy).Contents (Elt F)))) a9 : (⟨S1024x1024x3, .f32⟩ : BufTy).Contents (Elt F)) ((broadcastInDim S1024x1024x3 ![0, 1, 2] bcast_S1x1x3_S1024x1024x3_0_1_2 : (⟨S1x1x3, .f32⟩ : BufTy).Contents (Elt F) → (⟨S1024x1024x3, .f32⟩ : BufTy).Contents (Elt F)) ((broadcastInDim S1x1x3 ![2] bcast_S3_S1x1x3_2 : (⟨S3, .f32⟩ : BufTy).Contents (Elt F) → (⟨S1x1x3, .f32⟩ : BufTy).Contents (Elt F)) a10))) ((broadcastInDim S1024x1024x3 ![0, 1, 2] bcast_S1024x1024x1_S1024x1024x3_0_1_2 : (⟨S1024x1024x1, .f32⟩ : BufTy).Contents (Elt F) → (⟨S1024x1024x3, .f32⟩ : BufTy).Contents (Elt F)) ((broadcastInDim S1024x1024x1 ![0, 1] bcast_S1024x1024_S1024x1024x1_0_1 : (⟨S1024x1024, .f32⟩ : BufTy).Contents (Elt F) → (⟨S1024x1024x1, .f32⟩ : BufTy).Contents (Elt F)) (Host.dotGeneral dot_S1024x128_S128x1024_S1024x1024_1_0_0_1_n_n none (transpose S1024x128 [1, 0] a1 transposes_S128x1024_S1024x128_1_0 : (⟨S1024x128, .f32⟩ : BufTy).Contents (Elt F)) a1 : (⟨S1024x1024, .f32⟩ : BufTy).Contents (Elt F)))))

/-- The contents of `main_v39` as a function of . -/
def c_v39  : (⟨S1x243, .i32⟩ : BufTy).Contents (Elt F) :=
  ((broadcastInDim S1x243 ![1] bcast_S243_S1x243_1 : (⟨S243, .i32⟩ : BufTy).Contents (Elt F) → (⟨S1x243, .i32⟩ : BufTy).Contents (Elt F)) (iotaInDim S243 32 0 : (⟨S243, .i32⟩ : BufTy).Contents (Elt F)))

/-- The contents of `main_v40` as a function of `main_arg13`. -/
def c_v40 (a13 : (⟨S128, .i32⟩ : BufTy).Contents (Elt F)) : (⟨S128x1, .i32⟩ : BufTy).Contents (Elt F) :=
  ((broadcastInDim S128x1 ![0] bcast_S128_S128x1_0 : (⟨S128, .i32⟩ : BufTy).Contents (Elt F) → (⟨S128x1, .i32⟩ : BufTy).Contents (Elt F)) a13)

/-- The contents of `main_v41` as a function of `main_arg13`. -/
def c_v41 (a13 : (⟨S128, .i32⟩ : BufTy).Contents (Elt F)) : (⟨S128x1, .i32⟩ : BufTy).Contents (Elt F) :=
  ((broadcastInDim S128x1 ![0] bcast_S128_S128x1_0 : (⟨S128, .i32⟩ : BufTy).Contents (Elt F) → (⟨S128x1, .i32⟩ : BufTy).Contents (Elt F)) ((subi : (⟨S128, .i32⟩ : BufTy).Contents (Elt F) → (⟨S128, .i32⟩ : BufTy).Contents (Elt F) → (⟨S128, .i32⟩ : BufTy).Contents (Elt F)) (Host.reduceWindow IntOp.addi ![128] ![1] ![127] ![0] a13 ((broadcastInDim S_ ![] bcast_S_S_ : (⟨S_, .i32⟩ : BufTy).Contents (Elt F) → (⟨S_, .i32⟩ : BufTy).Contents (Elt F)) (constantI S_ 32 0#32 : (⟨S_, .i32⟩ : BufTy).Contents (Elt F))) reduceWindows_S128_S128_w128s1p127_0 h_S_ : (⟨S128, .i32⟩ : BufTy).Contents (Elt F)) a13))

/-- The contents of `main_v43` as a function of `main_arg13`. -/
def c_v43 (a13 : (⟨S128, .i32⟩ : BufTy).Contents (Elt F)) : (⟨S128x1, .i32⟩ : BufTy).Contents (Elt F) :=
  ((muli : (⟨S128x1, .i32⟩ : BufTy).Contents (Elt F) → (⟨S128x1, .i32⟩ : BufTy).Contents (Elt F) → (⟨S128x1, .i32⟩ : BufTy).Contents (Elt F)) (c_v40 a13) ((broadcastInDim S128x1 ![] bcast_S_S128x1 : (⟨S_, .i32⟩ : BufTy).Contents (Elt F) → (⟨S128x1, .i32⟩ : BufTy).Contents (Elt F)) (constantI S_ 32 3#32 : (⟨S_, .i32⟩ : BufTy).Contents (Elt F))))

/-- The contents of `main_call4_v2` as a function of `main_arg13`. -/
def c_call4_v2 (a13 : (⟨S128, .i32⟩ : BufTy).Contents (Elt F)) : (⟨S128x243, .i32⟩ : BufTy).Contents (Elt F) :=
  ((Host.divsi : (⟨S128x243, .i32⟩ : BufTy).Contents (Elt F) → (⟨S128x243, .i32⟩ : BufTy).Contents (Elt F) → (⟨S128x243, .i32⟩ : BufTy).Contents (Elt F)) ((broadcastInDim S128x243 ![0, 1] bcast_S1x243_S128x243_0_1 : (⟨S1x243, .i32⟩ : BufTy).Contents (Elt F) → (⟨S128x243, .i32⟩ : BufTy).Contents (Elt F)) (c_v39 (F := F))) ((broadcastInDim S128x243 ![0, 1] bcast_S128x1_S128x243_0_1 : (⟨S128x1, .i32⟩ : BufTy).Contents (Elt F) → (⟨S128x243, .i32⟩ : BufTy).Contents (Elt F)) (c_v43 a13)))

/-- The contents of `main_v44` as a function of `main_arg13`. -/
def c_v44 (a13 : (⟨S128, .i32⟩ : BufTy).Contents (Elt F)) : (⟨S128x243, .i32⟩ : BufTy).Contents (Elt F) :=
  ((select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ((andi : (⟨S128x243, .i1⟩ : BufTy).Contents (Elt F) → (⟨S128x243, .i1⟩ : BufTy).Contents (Elt F) → (⟨S128x243, .i1⟩ : BufTy).Contents (Elt F)) ((cmpi .ne : (⟨S128x243, .i32⟩ : BufTy).Contents (Elt F) → (⟨S128x243, .i32⟩ : BufTy).Contents (Elt F) → (⟨S128x243, .i1⟩ : BufTy).Contents (Elt F)) ((broadcastInDim S128x243 ![0, 1] bcast_S1x243_S128x243_0_1 : (⟨S1x243, .i32⟩ : BufTy).Contents (Elt F) → (⟨S128x243, .i32⟩ : BufTy).Contents (Elt F)) ((signi : (⟨S1x243, .i32⟩ : BufTy).Contents (Elt F) → (⟨S1x243, .i32⟩ : BufTy).Contents (Elt F)) (c_v39 (F := F)))) ((broadcastInDim S128x243 ![0, 1] bcast_S128x1_S128x243_0_1 : (⟨S128x1, .i32⟩ : BufTy).Contents (Elt F) → (⟨S128x243, .i32⟩ : BufTy).Contents (Elt F)) ((signi : (⟨S128x1, .i32⟩ : BufTy).Contents (Elt F) → (⟨S128x1, .i32⟩ : BufTy).Contents (Elt F)) (c_v43 a13)))) ((cmpi .ne : (⟨S128x243, .i32⟩ : BufTy).Contents (Elt F) → (⟨S128x243, .i32⟩ : BufTy).Contents (Elt F) → (⟨S128x243, .i1⟩ : BufTy).Contents (Elt F)) ((Host.remsi : (⟨S128x243, .i32⟩ : BufTy).Contents (Elt F) → (⟨S128x243, .i32⟩ : BufTy).Contents (Elt F) → (⟨S128x243, .i32⟩ : BufTy).Contents (Elt F)) ((broadcastInDim S128x243 ![0, 1] bcast_S1x243_S128x243_0_1 : (⟨S1x243, .i32⟩ : BufTy).Contents (Elt F) → (⟨S128x243, .i32⟩ : BufTy).Contents (Elt F)) (c_v39 (F := F))) ((broadcastInDim S128x243 ![0, 1] bcast_S128x1_S128x243_0_1 : (⟨S128x1, .i32⟩ : BufTy).Contents (Elt F) → (⟨S128x243, .i32⟩ : BufTy).Contents (Elt F)) (c_v43 a13))) ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F))))) ((subi : (⟨S128x243, .i32⟩ : BufTy).Contents (Elt F) → (⟨S128x243, .i32⟩ : BufTy).Contents (Elt F) → (⟨S128x243, .i32⟩ : BufTy).Contents (Elt F)) (c_call4_v2 a13) ((broadcastInDim S128x243 ![] bcast_S_S128x243 : (⟨S_, .i32⟩ : BufTy).Contents (Elt F) → (⟨S128x243, .i32⟩ : BufTy).Contents (Elt F)) (constantI S_ 32 1#32 : (⟨S_, .i32⟩ : BufTy).Contents (Elt F)))) (c_call4_v2 a13))

/-- The contents of `main_v46` as a function of `main_arg13`. -/
def c_v46 (a13 : (⟨S128, .i32⟩ : BufTy).Contents (Elt F)) : (⟨S128x1, .i32⟩ : BufTy).Contents (Elt F) :=
  ((muli : (⟨S128x1, .i32⟩ : BufTy).Contents (Elt F) → (⟨S128x1, .i32⟩ : BufTy).Contents (Elt F) → (⟨S128x1, .i32⟩ : BufTy).Contents (Elt F)) (c_v40 a13) ((broadcastInDim S128x1 ![] bcast_S_S128x1 : (⟨S_, .i32⟩ : BufTy).Contents (Elt F) → (⟨S128x1, .i32⟩ : BufTy).Contents (Elt F)) (constantI S_ 32 3#32 : (⟨S_, .i32⟩ : BufTy).Contents (Elt F))))

/-- The contents of `main_call5_v3` as a function of `main_arg13`. -/
def c_call5_v3 (a13 : (⟨S128, .i32⟩ : BufTy).Contents (Elt F)) : (⟨S128x1, .i32⟩ : BufTy).Contents (Elt F) :=
  ((select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)) ((cmpi .eq : (⟨S128x1, .i32⟩ : BufTy).Contents (Elt F) → (⟨S128x1, .i32⟩ : BufTy).Contents (Elt F) → (⟨S128x1, .i1⟩ : BufTy).Contents (Elt F)) (c_v46 a13) ((broadcastInDim S128x1 ![] bcast_S_S128x1 : (⟨S_, .i32⟩ : BufTy).Contents (Elt F) → (⟨S128x1, .i32⟩ : BufTy).Contents (Elt F)) (constantI S_ 32 0#32 : (⟨S_, .i32⟩ : BufTy).Contents (Elt F)))) ((broadcastInDim S128x1 ![] bcast_S_S128x1 : (⟨S_, .i32⟩ : BufTy).Contents (Elt F) → (⟨S128x1, .i32⟩ : BufTy).Contents (Elt F)) (constantI S_ 32 1#32 : (⟨S_, .i32⟩ : BufTy).Contents (Elt F))) (c_v46 a13))

/-- The contents of `main_call5_v6` as a function of `main_arg13`. -/
def c_call5_v6 (a13 : (⟨S128, .i32⟩ : BufTy).Contents (Elt F)) : (⟨S128x243, .i32⟩ : BufTy).Contents (Elt F) :=
  ((Host.remsi : (⟨S128x243, .i32⟩ : BufTy).Contents (Elt F) → (⟨S128x243, .i32⟩ : BufTy).Contents (Elt F) → (⟨S128x243, .i32⟩ : BufTy).Contents (Elt F)) ((broadcastInDim S128x243 ![0, 1] bcast_S1x243_S128x243_0_1 : (⟨S1x243, .i32⟩ : BufTy).Contents (Elt F) → (⟨S128x243, .i32⟩ : BufTy).Contents (Elt F)) (c_v39 (F := F))) ((broadcastInDim S128x243 ![0, 1] bcast_S128x1_S128x243_0_1 : (⟨S128x1, .i32⟩ : BufTy).Contents (Elt F) → (⟨S128x243, .i32⟩ : BufTy).Contents (Elt F)) (c_call5_v3 a13)))

/-- The contents of `main_v47` as a function of `main_arg13`. -/
def c_v47 (a13 : (⟨S128, .i32⟩ : BufTy).Contents (Elt F)) : (⟨S128x243, .i32⟩ : BufTy).Contents (Elt F) :=
  ((select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ((andi : (⟨S128x243, .i1⟩ : BufTy).Contents (Elt F) → (⟨S128x243, .i1⟩ : BufTy).Contents (Elt F) → (⟨S128x243, .i1⟩ : BufTy).Contents (Elt F)) ((cmpi .ne : (⟨S128x243, .i1⟩ : BufTy).Contents (Elt F) → (⟨S128x243, .i1⟩ : BufTy).Contents (Elt F) → (⟨S128x243, .i1⟩ : BufTy).Contents (Elt F)) ((cmpi .slt : (⟨S128x243, .i32⟩ : BufTy).Contents (Elt F) → (⟨S128x243, .i32⟩ : BufTy).Contents (Elt F) → (⟨S128x243, .i1⟩ : BufTy).Contents (Elt F)) (c_call5_v6 a13) ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F)))) ((broadcastInDim S128x243 ![0, 1] bcast_S128x1_S128x243_0_1 : (⟨S128x1, .i1⟩ : BufTy).Contents (Elt F) → (⟨S128x243, .i1⟩ : BufTy).Contents (Elt F)) ((cmpi .slt : (⟨S128x1, .i32⟩ : BufTy).Contents (Elt F) → (⟨S128x1, .i32⟩ : BufTy).Contents (Elt F) → (⟨S128x1, .i1⟩ : BufTy).Contents (Elt F)) (c_call5_v3 a13) ((broadcastInDim S128x1 ![] bcast_S_S128x1 : (⟨S_, .i32⟩ : BufTy).Contents (Elt F) → (⟨S128x1, .i32⟩ : BufTy).Contents (Elt F)) (constantI S_ 32 0#32 : (⟨S_, .i32⟩ : BufTy).Contents (Elt F)))))) ((cmpi .ne : (⟨S128x243, .i32⟩ : BufTy).Contents (Elt F) → (⟨S128x243, .i32⟩ : BufTy).Contents (Elt F) → (⟨S128x243, .i1⟩ : BufTy).Contents (Elt F)) (c_call5_v6 a13) ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F))))) ((addi : (⟨S128x243, .i32⟩ : BufTy).Contents (Elt F) → (⟨S128x243, .i32⟩ : BufTy).Contents (Elt F) → (⟨S128x243, .i32⟩ : BufTy).Contents (Elt F)) (c_call5_v6 a13) ((broadcastInDim S128x243 ![0, 1] bcast_S128x1_S128x243_0_1 : (⟨S128x1, .i32⟩ : BufTy).Contents (Elt F) → (⟨S128x243, .i32⟩ : BufTy).Contents (Elt F)) (c_call5_v3 a13))) (c_call5_v6 a13))

/-- The contents of `main_call6_v0` as a function of . -/
def c_call6_v0  : (⟨S_, .i32⟩ : BufTy).Contents (Elt F) :=
  ((id : (⟨S_, .i32⟩ : BufTy).Contents (Elt F) → (⟨S_, .i32⟩ : BufTy).Contents (Elt F)) (constantI S_ 32 3#32 : (⟨S_, .i32⟩ : BufTy).Contents (Elt F)))

/-- The contents of `main_call6_v2` as a function of `main_arg13`. -/
def c_call6_v2 (a13 : (⟨S128, .i32⟩ : BufTy).Contents (Elt F)) : (⟨S128x243, .i32⟩ : BufTy).Contents (Elt F) :=
  ((Host.divsi : (⟨S128x243, .i32⟩ : BufTy).Contents (Elt F) → (⟨S128x243, .i32⟩ : BufTy).Contents (Elt F) → (⟨S128x243, .i32⟩ : BufTy).Contents (Elt F)) (c_v47 a13) ((broadcastInDim S128x243 ![] bcast_S_S128x243 : (⟨S_, .i32⟩ : BufTy).Contents (Elt F) → (⟨S128x243, .i32⟩ : BufTy).Contents (Elt F)) (c_call6_v0 (F := F))))

/-- The contents of `main_v48` as a function of `main_arg13`. -/
def c_v48 (a13 : (⟨S128, .i32⟩ : BufTy).Contents (Elt F)) : (⟨S128x243, .i32⟩ : BufTy).Contents (Elt F) :=
  ((select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ((andi : (⟨S128x243, .i1⟩ : BufTy).Contents (Elt F) → (⟨S128x243, .i1⟩ : BufTy).Contents (Elt F) → (⟨S128x243, .i1⟩ : BufTy).Contents (Elt F)) ((cmpi .ne : (⟨S128x243, .i32⟩ : BufTy).Contents (Elt F) → (⟨S128x243, .i32⟩ : BufTy).Contents (Elt F) → (⟨S128x243, .i1⟩ : BufTy).Contents (Elt F)) ((signi : (⟨S128x243, .i32⟩ : BufTy).Contents (Elt F) → (⟨S128x243, .i32⟩ : BufTy).Contents (Elt F)) (c_v47 a13)) ((broadcastInDim S128x243 ![] bcast_S_S128x243 : (⟨S_, .i32⟩ : BufTy).Contents (Elt F) → (⟨S128x243, .i32⟩ : BufTy).Contents (Elt F)) ((signi : (⟨S_, .i32⟩ : BufTy).Contents (Elt F) → (⟨S_, .i32⟩ : BufTy).Contents (Elt F)) (c_call6_v0 (F := F))))) ((cmpi .ne : (⟨S128x243, .i32⟩ : BufTy).Contents (Elt F) → (⟨S128x243, .i32⟩ : BufTy).Contents (Elt F) → (⟨S128x243, .i1⟩ : BufTy).Contents (Elt F)) ((Host.remsi : (⟨S128x243, .i32⟩ : BufTy).Contents (Elt F) → (⟨S128x243, .i32⟩ : BufTy).Contents (Elt F) → (⟨S128x243, .i32⟩ : BufTy).Contents (Elt F)) (c_v47 a13) ((broadcastInDim S128x243 ![] bcast_S_S128x243 : (⟨S_, .i32⟩ : BufTy).Contents (Elt F) → (⟨S128x243, .i32⟩ : BufTy).Contents (Elt F)) (c_call6_v0 (F := F)))) ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F))))) ((subi : (⟨S128x243, .i32⟩ : BufTy).Contents (Elt F) → (⟨S128x243, .i32⟩ : BufTy).Contents (Elt F) → (⟨S128x243, .i32⟩ : BufTy).Contents (Elt F)) (c_call6_v2 a13) ((broadcastInDim S128x243 ![] bcast_S_S128x243 : (⟨S_, .i32⟩ : BufTy).Contents (Elt F) → (⟨S128x243, .i32⟩ : BufTy).Contents (Elt F)) (constantI S_ 32 1#32 : (⟨S_, .i32⟩ : BufTy).Contents (Elt F)))) (c_call6_v2 a13))

/-- The contents of `main_call7_v0` as a function of . -/
def c_call7_v0  : (⟨S_, .i32⟩ : BufTy).Contents (Elt F) :=
  ((id : (⟨S_, .i32⟩ : BufTy).Contents (Elt F) → (⟨S_, .i32⟩ : BufTy).Contents (Elt F)) (constantI S_ 32 3#32 : (⟨S_, .i32⟩ : BufTy).Contents (Elt F)))

/-- The contents of `main_call7_v2` as a function of . -/
def c_call7_v2  : (⟨S_, .i32⟩ : BufTy).Contents (Elt F) :=
  ((select : (⟨S_, .i1⟩ : BufTy).Contents (Elt F) → (⟨S_, .i32⟩ : BufTy).Contents (Elt F) → (⟨S_, .i32⟩ : BufTy).Contents (Elt F) → (⟨S_, .i32⟩ : BufTy).Contents (Elt F)) ((cmpi .eq : (⟨S_, .i32⟩ : BufTy).Contents (Elt F) → (⟨S_, .i32⟩ : BufTy).Contents (Elt F) → (⟨S_, .i1⟩ : BufTy).Contents (Elt F)) (c_call7_v0 (F := F)) (constantI S_ 32 0#32 : (⟨S_, .i32⟩ : BufTy).Contents (Elt F))) (constantI S_ 32 1#32 : (⟨S_, .i32⟩ : BufTy).Contents (Elt F)) (c_call7_v0 (F := F)))

/-- The contents of `main_call7_v4` as a function of . -/
def c_call7_v4  : (⟨S1x243, .i32⟩ : BufTy).Contents (Elt F) :=
  ((Host.remsi : (⟨S1x243, .i32⟩ : BufTy).Contents (Elt F) → (⟨S1x243, .i32⟩ : BufTy).Contents (Elt F) → (⟨S1x243, .i32⟩ : BufTy).Contents (Elt F)) (c_v39 (F := F)) ((broadcastInDim S1x243 ![] bcast_S_S1x243 : (⟨S_, .i32⟩ : BufTy).Contents (Elt F) → (⟨S1x243, .i32⟩ : BufTy).Contents (Elt F)) (c_call7_v2 (F := F))))

/-- The contents of `main_v49` as a function of . -/
def c_v49  : (⟨S1x243, .i32⟩ : BufTy).Contents (Elt F) :=
  ((select : (⟨S1x243, .i1⟩ : BufTy).Contents (Elt F) → (⟨S1x243, .i32⟩ : BufTy).Contents (Elt F) → (⟨S1x243, .i32⟩ : BufTy).Contents (Elt F) → (⟨S1x243, .i32⟩ : BufTy).Contents (Elt F)) ((andi : (⟨S1x243, .i1⟩ : BufTy).Contents (Elt F) → (⟨S1x243, .i1⟩ : BufTy).Contents (Elt F) → (⟨S1x243, .i1⟩ : BufTy).Contents (Elt F)) ((cmpi .ne : (⟨S1x243, .i1⟩ : BufTy).Contents (Elt F) → (⟨S1x243, .i1⟩ : BufTy).Contents (Elt F) → (⟨S1x243, .i1⟩ : BufTy).Contents (Elt F)) ((cmpi .slt : (⟨S1x243, .i32⟩ : BufTy).Contents (Elt F) → (⟨S1x243, .i32⟩ : BufTy).Contents (Elt F) → (⟨S1x243, .i1⟩ : BufTy).Contents (Elt F)) (c_call7_v4 (F := F)) ((broadcastInDim S1x243 ![] bcast_S_S1x243 : (⟨S_, .i32⟩ : BufTy).Contents (Elt F) → (⟨S1x243, .i32⟩ : BufTy).Contents (Elt F)) (constantI S_ 32 0#32 : (⟨S_, .i32⟩ : BufTy).Contents (Elt F)))) ((broadcastInDim S1x243 ![] bcast_S_S1x243 : (⟨S_, .i1⟩ : BufTy).Contents (Elt F) → (⟨S1x243, .i1⟩ : BufTy).Contents (Elt F)) ((cmpi .slt : (⟨S_, .i32⟩ : BufTy).Contents (Elt F) → (⟨S_, .i32⟩ : BufTy).Contents (Elt F) → (⟨S_, .i1⟩ : BufTy).Contents (Elt F)) (c_call7_v2 (F := F)) (constantI S_ 32 0#32 : (⟨S_, .i32⟩ : BufTy).Contents (Elt F))))) ((cmpi .ne : (⟨S1x243, .i32⟩ : BufTy).Contents (Elt F) → (⟨S1x243, .i32⟩ : BufTy).Contents (Elt F) → (⟨S1x243, .i1⟩ : BufTy).Contents (Elt F)) (c_call7_v4 (F := F)) ((broadcastInDim S1x243 ![] bcast_S_S1x243 : (⟨S_, .i32⟩ : BufTy).Contents (Elt F) → (⟨S1x243, .i32⟩ : BufTy).Contents (Elt F)) (constantI S_ 32 0#32 : (⟨S_, .i32⟩ : BufTy).Contents (Elt F))))) ((addi : (⟨S1x243, .i32⟩ : BufTy).Contents (Elt F) → (⟨S1x243, .i32⟩ : BufTy).Contents (Elt F) → (⟨S1x243, .i32⟩ : BufTy).Contents (Elt F)) (c_call7_v4 (F := F)) ((broadcastInDim S1x243 ![] bcast_S_S1x243 : (⟨S_, .i32⟩ : BufTy).Contents (Elt F) → (⟨S1x243, .i32⟩ : BufTy).Contents (Elt F)) (c_call7_v2 (F := F)))) (c_call7_v4 (F := F)))

/-- The contents of `main_v52` as a function of `main_arg13`. -/
def c_v52 (a13 : (⟨S128, .i32⟩ : BufTy).Contents (Elt F)) : (⟨S128x1, .i32⟩ : BufTy).Contents (Elt F) :=
  ((muli : (⟨S128x1, .i32⟩ : BufTy).Contents (Elt F) → (⟨S128x1, .i32⟩ : BufTy).Contents (Elt F) → (⟨S128x1, .i32⟩ : BufTy).Contents (Elt F)) ((muli : (⟨S128x1, .i32⟩ : BufTy).Contents (Elt F) → (⟨S128x1, .i32⟩ : BufTy).Contents (Elt F) → (⟨S128x1, .i32⟩ : BufTy).Contents (Elt F)) (c_v40 a13) (c_v40 a13)) ((broadcastInDim S128x1 ![] bcast_S_S128x1 : (⟨S_, .i32⟩ : BufTy).Contents (Elt F) → (⟨S128x1, .i32⟩ : BufTy).Contents (Elt F)) (constantI S_ 32 3#32 : (⟨S_, .i32⟩ : BufTy).Contents (Elt F))))

/-- The contents of `main_v53` as a function of . -/
def c_v53  : (⟨S128x243, .i32⟩ : BufTy).Contents (Elt F) :=
  ((broadcastInDim S128x243 ![0, 1] bcast_S1x243_S128x243_0_1 : (⟨S1x243, .i32⟩ : BufTy).Contents (Elt F) → (⟨S128x243, .i32⟩ : BufTy).Contents (Elt F)) (c_v39 (F := F)))

/-- The contents of `main_v67` as a function of `main_arg13`. -/
def c_v67 (a13 : (⟨S128, .i32⟩ : BufTy).Contents (Elt F)) : (⟨S128x243, .i32⟩ : BufTy).Contents (Elt F) :=
  ((minsi : (⟨S128x243, .i32⟩ : BufTy).Contents (Elt F) → (⟨S128x243, .i32⟩ : BufTy).Contents (Elt F) → (⟨S128x243, .i32⟩ : BufTy).Contents (Elt F)) ((broadcastInDim S128x243 ![] bcast_S_S128x243 : (⟨S_, .i32⟩ : BufTy).Contents (Elt F) → (⟨S128x243, .i32⟩ : BufTy).Contents (Elt F)) ((id : (⟨S_, .i32⟩ : BufTy).Contents (Elt F) → (⟨S_, .i32⟩ : BufTy).Contents (Elt F)) (constantI S_ 32 3145727#32 : (⟨S_, .i32⟩ : BufTy).Contents (Elt F)))) ((maxsi : (⟨S128x243, .i32⟩ : BufTy).Contents (Elt F) → (⟨S128x243, .i32⟩ : BufTy).Contents (Elt F) → (⟨S128x243, .i32⟩ : BufTy).Contents (Elt F)) ((broadcastInDim S128x243 ![] bcast_S_S128x243 : (⟨S_, .i32⟩ : BufTy).Contents (Elt F) → (⟨S128x243, .i32⟩ : BufTy).Contents (Elt F)) ((id : (⟨S_, .i32⟩ : BufTy).Contents (Elt F) → (⟨S_, .i32⟩ : BufTy).Contents (Elt F)) (constantI S_ 32 0#32 : (⟨S_, .i32⟩ : BufTy).Contents (Elt F)))) ((addi : (⟨S128x243, .i32⟩ : BufTy).Contents (Elt F) → (⟨S128x243, .i32⟩ : BufTy).Contents (Elt F) → (⟨S128x243, .i32⟩ : BufTy).Contents (Elt F)) ((muli : (⟨S128x243, .i32⟩ : BufTy).Contents (Elt F) → (⟨S128x243, .i32⟩ : BufTy).Contents (Elt F) → (⟨S128x243, .i32⟩ : BufTy).Contents (Elt F)) ((addi : (⟨S128x243, .i32⟩ : BufTy).Contents (Elt F) → (⟨S128x243, .i32⟩ : BufTy).Contents (Elt F) → (⟨S128x243, .i32⟩ : BufTy).Contents (Elt F)) ((muli : (⟨S128x243, .i32⟩ : BufTy).Contents (Elt F) → (⟨S128x243, .i32⟩ : BufTy).Contents (Elt F) → (⟨S128x243, .i32⟩ : BufTy).Contents (Elt F)) ((addi : (⟨S128x243, .i32⟩ : BufTy).Contents (Elt F) → (⟨S128x243, .i32⟩ : BufTy).Contents (Elt F) → (⟨S128x243, .i32⟩ : BufTy).Contents (Elt F)) ((broadcastInDim S128x243 ![0, 1] bcast_S128x1_S128x243_0_1 : (⟨S128x1, .i32⟩ : BufTy).Contents (Elt F) → (⟨S128x243, .i32⟩ : BufTy).Contents (Elt F)) (c_v41 a13)) (c_v44 a13)) ((broadcastInDim S128x243 ![] bcast_S_S128x243 : (⟨S_, .i32⟩ : BufTy).Contents (Elt F) → (⟨S128x243, .i32⟩ : BufTy).Contents (Elt F)) (constantI S_ 32 1024#32 : (⟨S_, .i32⟩ : BufTy).Contents (Elt F)))) ((addi : (⟨S128x243, .i32⟩ : BufTy).Contents (Elt F) → (⟨S128x243, .i32⟩ : BufTy).Contents (Elt F) → (⟨S128x243, .i32⟩ : BufTy).Contents (Elt F)) ((broadcastInDim S128x243 ![0, 1] bcast_S128x1_S128x243_0_1 : (⟨S128x1, .i32⟩ : BufTy).Contents (Elt F) → (⟨S128x243, .i32⟩ : BufTy).Contents (Elt F)) (c_v41 a13)) (c_v48 a13))) ((broadcastInDim S128x243 ![] bcast_S_S128x243 : (⟨S_, .i32⟩ : BufTy).Contents (Elt F) → (⟨S128x243, .i32⟩ : BufTy).Contents (Elt F)) (constantI S_ 32 3#32 : (⟨S_, .i32⟩ : BufTy).Contents (Elt F)))) ((broadcastInDim S128x243 ![0, 1] bcast_S1x243_S128x243_0_1 : (⟨S1x243, .i32⟩ : BufTy).Contents (Elt F) → (⟨S128x243, .i32⟩ : BufTy).Contents (Elt F)) (c_v49 (F := F))))))

/-- The contents of `main_v75` as a function of `main_v35`'s contents, `main_arg13`. -/
def c_v75 (x : (⟨S3145728, .f32⟩ : BufTy).Contents (Elt F)) (a13 : (⟨S128, .i32⟩ : BufTy).Contents (Elt F)) : (⟨S128x243, .f32⟩ : BufTy).Contents (Elt F) :=
  ((select : (⟨S128x243, .i1⟩ : BufTy).Contents (Elt F) → (⟨S128x243, .f32⟩ : BufTy).Contents (Elt F) → (⟨S128x243, .f32⟩ : BufTy).Contents (Elt F) → (⟨S128x243, .f32⟩ : BufTy).Contents (Elt F)) ((cmpi .slt : (⟨S128x243, .i32⟩ : BufTy).Contents (Elt F) → (⟨S128x243, .i32⟩ : BufTy).Contents (Elt F) → (⟨S128x243, .i1⟩ : BufTy).Contents (Elt F)) (c_v53 (F := F)) ((broadcastInDim S128x243 ![0, 1] bcast_S128x1_S128x243_0_1 : (⟨S128x1, .i32⟩ : BufTy).Contents (Elt F) → (⟨S128x243, .i32⟩ : BufTy).Contents (Elt F)) (c_v52 a13))) (Host.gather gather_S3145728_S128x243x1_S128x243_n_0_n_n_0_2_1 x ((broadcastInDim S128x243x1 ![0, 1] bcast_S128x243_S128x243x1_0_1 : (⟨S128x243, .i32⟩ : BufTy).Contents (Elt F) → (⟨S128x243x1, .i32⟩ : BufTy).Contents (Elt F)) ((select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ((cmpi .slt : (⟨S128x243, .i32⟩ : BufTy).Contents (Elt F) → (⟨S128x243, .i32⟩ : BufTy).Contents (Elt F) → (⟨S128x243, .i1⟩ : BufTy).Contents (Elt F)) (c_v67 a13) ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F)))) ((addi : (⟨S128x243, .i32⟩ : BufTy).Contents (Elt F) → (⟨S128x243, .i32⟩ : BufTy).Contents (Elt F) → (⟨S128x243, .i32⟩ : BufTy).Contents (Elt F)) (c_v67 a13) ((broadcastInDim S128x243 ![] bcast_S_S128x243 : (⟨S_, .i32⟩ : BufTy).Contents (Elt F) → (⟨S128x243, .i32⟩ : BufTy).Contents (Elt F)) (constantI S_ 32 3145728#32 : (⟨S_, .i32⟩ : BufTy).Contents (Elt F)))) (c_v67 a13))) : (⟨S128x243, .f32⟩ : BufTy).Contents (Elt F)) ((broadcastInDim S128x243 ![] bcast_S_S128x243 : (⟨S_, .f32⟩ : BufTy).Contents (Elt F) → (⟨S128x243, .f32⟩ : BufTy).Contents (Elt F)) (constant S_ .f32 0x00000000#32 : (⟨S_, .f32⟩ : BufTy).Contents (Elt F))))

/-- The contents of `main_call10_v5` as a function of `main_arg11`. -/
def c_call10_v5 (a11 : (⟨S128x243, .i32⟩ : BufTy).Contents (Elt F)) : (⟨S128x243x1, .i32⟩ : BufTy).Contents (Elt F) :=
  (shapeCast S128x243x1 ((select : (⟨S128x243, .i1⟩ : BufTy).Contents (Elt F) → (⟨S128x243, .i32⟩ : BufTy).Contents (Elt F) → (⟨S128x243, .i32⟩ : BufTy).Contents (Elt F) → (⟨S128x243, .i32⟩ : BufTy).Contents (Elt F)) ((cmpi .slt : (⟨S128x243, .i32⟩ : BufTy).Contents (Elt F) → (⟨S128x243, .i32⟩ : BufTy).Contents (Elt F) → (⟨S128x243, .i1⟩ : BufTy).Contents (Elt F)) a11 ((broadcastInDim S128x243 ![] bcast_S_S128x243 : (⟨S_, .i32⟩ : BufTy).Contents (Elt F) → (⟨S128x243, .i32⟩ : BufTy).Contents (Elt F)) (constantI S_ 32 0#32 : (⟨S_, .i32⟩ : BufTy).Contents (Elt F)))) ((addi : (⟨S128x243, .i32⟩ : BufTy).Contents (Elt F) → (⟨S128x243, .i32⟩ : BufTy).Contents (Elt F) → (⟨S128x243, .i32⟩ : BufTy).Contents (Elt F)) a11 ((broadcastInDim S128x243 ![] bcast_S_S128x243 : (⟨S_, .i32⟩ : BufTy).Contents (Elt F) → (⟨S128x243, .i32⟩ : BufTy).Contents (Elt F)) (constantI S_ 32 243#32 : (⟨S_, .i32⟩ : BufTy).Contents (Elt F)))) a11) shapeCasts_S128x243_S128x243x1 : (⟨S128x243x1, .i32⟩ : BufTy).Contents (Elt F))

/-- The contents of `main_v77` as a function of `main_v35`'s contents, `main_arg2`, `main_arg11`, `main_arg13`. -/
def c_v77 (x : (⟨S3145728, .f32⟩ : BufTy).Contents (Elt F)) (a2 : (⟨S128x243, .f32⟩ : BufTy).Contents (Elt F)) (a11 : (⟨S128x243, .i32⟩ : BufTy).Contents (Elt F)) (a13 : (⟨S128, .i32⟩ : BufTy).Contents (Elt F)) : (⟨S128x243, .f32⟩ : BufTy).Contents (Elt F) :=
  ((addf : (⟨S128x243, .f32⟩ : BufTy).Contents (Elt F) → (⟨S128x243, .f32⟩ : BufTy).Contents (Elt F) → (⟨S128x243, .f32⟩ : BufTy).Contents (Elt F)) ((select : (⟨S128x243, .i1⟩ : BufTy).Contents (Elt F) → (⟨S128x243, .f32⟩ : BufTy).Contents (Elt F) → (⟨S128x243, .f32⟩ : BufTy).Contents (Elt F) → (⟨S128x243, .f32⟩ : BufTy).Contents (Elt F)) (Host.reduce IntOp.andi ((andi : (⟨S128x243x1, .i1⟩ : BufTy).Contents (Elt F) → (⟨S128x243x1, .i1⟩ : BufTy).Contents (Elt F) → (⟨S128x243x1, .i1⟩ : BufTy).Contents (Elt F)) ((cmpi .sge : (⟨S128x243x1, .i32⟩ : BufTy).Contents (Elt F) → (⟨S128x243x1, .i32⟩ : BufTy).Contents (Elt F) → (⟨S128x243x1, .i1⟩ : BufTy).Contents (Elt F)) (c_call10_v5 a11) ((broadcastInDim S128x243x1 ![] bcast_S_S128x243x1 : (⟨S_, .i32⟩ : BufTy).Contents (Elt F) → (⟨S128x243x1, .i32⟩ : BufTy).Contents (Elt F)) (constantI S_ 32 0#32 : (⟨S_, .i32⟩ : BufTy).Contents (Elt F)))) ((cmpi .sle : (⟨S128x243x1, .i32⟩ : BufTy).Contents (Elt F) → (⟨S128x243x1, .i32⟩ : BufTy).Contents (Elt F) → (⟨S128x243x1, .i1⟩ : BufTy).Contents (Elt F)) (c_call10_v5 a11) ((broadcastInDim S128x243x1 ![0, 1, 2] bcast_S1x1x1_S128x243x1_0_1_2 : (⟨S1x1x1, .i32⟩ : BufTy).Contents (Elt F) → (⟨S128x243x1, .i32⟩ : BufTy).Contents (Elt F)) ((broadcastInDim S1x1x1 ![2] bcast_S1_S1x1x1_2 : (⟨S1, .i32⟩ : BufTy).Contents (Elt F) → (⟨S1x1x1, .i32⟩ : BufTy).Contents (Elt F)) (constantI S1 32 242#32 : (⟨S1, .i32⟩ : BufTy).Contents (Elt F)))))) (constantI S_ 1 1#1 : (⟨S_, .i1⟩ : BufTy).Contents (Elt F)) reducesTo_S128x243x1_S128x243_d2 h_S_ : (⟨S128x243, .i1⟩ : BufTy).Contents (Elt F)) (Host.gather gather_S128x243_S128x243x1_S128x243_n_1_0_0_1_2_11 (c_v75 x a13) (c_call10_v5 a11) : (⟨S128x243, .f32⟩ : BufTy).Contents (Elt F)) ((broadcastInDim S128x243 ![] bcast_S_S128x243 : (⟨S_, .f32⟩ : BufTy).Contents (Elt F) → (⟨S128x243, .f32⟩ : BufTy).Contents (Elt F)) (constant S_ .f32 0x7FC00000#32 : (⟨S_, .f32⟩ : BufTy).Contents (Elt F)))) a2)

/-- The contents of `main_v84` as a function of `main_v35`'s contents, `main_arg2`, `main_arg11`, `main_arg13`. -/
def c_v84 (x : (⟨S3145728, .f32⟩ : BufTy).Contents (Elt F)) (a2 : (⟨S128x243, .f32⟩ : BufTy).Contents (Elt F)) (a11 : (⟨S128x243, .i32⟩ : BufTy).Contents (Elt F)) (a13 : (⟨S128, .i32⟩ : BufTy).Contents (Elt F)) : (⟨S128x243, .f32⟩ : BufTy).Contents (Elt F) :=
  ((Host.exp : (⟨S128x243, .f32⟩ : BufTy).Contents (Elt F) → (⟨S128x243, .f32⟩ : BufTy).Contents (Elt F)) ((subf : (⟨S128x243, .f32⟩ : BufTy).Contents (Elt F) → (⟨S128x243, .f32⟩ : BufTy).Contents (Elt F) → (⟨S128x243, .f32⟩ : BufTy).Contents (Elt F)) (c_v77 x a2 a11 a13) ((broadcastInDim S128x243 ![0, 1] bcast_S128x1_S128x243_0_1 : (⟨S128x1, .f32⟩ : BufTy).Contents (Elt F) → (⟨S128x243, .f32⟩ : BufTy).Contents (Elt F)) ((broadcastInDim S128x1 ![0] bcast_S128_S128x1_0 : (⟨S128, .f32⟩ : BufTy).Contents (Elt F) → (⟨S128x1, .f32⟩ : BufTy).Contents (Elt F)) ((maximumf : (⟨S128, .f32⟩ : BufTy).Contents (Elt F) → (⟨S128, .f32⟩ : BufTy).Contents (Elt F) → (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0xFF800000#32 : (⟨S_, .f32⟩ : BufTy).Contents (Elt F))) (Host.reduce FloatOps.maximumf (c_v77 x a2 a11 a13) (constant S_ .f32 0xFF800000#32 : (⟨S_, .f32⟩ : BufTy).Contents (Elt F)) reducesTo_S128x243_S128_d1 h_S_ : (⟨S128, .f32⟩ : BufTy).Contents (Elt F)))))))

/-- The contents of `main_v88` as a function of `main_v35`'s contents, `main_arg13`, `main_arg11`, `main_arg2`. -/
def tailFn (x : (⟨S3145728, .f32⟩ : BufTy).Contents (Elt F)) (a13 : (⟨S128, .i32⟩ : BufTy).Contents (Elt F)) (a11 : (⟨S128x243, .i32⟩ : BufTy).Contents (Elt F)) (a2 : (⟨S128x243, .f32⟩ : BufTy).Contents (Elt F)) : (⟨S128x243, .f32⟩ : BufTy).Contents (Elt F) :=
  ((Host.divf : (⟨S128x243, .f32⟩ : BufTy).Contents (Elt F) → (⟨S128x243, .f32⟩ : BufTy).Contents (Elt F) → (⟨S128x243, .f32⟩ : BufTy).Contents (Elt F)) (c_v84 x a2 a11 a13) ((broadcastInDim S128x243 ![0, 1] bcast_S128x1_S128x243_0_1 : (⟨S128x1, .f32⟩ : BufTy).Contents (Elt F) → (⟨S128x243, .f32⟩ : BufTy).Contents (Elt F)) ((broadcastInDim S128x1 ![0] bcast_S128_S128x1_0 : (⟨S128, .f32⟩ : BufTy).Contents (Elt F) → (⟨S128x1, .f32⟩ : BufTy).Contents (Elt F)) (Host.reduceAdd (c_v84 x a2 a11 a13) (constant S_ .f32 0x00000000#32 : (⟨S_, .f32⟩ : BufTy).Contents (Elt F)) reducesTo_S128x243_S128_d1 h_S_ : (⟨S128, .f32⟩ : BufTy).Contents (Elt F)))))

/-- The buffers the operations of `opsP` write. -/
abbrev opsP_W : List (Ref sig .tc) := [main_cst, main_v0, main_v1, main_v2, main_v3, main_v4, main_v5, main_v6, main_call0_cst, main_call0_v0, main_v7, main_v8, main_v9, main_v10, main_v11, main_call1_cst, main_call1_v0, main_v12, main_v13, main_v14, main_v15, main_v16, main_v17, main_v18, main_v19, main_v20, main_v21, main_v22, main_v23, main_v24, main_call2_cst, main_call2_v0, main_v25, main_v26, main_v27, main_v28, main_v29, main_v30, main_v31, main_v32, main_v33, main_v34, main_v35]
set_option maxRecDepth 8192 in
theorem opsP_writes : (opsP : List (HloOp τ sig (Elt F))).Forall fun op => op.writes ⊆ (opsP_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers the operations of `opsT0` write. -/
abbrev opsT0_W : List (Ref sig .tc) := [main_call3_call0_c, main_call3_call0_v0, main_v36, main_v37, main_v38, main_v39, main_v40, main_v41, main_c, main_v42, main_v43, main_call4_v0, main_call4_v1, main_call4_v2, main_call4_v3, main_call4_v4, main_call4_v5, main_call4_v6, main_call4_v7, main_call4_v8, main_call4_v9, main_call4_v10, main_call4_c, main_call4_v11, main_call4_v12, main_call4_v13, main_call4_c_0, main_call4_v14, main_call4_v15, main_v44, main_c_0, main_v45, main_v46, main_call5_c, main_call5_v0, main_call5_v1, main_call5_c_0, main_call5_v2, main_call5_v3, main_call5_v4, main_call5_v5, main_call5_v6, main_call5_c_1, main_call5_v7, main_call5_v8, main_call5_c_2, main_call5_v9, main_call5_v10, main_call5_c_3, main_call5_v11, main_call5_v12, main_call5_v13, main_call5_v14, main_call5_v15, main_call5_v16, main_call5_v17, main_v47]
set_option maxRecDepth 8192 in
theorem opsT0_writes : (opsT0 : List (HloOp τ sig (Elt F))).Forall fun op => op.writes ⊆ (opsT0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers the operations of `opsT1` write. -/
abbrev opsT1_W : List (Ref sig .tc) := [main_c_1, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v48, main_c_2, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v49, main_v50, main_c_3, main_v51, main_v52, main_v53]
set_option maxRecDepth 8192 in
theorem opsT1_writes : (opsT1 : List (HloOp τ sig (Elt F))).Forall fun op => op.writes ⊆ (opsT1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers the operations of `opsT2` write. -/
abbrev opsT2_W : List (Ref sig .tc) := [main_v54, main_v55, main_v56, main_v57, main_c_4, main_v58, main_v59, main_v60, main_v61, main_v62, main_c_5, main_v63, main_v64, main_v65, main_v66, main_c_6, main_c_7, main_call8_v0, main_call8_v1, main_call8_v2, main_call8_v3, main_call8_v4, main_v67, main_c_8, main_v68, main_v69, main_c_9, main_v70, main_v71, main_v72, main_v73, main_v74, main_cst_10, main_call9_v0, main_v75]
set_option maxRecDepth 8192 in
theorem opsT2_writes : (opsT2 : List (HloOp τ sig (Elt F))).Forall fun op => op.writes ⊆ (opsT2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers the operations of `opsT3` write. -/
abbrev opsT3_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v76, main_v77, main_cst_11, main_v78, main_cst_12, main_v79, main_v80, main_v81, main_v82, main_v83, main_v84, main_cst_13, main_v85, main_v86, main_v87, main_v88]
set_option maxRecDepth 8192 in
theorem opsT3_writes : (opsT3 : List (HloOp τ sig (Elt F))).Forall fun op => op.writes ⊆ (opsT3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The contents after the operations of `opsP`, from contents `V`. -/
def val0 (V : Valuation τ sig (Elt F)) : Valuation τ sig (Elt F) := after opsP V
theorem val0_keep (V : Valuation τ sig (Elt F)) (r : Ref sig .tc) (h : r ∉ opsP_W) :
    val0 V (Proc.devRef .tc r) = V (Proc.devRef .tc r) :=
  after_of_writes_sub opsP _ opsP_writes h
set_option maxRecDepth 8192 in
set_option maxHeartbeats 4000000 in
theorem val0_main_v35 (V : Valuation τ sig (Elt F)) : val0 V (no_index (Proc.devRef .tc main_v35)) = (shapeCast S3145728 (resScores (resA (V (Proc.devRef .tc main_arg0)) (V (Proc.devRef .tc main_arg7))) (resB (V (Proc.devRef .tc main_arg0)) (V (Proc.devRef .tc main_arg7))) (V (Proc.devRef .tc main_arg1)) (V (Proc.devRef .tc main_arg8)) (V (Proc.devRef .tc main_arg9)) (V (Proc.devRef .tc main_arg10))) shapeCasts_S1024x1024x3_S3145728) := by
  unfold val0
  simp only [opsP]
  after_results_simp
  rfl
set_option maxRecDepth 8192 in
set_option maxHeartbeats 4000000 in
theorem val0_main_v11 (V : Valuation τ sig (Elt F)) : val0 V (no_index (Proc.devRef .tc main_v11)) = readoutFn (V (Proc.devRef .tc main_arg0)) (V (Proc.devRef .tc main_arg3)) (V (Proc.devRef .tc main_arg4)) (V (Proc.devRef .tc main_arg5)) (V (Proc.devRef .tc main_arg6)) (V (Proc.devRef .tc main_arg12)) := by
  unfold val0
  simp only [opsP]
  after_results_simp
  rfl

/-- The contents after the operations of `opsT0`, from contents `V`. -/
def tv1 (V : Valuation τ sig (Elt F)) : Valuation τ sig (Elt F) := after opsT0 V
theorem tv1_keep (V : Valuation τ sig (Elt F)) (r : Ref sig .tc) (h : r ∉ opsT0_W) :
    tv1 V (Proc.devRef .tc r) = V (Proc.devRef .tc r) :=
  after_of_writes_sub opsT0 _ opsT0_writes h
set_option maxRecDepth 8192 in
set_option maxHeartbeats 4000000 in
theorem tv1_main_v47 (V : Valuation τ sig (Elt F)) : tv1 V (no_index (Proc.devRef .tc main_v47)) = c_v47 (V (Proc.devRef .tc main_arg13)) := by
  unfold tv1
  simp only [opsT0]
  after_results_simp
  rfl
set_option maxRecDepth 8192 in
set_option maxHeartbeats 4000000 in
theorem tv1_main_v39 (V : Valuation τ sig (Elt F)) : tv1 V (no_index (Proc.devRef .tc main_v39)) = c_v39 (F := F) := by
  unfold tv1
  simp only [opsT0]
  after_results_simp
  rfl
set_option maxRecDepth 8192 in
set_option maxHeartbeats 4000000 in
theorem tv1_main_v40 (V : Valuation τ sig (Elt F)) : tv1 V (no_index (Proc.devRef .tc main_v40)) = c_v40 (V (Proc.devRef .tc main_arg13)) := by
  unfold tv1
  simp only [opsT0]
  after_results_simp
  rfl
set_option maxRecDepth 8192 in
set_option maxHeartbeats 4000000 in
theorem tv1_main_v41 (V : Valuation τ sig (Elt F)) : tv1 V (no_index (Proc.devRef .tc main_v41)) = c_v41 (V (Proc.devRef .tc main_arg13)) := by
  unfold tv1
  simp only [opsT0]
  after_results_simp
  rfl
set_option maxRecDepth 8192 in
set_option maxHeartbeats 4000000 in
theorem tv1_main_v44 (V : Valuation τ sig (Elt F)) : tv1 V (no_index (Proc.devRef .tc main_v44)) = c_v44 (V (Proc.devRef .tc main_arg13)) := by
  unfold tv1
  simp only [opsT0]
  after_results_simp
  rfl
theorem tv1_main_v35 (V : Valuation τ sig (Elt F)) : tv1 V (no_index (Proc.devRef .tc main_v35)) = V (Proc.devRef .tc main_v35) :=
  tv1_keep V main_v35 (by decide)
theorem tv1_main_v11 (V : Valuation τ sig (Elt F)) : tv1 V (no_index (Proc.devRef .tc main_v11)) = V (Proc.devRef .tc main_v11) :=
  tv1_keep V main_v11 (by decide)
theorem tv1_main_arg11 (V : Valuation τ sig (Elt F)) : tv1 V (no_index (Proc.devRef .tc main_arg11)) = V (Proc.devRef .tc main_arg11) :=
  tv1_keep V main_arg11 (by decide)
theorem tv1_main_arg2 (V : Valuation τ sig (Elt F)) : tv1 V (no_index (Proc.devRef .tc main_arg2)) = V (Proc.devRef .tc main_arg2) :=
  tv1_keep V main_arg2 (by decide)

/-- The contents after the operations of `opsT1` (and the tail's earlier stretches), from contents `V`. -/
def tv2 (V : Valuation τ sig (Elt F)) : Valuation τ sig (Elt F) := after opsT1 (tv1 V)
theorem tv2_keep (V : Valuation τ sig (Elt F)) (r : Ref sig .tc) (h : r ∉ opsT1_W) :
    tv2 V (Proc.devRef .tc r) = tv1 V (Proc.devRef .tc r) :=
  after_of_writes_sub opsT1 _ opsT1_writes h
set_option maxRecDepth 8192 in
set_option maxHeartbeats 4000000 in
theorem tv2_main_v52 (V : Valuation τ sig (Elt F)) : tv2 V (no_index (Proc.devRef .tc main_v52)) = c_v52 (V (Proc.devRef .tc main_arg13)) := by
  unfold tv2
  simp only [opsT1]
  after_results_simp
  simp only [tv1_main_v47, tv1_main_v39, tv1_main_v40] <;> rfl
set_option maxRecDepth 8192 in
set_option maxHeartbeats 4000000 in
theorem tv2_main_v53 (V : Valuation τ sig (Elt F)) : tv2 V (no_index (Proc.devRef .tc main_v53)) = c_v53 (F := F) := by
  unfold tv2
  simp only [opsT1]
  after_results_simp
  simp only [tv1_main_v47, tv1_main_v39, tv1_main_v40] <;> rfl
theorem tv2_main_v41 (V : Valuation τ sig (Elt F)) : tv2 V (no_index (Proc.devRef .tc main_v41)) = c_v41 (V (Proc.devRef .tc main_arg13)) :=
  (tv2_keep V main_v41 (by decide)).trans (tv1_main_v41 V)
theorem tv2_main_v44 (V : Valuation τ sig (Elt F)) : tv2 V (no_index (Proc.devRef .tc main_v44)) = c_v44 (V (Proc.devRef .tc main_arg13)) :=
  (tv2_keep V main_v44 (by decide)).trans (tv1_main_v44 V)
set_option maxRecDepth 8192 in
set_option maxHeartbeats 4000000 in
theorem tv2_main_v48 (V : Valuation τ sig (Elt F)) : tv2 V (no_index (Proc.devRef .tc main_v48)) = c_v48 (V (Proc.devRef .tc main_arg13)) := by
  unfold tv2
  simp only [opsT1]
  after_results_simp
  simp only [tv1_main_v47, tv1_main_v39, tv1_main_v40] <;> rfl
set_option maxRecDepth 8192 in
set_option maxHeartbeats 4000000 in
theorem tv2_main_v49 (V : Valuation τ sig (Elt F)) : tv2 V (no_index (Proc.devRef .tc main_v49)) = c_v49 (F := F) := by
  unfold tv2
  simp only [opsT1]
  after_results_simp
  simp only [tv1_main_v47, tv1_main_v39, tv1_main_v40] <;> rfl
theorem tv2_main_v35 (V : Valuation τ sig (Elt F)) : tv2 V (no_index (Proc.devRef .tc main_v35)) = V (Proc.devRef .tc main_v35) :=
  (tv2_keep V main_v35 (by decide)).trans (tv1_main_v35 V)
theorem tv2_main_v11 (V : Valuation τ sig (Elt F)) : tv2 V (no_index (Proc.devRef .tc main_v11)) = V (Proc.devRef .tc main_v11) :=
  (tv2_keep V main_v11 (by decide)).trans (tv1_main_v11 V)
theorem tv2_main_arg11 (V : Valuation τ sig (Elt F)) : tv2 V (no_index (Proc.devRef .tc main_arg11)) = V (Proc.devRef .tc main_arg11) :=
  (tv2_keep V main_arg11 (by decide)).trans (tv1_main_arg11 V)
theorem tv2_main_arg2 (V : Valuation τ sig (Elt F)) : tv2 V (no_index (Proc.devRef .tc main_arg2)) = V (Proc.devRef .tc main_arg2) :=
  (tv2_keep V main_arg2 (by decide)).trans (tv1_main_arg2 V)

/-- The contents after the operations of `opsT2` (and the tail's earlier stretches), from contents `V`. -/
def tv3 (V : Valuation τ sig (Elt F)) : Valuation τ sig (Elt F) := after opsT2 (tv2 V)
theorem tv3_keep (V : Valuation τ sig (Elt F)) (r : Ref sig .tc) (h : r ∉ opsT2_W) :
    tv3 V (Proc.devRef .tc r) = tv2 V (Proc.devRef .tc r) :=
  after_of_writes_sub opsT2 _ opsT2_writes h
set_option maxRecDepth 8192 in
set_option maxHeartbeats 4000000 in
theorem tv3_main_v75 (V : Valuation τ sig (Elt F)) : tv3 V (no_index (Proc.devRef .tc main_v75)) = c_v75 (V (Proc.devRef .tc main_v35)) (V (Proc.devRef .tc main_arg13)) := by
  unfold tv3
  simp only [opsT2]
  after_results_simp
  simp only [tv2_main_v52, tv2_main_v53, tv2_main_v41, tv2_main_v44, tv2_main_v48, tv2_main_v49, tv2_main_v35] <;> rfl
theorem tv3_main_v11 (V : Valuation τ sig (Elt F)) : tv3 V (no_index (Proc.devRef .tc main_v11)) = V (Proc.devRef .tc main_v11) :=
  (tv3_keep V main_v11 (by decide)).trans (tv2_main_v11 V)
theorem tv3_main_arg11 (V : Valuation τ sig (Elt F)) : tv3 V (no_index (Proc.devRef .tc main_arg11)) = V (Proc.devRef .tc main_arg11) :=
  (tv3_keep V main_arg11 (by decide)).trans (tv2_main_arg11 V)
theorem tv3_main_arg2 (V : Valuation τ sig (Elt F)) : tv3 V (no_index (Proc.devRef .tc main_arg2)) = V (Proc.devRef .tc main_arg2) :=
  (tv3_keep V main_arg2 (by decide)).trans (tv2_main_arg2 V)

/-- The contents after the operations of `opsT3` (and the tail's earlier stretches), from contents `V`. -/
def tv4 (V : Valuation τ sig (Elt F)) : Valuation τ sig (Elt F) := after opsT3 (tv3 V)
theorem tv4_keep (V : Valuation τ sig (Elt F)) (r : Ref sig .tc) (h : r ∉ opsT3_W) :
    tv4 V (Proc.devRef .tc r) = tv3 V (Proc.devRef .tc r) :=
  after_of_writes_sub opsT3 _ opsT3_writes h
set_option maxRecDepth 8192 in
set_option maxHeartbeats 4000000 in
theorem tv4_main_v88 (V : Valuation τ sig (Elt F)) : tv4 V (no_index (Proc.devRef .tc main_v88)) = tailFn (V (Proc.devRef .tc main_v35)) (V (Proc.devRef .tc main_arg13)) (V (Proc.devRef .tc main_arg11)) (V (Proc.devRef .tc main_arg2)) := by
  unfold tv4
  simp only [opsT3]
  after_results_simp
  simp only [tv3_main_arg11, tv3_main_v75, tv3_main_arg2] <;> rfl
theorem tv4_main_v11 (V : Valuation τ sig (Elt F)) : tv4 V (no_index (Proc.devRef .tc main_v11)) = V (Proc.devRef .tc main_v11) :=
  (tv4_keep V main_v11 (by decide)).trans (tv3_main_v11 V)

/-- The fold of all 217 operations is the tail's four stretches over the first stretch. -/
theorem after_ops (V : Valuation τ sig (Elt F)) : after ops V = tv4 (val0 V) := by
  simp only [ops, after_append]
  rfl

end Cert.ReferenceIdeal.HandRun

end
-- ==== Proof.RefRun.lean ====
/- The reference program's run read back: every weakly fair execution of @main terminates with the two results at
   the operations' composed terms of the argument arrays — the probabilities as the gather-and-softmax tail of the
   flattened all-pairs scores, the readout —, and the argument arrays unchanged. -/
import proofs.«101599_j23914377904744_1_alg».proof.Proof.RefMain
import proofs.«101599_j23914377904744_1_alg».proof.Proof.RefVals

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the decided enumerations over the signature's 231 references recurse past the default depth
set_option maxRecDepth 4096 in
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsP_sub : (opsP : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., reshape_bufs_sub ..⟩
set_option maxRecDepth 8192 in
theorem opsT0_sub : (opsT0 : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub ..⟩
set_option maxRecDepth 8192 in
theorem opsT1_sub : (opsT1 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., nullary_bufs_sub .., unary_bufs_sub .., binary_bufs_sub .., unary_bufs_sub ..⟩
set_option maxRecDepth 8192 in
theorem opsT2_sub : (opsT2 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., ternary_bufs_sub ..⟩
set_option maxRecDepth 8192 in
theorem opsT3_sub : (opsT3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsP_sub op h, List.forall_iff_forall_mem.mp opsT0_sub op h, List.forall_iff_forall_mem.mp opsT1_sub op h, List.forall_iff_forall_mem.mp opsT2_sub op h, List.forall_iff_forall_mem.mp opsT3_sub op h]

theorem val0_main_arg13 (V : Valuation τ sig (Elt F)) : val0 V (no_index (Proc.devRef .tc main_arg13)) = V (Proc.devRef .tc main_arg13) := val0_keep V main_arg13 (by decide)
theorem val0_main_arg11 (V : Valuation τ sig (Elt F)) : val0 V (no_index (Proc.devRef .tc main_arg11)) = V (Proc.devRef .tc main_arg11) := val0_keep V main_arg11 (by decide)
theorem val0_main_arg2 (V : Valuation τ sig (Elt F)) : val0 V (no_index (Proc.devRef .tc main_arg2)) = V (Proc.devRef .tc main_arg2) := val0_keep V main_arg2 (by decide)

/-- The probabilities after all 217 operations: the tail of the flattened scores. -/
theorem out_probs (V : Valuation τ sig (Elt F)) : after ops V (Proc.devRef .tc main_v88) = tailFn (shapeCast S3145728 (resScores (resA (V (Proc.devRef .tc main_arg0)) (V (Proc.devRef .tc main_arg7))) (resB (V (Proc.devRef .tc main_arg0)) (V (Proc.devRef .tc main_arg7))) (V (Proc.devRef .tc main_arg1)) (V (Proc.devRef .tc main_arg8)) (V (Proc.devRef .tc main_arg9)) (V (Proc.devRef .tc main_arg10))) shapeCasts_S1024x1024x3_S3145728) (V (Proc.devRef .tc main_arg13)) (V (Proc.devRef .tc main_arg11)) (V (Proc.devRef .tc main_arg2)) := by
  rw [after_ops]
  refine (tv4_main_v88 (val0 V)).trans ?_
  simp only [val0_main_v35, val0_main_arg13, val0_main_arg11, val0_main_arg2]

/-- The readout after all 217 operations. -/
theorem out_readout (V : Valuation τ sig (Elt F)) : after ops V (Proc.devRef .tc main_v11) = readoutFn (V (Proc.devRef .tc main_arg0)) (V (Proc.devRef .tc main_arg3)) (V (Proc.devRef .tc main_arg4)) (V (Proc.devRef .tc main_arg5)) (V (Proc.devRef .tc main_arg6)) (V (Proc.devRef .tc main_arg12)) := by
  rw [after_ops]
  exact (tv4_main_v11 (val0 V)).trans (val0_main_v11 V)

/-- No operation writes an argument array. -/
theorem out_arg (V : Valuation τ sig (Elt F)) (r : Ref sig .tc) (h0 : r ∉ opsP_W) (h1 : r ∉ opsT0_W) (h2 : r ∉ opsT1_W) (h3 : r ∉ opsT2_W) (h4 : r ∉ opsT3_W) :
    after ops V (Proc.devRef .tc r) = V (Proc.devRef .tc r) := by
  rw [after_ops]
  exact (tv4_keep _ r h4).trans ((tv3_keep _ r h3).trans ((tv2_keep _ r h2).trans ((tv1_keep _ r h1).trans (val0_keep V r h0))))

set_option maxRecDepth 8192 in
/-- On every device, for any float values, from any memory with zero counters: every weakly fair execution of @main
    terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = tailFn (shapeCast S3145728 (resScores (resA (m ((c.tc : Thread nD τ).loc main_arg0)) (m ((c.tc : Thread nD τ).loc main_arg7))) (resB (m ((c.tc : Thread nD τ).loc main_arg0)) (m ((c.tc : Thread nD τ).loc main_arg7))) (m ((c.tc : Thread nD τ).loc main_arg1)) (m ((c.tc : Thread nD τ).loc main_arg8)) (m ((c.tc : Thread nD τ).loc main_arg9)) (m ((c.tc : Thread nD τ).loc main_arg10))) shapeCasts_S1024x1024x3_S3145728) (m ((c.tc : Thread nD τ).loc main_arg13)) (m ((c.tc : Thread nD τ).loc main_arg11)) (m ((c.tc : Thread nD τ).loc main_arg2))
      ∧ r.2.mem ((c.tc : Thread nD τ).loc main_v11) = readoutFn (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v88).trans (out_probs (launchContents m c)),
      (h c main_v11).trans (out_readout (launchContents m c)),
      (h c main_arg0).trans (out_arg (launchContents m c) main_arg0 (by decide) (by decide) (by decide) (by decide) (by decide)),
      (h c main_arg1).trans (out_arg (launchContents m c) main_arg1 (by decide) (by decide) (by decide) (by decide) (by decide)),
      (h c main_arg2).trans (out_arg (launchContents m c) main_arg2 (by decide) (by decide) (by decide) (by decide) (by decide)),
      (h c main_arg3).trans (out_arg (launchContents m c) main_arg3 (by decide) (by decide) (by decide) (by decide) (by decide)),
      (h c main_arg4).trans (out_arg (launchContents m c) main_arg4 (by decide) (by decide) (by decide) (by decide) (by decide)),
      (h c main_arg5).trans (out_arg (launchContents m c) main_arg5 (by decide) (by decide) (by decide) (by decide) (by decide)),
      (h c main_arg6).trans (out_arg (launchContents m c) main_arg6 (by decide) (by decide) (by decide) (by decide) (by decide)),
      (h c main_arg7).trans (out_arg (launchContents m c) main_arg7 (by decide) (by decide) (by decide) (by decide) (by decide)),
      (h c main_arg8).trans (out_arg (launchContents m c) main_arg8 (by decide) (by decide) (by decide) (by decide) (by decide)),
      (h c main_arg9).trans (out_arg (launchContents m c) main_arg9 (by decide) (by decide) (by decide) (by decide) (by decide)),
      (h c main_arg10).trans (out_arg (launchContents m c) main_arg10 (by decide) (by decide) (by decide) (by decide) (by decide)),
      (h c main_arg11).trans (out_arg (launchContents m c) main_arg11 (by decide) (by decide) (by decide) (by decide) (by decide)),
      (h c main_arg12).trans (out_arg (launchContents m c) main_arg12 (by decide) (by decide) (by decide) (by decide) (by decide)),
      (h c main_arg13).trans (out_arg (launchContents m c) main_arg13 (by decide) (by decide) (by decide) (by decide) (by decide))⟩)
    (run_seq scopedRefs_eq scopedSems_eq defs main (fun _ => ops) main_eq (fun _ => ops_sub) m ρ)

end Cert.ReferenceIdeal.HandRun

end
-- ==== Proof.RefFrame.lean ====
/- The reference program's frame: its run with the results dropped — every weakly fair execution terminates, nothing
   faults, and the argument arrays end unchanged; the precondition is not used. -/
import proofs.«101599_j23914377904744_1_alg».proof.Defs
import proofs.«101599_j23914377904744_1_alg».proof.Proof.Gen.Pre_finite_inputs
import proofs.«101599_j23914377904744_1_alg».proof.Proof.RefRun

noncomputable section

namespace Cert.ReferenceIdeal.HandRun

open Idealize.ShloMosaic Idealize.SL.Sem

theorem frame : Cert.frame_ReferenceIdeal :=
  fun m g _ => (θ_run (Cert.ReferenceIdeal.defs (F := Ideal)) _ _).mono (fun _ h c => (h c).2.2) (run (F := Ideal) m g)

end Cert.ReferenceIdeal.HandRun

end
-- ==== Proof.PairBlocks.lean ====
/-
  The pipelined region's windows, block by block.

  The region walks a 16 × 8 grid; at point (i, j) the output window's block index is (i, j, 0). The first-layer
  rows `A` and the transposed `lv` are read in blocks of 64 rows at block row i, `B` and the transposed `lv` again in
  blocks of 128 rows at block row j, and the two bias rows and the second layer whole. Here: what the host lines before
  the region leave in the three re-laid arrays (the transposed `lv` and the two biases as rows), the index maps'
  relations decided once over the grid, each window's block read at coordinates (a block's element sits at block
  index × block size + its coordinate), and that the output's blocks cover the `[1024, 1024, 3]` array.
-/
import proofs.«101599_j23914377904744_1_alg».proof.Proof.PairData
import Idealize.ShloMosaic.Lib.ValueIdx

set_option maxRecDepth 16384

noncomputable section

namespace Cert.KernelIdeal.PairArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pair

variable {F : FTy → Type} [FloatOps F]
variable (m : (ℓ : Loc nD τ sig) → Buf (Elt F) ℓ)

/-! ## What the host lines before the region leave in the three re-laid arrays -/

/-- The transposed `lv`. -/
theorem V_main_v17 (c : Dev nD) :
    (V m c main_v17 : S1024x128.Idx → Elt F .f32)
      = transpose S1024x128 [1, 0] (m ((c : Thread nD τ).loc main_arg1)) transposes_S128x1024_S1024x128_1_0 := by
  dsimp only [V, V0]
  simp only [hostOps0, hostOps0_1, hostOps0_2, hostOps0_3, hostOps0_4, List.flatten_cons, List.flatten_nil, List.append_nil,
    List.cons_append, List.nil_append]
  after_results

/-- The hidden bias as a row. -/
theorem V_main_v18 (c : Dev nD) :
    (V m c main_v18 : S1x128.Idx → Elt F .f32)
      = shapeCast S1x128 (m ((c : Thread nD τ).loc main_arg8)) shapeCasts_S128_S1x128 := by
  dsimp only [V, V0]
  simp only [hostOps0, hostOps0_1, hostOps0_2, hostOps0_3, hostOps0_4, List.flatten_cons, List.flatten_nil, List.append_nil,
    List.cons_append, List.nil_append]
  after_results
  rfl

/-- The output bias as a row. -/
theorem V_main_v19 (c : Dev nD) :
    (V m c main_v19 : S1x3.Idx → Elt F .f32)
      = shapeCast S1x3 (m ((c : Thread nD τ).loc main_arg10)) shapeCasts_S3_S1x3 := by
  dsimp only [V, V0]
  simp only [hostOps0, hostOps0_1, hostOps0_2, hostOps0_3, hostOps0_4, List.flatten_cons, List.flatten_nil, List.append_nil,
    List.cons_append, List.nil_append]
  after_results
  rfl

/-! ## The index maps, decided once over the grid -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- At every point the 64-row windows sit at the output's block row, the 128-row windows at its block column, the whole
    windows at block zero; the output's block row is below 16, its block column below 8, its channel block zero. -/
theorem idx_facts : ∀ t : Fin cfg0.N,
    win0_0.index t (0 : Fin 2) = win0_7.index t (0 : Fin 3) ∧ win0_0.index t (1 : Fin 2) = 0
    ∧ win0_1.index t (0 : Fin 2) = win0_7.index t (1 : Fin 3) ∧ win0_1.index t (1 : Fin 2) = 0
    ∧ win0_2.index t (0 : Fin 2) = win0_7.index t (0 : Fin 3) ∧ win0_2.index t (1 : Fin 2) = 0
    ∧ win0_3.index t (0 : Fin 2) = win0_7.index t (1 : Fin 3) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 15 ∧ win0_7.index t (1 : Fin 3) ≤ 7 ∧ win0_7.index t (2 : Fin 3) = 0 :=
  (by decide +kernel : ∀ t : Fin grid0.N, _)

/-- Every block of the output array is some point's. -/
theorem idx_onto : ∀ (q0 : Fin 16) (q1 : Fin 8), ∃ t : Fin cfg0.N, win0_7.index t = ![q0.val, q1.val, 0] :=
  (by decide +kernel : ∀ (q0 : Fin 16) (q1 : Fin 8), ∃ t : Fin grid0.N, win0_7.index t = ![q0.val, q1.val, 0])

/-! ## Each window's block read at coordinates -/

/-- Window 0: row `p` of the block is row `r` of the array when `r` is the block row times 64 plus `p`. -/
theorem read_win0 (X : S1024x128.Idx → Elt F .f32) (t : Fin cfg0.N) (p : Fin 64) (h : Fin 128) (r : Fin 1024)
    (hr : r.val = win0_0.index t (0 : Fin 2) * 64 + p.val) (h1 : win0_0.index t (1 : Fin 2) = 0) :
    ((cfg0.win 0).blk t).view.read (Elt F) X (ix2 p h) = X (ix2 r h) := by
  show X (((cfg0.win 0).blk t).view.emb (ix2 p h)) = X (ix2 r h)
  refine congrArg X (funext fun a => Fin.ext ?_)
  match a with
  | ⟨0, _⟩ => show win0_0.index t (0 : Fin 2) * 64 + 1 * p.val = r.val; omega
  | ⟨1, _⟩ => show win0_0.index t (1 : Fin 2) * 128 + 1 * h.val = h.val; omega

/-- Window 1: row `q` of the block is row `r` of the array when `r` is the block row times 128 plus `q`. -/
theorem read_win1 (X : S1024x128.Idx → Elt F .f32) (t : Fin cfg0.N) (q : Fin 128) (h : Fin 128) (r : Fin 1024)
    (hr : r.val = win0_1.index t (0 : Fin 2) * 128 + q.val) (h1 : win0_1.index t (1 : Fin 2) = 0) :
    ((cfg0.win 1).blk t).view.read (Elt F) X (ix2 q h) = X (ix2 r h) := by
  show X (((cfg0.win 1).blk t).view.emb (ix2 q h)) = X (ix2 r h)
  refine congrArg X (funext fun a => Fin.ext ?_)
  match a with
  | ⟨0, _⟩ => show win0_1.index t (0 : Fin 2) * 128 + 1 * q.val = r.val; omega
  | ⟨1, _⟩ => show win0_1.index t (1 : Fin 2) * 128 + 1 * h.val = h.val; omega

/-- Window 2: as window 0, over the transposed `lv`. -/
theorem read_win2 (X : S1024x128.Idx → Elt F .f32) (t : Fin cfg0.N) (p : Fin 64) (h : Fin 128) (r : Fin 1024)
    (hr : r.val = win0_2.index t (0 : Fin 2) * 64 + p.val) (h1 : win0_2.index t (1 : Fin 2) = 0) :
    ((cfg0.win 2).blk t).view.read (Elt F) X (ix2 p h) = X (ix2 r h) := by
  show X (((cfg0.win 2).blk t).view.emb (ix2 p h)) = X (ix2 r h)
  refine congrArg X (funext fun a => Fin.ext ?_)
  match a with
  | ⟨0, _⟩ => show win0_2.index t (0 : Fin 2) * 64 + 1 * p.val = r.val; omega
  | ⟨1, _⟩ => show win0_2.index t (1 : Fin 2) * 128 + 1 * h.val = h.val; omega

/-- Window 3: as window 1, over the transposed `lv`. -/
theorem read_win3 (X : S1024x128.Idx → Elt F .f32) (t : Fin cfg0.N) (q : Fin 128) (h : Fin 128) (r : Fin 1024)
    (hr : r.val = win0_3.index t (0 : Fin 2) * 128 + q.val) (h1 : win0_3.index t (1 : Fin 2) = 0) :
    ((cfg0.win 3).blk t).view.read (Elt F) X (ix2 q h) = X (ix2 r h) := by
  show X (((cfg0.win 3).blk t).view.emb (ix2 q h)) = X (ix2 r h)
  refine congrArg X (funext fun a => Fin.ext ?_)
  match a with
  | ⟨0, _⟩ => show win0_3.index t (0 : Fin 2) * 128 + 1 * q.val = r.val; omega
  | ⟨1, _⟩ => show win0_3.index t (1 : Fin 2) * 128 + 1 * h.val = h.val; omega

/-- Window 4 (the hidden bias row, whole): the block is the array. -/
theorem read_win4 (X : S1x128.Idx → Elt F .f32) (t : Fin cfg0.N) (u : Fin 1) (h : Fin 128)
    (h0 : win0_4.index t (0 : Fin 2) = 0) (h1 : win0_4.index t (1 : Fin 2) = 0) :
    ((cfg0.win 4).blk t).view.read (Elt F) X (ix2 u h) = X (ix2 u h) := by
  show X (((cfg0.win 4).blk t).view.emb (ix2 u h)) = X (ix2 u h)
  refine congrArg X (funext fun a => Fin.ext ?_)
  match a with
  | ⟨0, _⟩ => show win0_4.index t (0 : Fin 2) * 1 + 1 * u.val = u.val; omega
  | ⟨1, _⟩ => show win0_4.index t (1 : Fin 2) * 128 + 1 * h.val = h.val; omega

/-- Window 5 (the second layer, whole): the block is the array. -/
theorem read_win5 (X : S128x3.Idx → Elt F .f32) (t : Fin cfg0.N) (h : Fin 128) (k : Fin 3)
    (h0 : win0_5.index t (0 : Fin 2) = 0) (h1 : win0_5.index t (1 : Fin 2) = 0) :
    ((cfg0.win 5).blk t).view.read (Elt F) X (ix2 h k) = X (ix2 h k) := by
  show X (((cfg0.win 5).blk t).view.emb (ix2 h k)) = X (ix2 h k)
  refine congrArg X (funext fun a => Fin.ext ?_)
  match a with
  | ⟨0, _⟩ => show win0_5.index t (0 : Fin 2) * 128 + 1 * h.val = h.val; omega
  | ⟨1, _⟩ => show win0_5.index t (1 : Fin 2) * 3 + 1 * k.val = k.val; omega

/-- Window 6 (the output bias row, whole): the block is the array. -/
theorem read_win6 (X : S1x3.Idx → Elt F .f32) (t : Fin cfg0.N) (u : Fin 1) (k : Fin 3)
    (h0 : win0_6.index t (0 : Fin 2) = 0) (h1 : win0_6.index t (1 : Fin 2) = 0) :
    ((cfg0.win 6).blk t).view.read (Elt F) X (ix2 u k) = X (ix2 u k) := by
  show X (((cfg0.win 6).blk t).view.emb (ix2 u k)) = X (ix2 u k)
  refine congrArg X (funext fun a => Fin.ext ?_)
  match a with
  | ⟨0, _⟩ => show win0_6.index t (0 : Fin 2) * 1 + 1 * u.val = u.val; omega
  | ⟨1, _⟩ => show win0_6.index t (1 : Fin 2) * 3 + 1 * k.val = k.val; omega

/-- The output window: element `(p, q, k)` of the block at point `t` is element `(r, s, k)` of the array, `r` the block
    row times 64 plus `p`, `s` the block column times 128 plus `q`. -/
theorem emb_win7 (t : Fin cfg0.N) (p : Fin 64) (q : Fin 128) (k : Fin 3) (r s : Fin 1024)
    (hr : r.val = win0_7.index t (0 : Fin 3) * 64 + p.val) (hs : s.val = win0_7.index t (1 : Fin 3) * 128 + q.val)
    (h2 : win0_7.index t (2 : Fin 3) = 0) :
    ((cfg0.win 7).blk t).view.emb (ix3 p q k) = ix3 r s k := by
  refine funext fun a => Fin.ext ?_
  match a with
  | ⟨0, _⟩ => show win0_7.index t (0 : Fin 3) * 64 + 1 * p.val = r.val; omega
  | ⟨1, _⟩ => show win0_7.index t (1 : Fin 3) * 128 + 1 * q.val = s.val; omega
  | ⟨2, _⟩ => show win0_7.index t (2 : Fin 3) * 3 + 1 * k.val = k.val; omega

/-! ## The output's blocks cover the array -/

/-- An index of the array is in point `t`'s block iff each coordinate is in the block's range on its axis. -/
theorem mem_blk7 (t : Fin cfg0.N) (i : S1024x1024x3.Idx) :
    i ∈ ((cfg0.win 7).blk t).view.set ↔ ∀ a : Fin 3, win0_7.index t a * S64x128x3.size a ≤ (i a).val
      ∧ (i a).val < win0_7.index t a * S64x128x3.size a + S64x128x3.size a := by
  show i ∈ ((View.whole main_v20).slice (win0_7.rect t)).set ↔ _
  rw [View.set_slice_whole, Rect.mem_set_unit]
  exact Iff.rfl

/-- Every index of the score array is in the block of the point at block row `i₀ / 64`, block column `i₁ / 128`. -/
theorem cover7 (i : S1024x1024x3.Idx) :
    ∃ t : Fin cfg0.N, (cfg0.win 7).flush t = true ∧ i ∈ ((cfg0.win 7).blk t).view.set := by
  have hi0 : (i 0).val < 1024 := (i 0).isLt
  have hi1 : (i 1).val < 1024 := (i 1).isLt
  have hi2 : (i 2).val < 3 := (i 2).isLt
  obtain ⟨t, ht⟩ := idx_onto ⟨(i 0).val / 64, by omega⟩ ⟨(i 1).val / 128, by omega⟩
  have q0 : win0_7.index t (0 : Fin 3) = (i 0).val / 64 := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 64 ≤ (i 0).val ∧ (i 0).val < win0_7.index t (0 : Fin 3) * 64 + 64; omega
  | ⟨1, _⟩ => show win0_7.index t (1 : Fin 3) * 128 ≤ (i 1).val ∧ (i 1).val < win0_7.index t (1 : Fin 3) * 128 + 128; omega
  | ⟨2, _⟩ => show win0_7.index t (2 : Fin 3) * 3 ≤ (i 2).val ∧ (i 2).val < win0_7.index t (2 : Fin 3) * 3 + 3; omega

end Cert.KernelIdeal.PairArray

end
-- ==== Proof.PairScores.lean ====
/-
  The all-pairs scores as ONE function of the six arrays, index by index, over the extended reals.

  For row indices `p`, `q` (below 1024) and a channel `k` (below 3):

    scores (p, q, k) = ( Σ_h max ((A (p, h) + B (q, h)) + b2 h, 0) · W (h, k) + bf k ) · ( Σ_b lv (b, p) · lv (b, q) )

  with `h` and `b` ranging below 128. The first factor is a two-layer perceptron's second layer on the pair's summed
  first-layer activations; the second factor is the inner product of columns `p` and `q` of `lv`. The association of
  the sums' summands and the order of the two factors are fixed here once, and both programs are read to exactly this
  expression. The zero is kept as the 32-bit word of `0.0`, which both programs also carry.
-/
import Idealize.ShloMosaic.PureOps.Ideal
import Idealize.ShloMosaic.Lib.ValueIdx

noncomputable section

open scoped BigOperators

namespace Cert.PairScores

open Idealize.ShloMosaic Idealize.ShloMosaic.ValueIdx

/-- The score of the pair `(p, q)` on channel `k`: the second layer applied to the rectified sum of the two first-layer
    rows and the bias, plus the output bias, times the inner product of columns `p` and `q` of `lv`. -/
def pairAt (A B : FVec Ideal ⟨2, ![1024, 128]⟩ .f32) (lv : FVec Ideal ⟨2, ![128, 1024]⟩ .f32)
    (b2 : FVec Ideal ⟨1, ![128]⟩ .f32) (W : FVec Ideal ⟨2, ![128, 3]⟩ .f32) (bf : FVec Ideal ⟨1, ![3]⟩ .f32)
    (p q : Fin 1024) (k : Fin 3) : EReal :=
  ((∑ h : Fin 128, max ((A (ix2 p h) + B (ix2 q h)) + b2 (ix1 h)) (Ideal.ofBits .f32 0x00000000#32) * W (ix2 h k))
      + bf (ix1 k))
    * (∑ b : Fin 128, lv (ix2 b p) * lv (ix2 b q))

/-- The whole `[1024, 1024, 3]` array of scores. -/
def pairScores (A B : FVec Ideal ⟨2, ![1024, 128]⟩ .f32) (lv : FVec Ideal ⟨2, ![128, 1024]⟩ .f32)
    (b2 : FVec Ideal ⟨1, ![128]⟩ .f32) (W : FVec Ideal ⟨2, ![128, 3]⟩ .f32) (bf : FVec Ideal ⟨1, ![3]⟩ .f32) :
    FVec Ideal ⟨3, ![1024, 1024, 3]⟩ .f32 :=
  fun i => pairAt A B lv b2 W bf (i 0) (i 1) (i 2)

/-- The array at `(p, q, k)` is the pair's score. -/
theorem pairScores_apply (A B : FVec Ideal ⟨2, ![1024, 128]⟩ .f32) (lv : FVec Ideal ⟨2, ![128, 1024]⟩ .f32)
    (b2 : FVec Ideal ⟨1, ![128]⟩ .f32) (W : FVec Ideal ⟨2, ![128, 3]⟩ .f32) (bf : FVec Ideal ⟨1, ![3]⟩ .f32)
    (p q : Fin 1024) (k : Fin 3) :
    pairScores A B lv b2 W bf (ix3 p q k) = pairAt A B lv b2 W bf p q k := rfl

end Cert.PairScores

end
-- ==== Proof.KernelLayout.lean ====
/-
  The kernel body's layout operations read at coordinates: each lemma says which ONE element of its operand a chain of
  shape casts and broadcasts reads at `(p, q, ·)`. The body works on a `[64, 128]` block of rows `p`, a `[128, 128]`
  block of rows `q` and rows `[1, ·]` of biases, lays them over a `[64, 128, ·]` block of pairs, and flattens the
  pairs to `8192 = 64 · 128` matrix rows and back: pair `(p, q)` is row `p · 128 + q`.
-/
import Idealize.ShloMosaic.Lib.Pipeline.Value
import Idealize.ShloMosaic.Lib.ValueIdx
import Idealize.ShloMosaic.Lib.ValueLayout

namespace Cert.KernelLayout

open Idealize.ShloMosaic Idealize.ShloMosaic.ValueIdx

variable {α : Type}

/-- Row `p·128 + q` of the flattened pairs. -/
def pairRow (p : Fin 64) (q : Fin 128) : Fin 8192 := ⟨p.val * 128 + q.val, by have := p.isLt; have := q.isLt; omega⟩

theorem pairRow_val (p : Fin 64) (q : Fin 128) : (pairRow p q).val = p.val * 128 + q.val := rfl

/-- A `[64, 128]` block cast to `[64, 1, 128]` and laid along the middle axis reads, at `(p, q, h)`, row `p` at `h`. -/
theorem rowsP_apply (x : (⟨2, ![64, 128]⟩ : Shape).Idx → α)
    (hc : (⟨2, ![64, 128]⟩ : Shape).ShapeCasts ⟨3, ![64, 1, 128]⟩)
    (hb : (⟨3, ![64, 1, 128]⟩ : Shape).Broadcasts ⟨3, ![64, 128, 128]⟩) (p : Fin 64) (q h : Fin 128) :
    broadcastTo ⟨3, ![64, 128, 128]⟩ (shapeCast ⟨3, ![64, 1, 128]⟩ x hc) hb (ix3 p q h) = x (ix2 p h) := by
  refine (broadcastTo_apply _ hb (ix3 p q h) (ix3 p (0 : Fin 1) h) fun a => ?_).trans ?_
  · match a with
    | ⟨0, _⟩ => rfl
    | ⟨1, _⟩ => rfl
    | ⟨2, _⟩ => rfl
  · refine shapeCast_apply x hc _ _ ?_
    rw [Shape.rowMajor_val_three, Shape.rowMajor_val_two]
    show p.val * 128 + h.val = (p.val * 1 + 0) * 128 + h.val
    omega

/-- A `[128, 128]` block cast to `[1, 128, 128]` and laid along the first axis reads, at `(p, q, h)`, row `q` at `h`. -/
theorem rowsQ_apply (x : (⟨2, ![128, 128]⟩ : Shape).Idx → α)
    (hc : (⟨2, ![128, 128]⟩ : Shape).ShapeCasts ⟨3, ![1, 128, 128]⟩)
    (hb : (⟨3, ![1, 128, 128]⟩ : Shape).Broadcasts ⟨3, ![64, 128, 128]⟩) (p : Fin 64) (q h : Fin 128) :
    broadcastTo ⟨3, ![64, 128, 128]⟩ (shapeCast ⟨3, ![1, 128, 128]⟩ x hc) hb (ix3 p q h) = x (ix2 q h) := by
  refine (broadcastTo_apply _ hb (ix3 p q h) (ix3 (0 : Fin 1) q h) fun a => ?_).trans ?_
  · match a with
    | ⟨0, _⟩ => rfl
    | ⟨1, _⟩ => rfl
    | ⟨2, _⟩ => rfl
  · exact shapeCast_ab_1ab_apply x hc 0 q h

/-- A `[1, 128]` row cast to `[1, 1, 128]` and laid over all pairs reads, at `(p, q, h)`, the row at `h`. -/
theorem rowAll_apply (x : (⟨2, ![1, 128]⟩ : Shape).Idx → α)
    (hc : (⟨2, ![1, 128]⟩ : Shape).ShapeCasts ⟨3, ![1, 1, 128]⟩)
    (hb : (⟨3, ![1, 1, 128]⟩ : Shape).Broadcasts ⟨3, ![64, 128, 128]⟩) (p : Fin 64) (q h : Fin 128) :
    broadcastTo ⟨3, ![64, 128, 128]⟩ (shapeCast ⟨3, ![1, 1, 128]⟩ x hc) hb (ix3 p q h) = x (ix2 (0 : Fin 1) h) := by
  refine (broadcastTo_apply _ hb (ix3 p q h) (ix3 (0 : Fin 1) (0 : Fin 1) h) fun a => ?_).trans ?_
  · match a with
    | ⟨0, _⟩ => rfl
    | ⟨1, _⟩ => rfl
    | ⟨2, _⟩ => rfl
  · exact shapeCast_ab_1ab_apply x hc 0 0 h

/-- The pairs flattened to matrix rows: row `p·128 + q` at `h` is the pair `(p, q)` at `h`. -/
theorem flatten_apply (x : (⟨3, ![64, 128, 128]⟩ : Shape).Idx → α)
    (hc : (⟨3, ![64, 128, 128]⟩ : Shape).ShapeCasts ⟨2, ![8192, 128]⟩) (p : Fin 64) (q h : Fin 128) :
    shapeCast ⟨2, ![8192, 128]⟩ x hc (ix2 (pairRow p q) h) = x (ix3 p q h) := by
  refine shapeCast_apply x hc _ _ ?_
  rw [Shape.rowMajor_val_three, Shape.rowMajor_val_two]
  show (p.val * 128 + q.val) * 128 + h.val = (p.val * 128 + q.val) * 128 + h.val
  rfl

/-- The matrix rows folded back to pairs: the pair `(p, q)` at `k` is row `p·128 + q` at `k`. -/
theorem unflatten_apply (x : (⟨2, ![8192, 3]⟩ : Shape).Idx → α)
    (hc : (⟨2, ![8192, 3]⟩ : Shape).ShapeCasts ⟨3, ![64, 128, 3]⟩) (p : Fin 64) (q : Fin 128) (k : Fin 3) :
    shapeCast ⟨3, ![64, 128, 3]⟩ x hc (ix3 p q k) = x (ix2 (pairRow p q) k) := by
  refine shapeCast_apply x hc _ _ ?_
  rw [Shape.rowMajor_val_three, Shape.rowMajor_val_two]
  show (p.val * 128 + q.val) * 3 + k.val = (p.val * 128 + q.val) * 3 + k.val
  rfl

/-- A `[1, 3]` row cast to `[3]`, then to `[1, 1, 3]`, and laid over all pairs reads, at `(p, q, k)`, the row at `k`. -/
theorem biasAll_apply (x : (⟨2, ![1, 3]⟩ : Shape).Idx → α)
    (h1 : (⟨2, ![1, 3]⟩ : Shape).ShapeCasts ⟨1, ![3]⟩) (h2 : (⟨1, ![3]⟩ : Shape).ShapeCasts ⟨3, ![1, 1, 3]⟩)
    (hb : (⟨3, ![1, 1, 3]⟩ : Shape).Broadcasts ⟨3, ![64, 128, 3]⟩) (p : Fin 64) (q : Fin 128) (k : Fin 3) :
    broadcastTo ⟨3, ![64, 128, 3]⟩ (shapeCast ⟨3, ![1, 1, 3]⟩ (shapeCast ⟨1, ![3]⟩ x h1) h2) hb (ix3 p q k)
      = x (ix2 (0 : Fin 1) k) := by
  refine (broadcastTo_apply _ hb (ix3 p q k) (ix3 (0 : Fin 1) (0 : Fin 1) k) fun a => ?_).trans ?_
  · match a with
    | ⟨0, _⟩ => rfl
    | ⟨1, _⟩ => rfl
    | ⟨2, _⟩ => rfl
  · refine (shapeCast_apply (shapeCast ⟨1, ![3]⟩ x h1) h2 _ (ix1 k) ?_).trans (shapeCast_1a_a_apply x h1 k)
    rw [Shape.rowMajor_val_three, Shape.rowMajor_val_one]
    show k.val = (0 * 1 + 0) * 3 + k.val
    omega

/-- A `[64, 128]` array of pairs given a unit last axis and laid along three channels reads, at `(p, q, k)`, the pair. -/
theorem channels_apply (x : (⟨2, ![64, 128]⟩ : Shape).Idx → α)
    (hc : (⟨2, ![64, 128]⟩ : Shape).ShapeCasts ⟨3, ![64, 128, 1]⟩)
    (hb : (⟨3, ![64, 128, 1]⟩ : Shape).Broadcasts ⟨3, ![64, 128, 3]⟩) (p : Fin 64) (q : Fin 128) (k : Fin 3) :
    broadcastTo ⟨3, ![64, 128, 3]⟩ (shapeCast ⟨3, ![64, 128, 1]⟩ x hc) hb (ix3 p q k) = x (ix2 p q) := by
  refine (broadcastTo_apply _ hb (ix3 p q k) (ix3 p q (0 : Fin 1)) fun a => ?_).trans ?_
  · match a with
    | ⟨0, _⟩ => rfl
    | ⟨1, _⟩ => rfl
    | ⟨2, _⟩ => rfl
  · refine shapeCast_apply x hc _ _ ?_
    rw [Shape.rowMajor_val_three, Shape.rowMajor_val_two]
    show p.val * 128 + q.val = (p.val * 128 + q.val) * 1 + 0
    omega

end Cert.KernelLayout
-- ==== Proof.Contractions.lean ====
/-
  Matrix products read at an index, at the ideal values (exact extended reals).

  * A rows-by-columns product `[m, k] × [k, n]` — a kernel's matrix-unit product into the zero accumulator, or the
    host's product — read at `(a, b)` is `Σ_c lhs (a, c) · rhs (c, b)`. The dimension numbers may be any record equal to
    the plain one (contract the left operand's axis 1 with the right operand's axis 0).
  * The host's product of a `[m, n, h]` array with a `[h, c]` matrix over the array's LAST axis, read at `(p, q, k)`,
    is `Σ_t X (p, q, t) · W (t, k)`.
-/
import Idealize.ShloMosaic.Lib.StackMember
import Idealize.ShloMosaic.Lib.KernelVsHost

open scoped BigOperators

namespace Cert.Contractions

open Idealize.ShloMosaic Idealize.ShloMosaic.ValueIdx

/-- The host's rows-by-columns product at `(a, b)`. -/
theorem hostPlain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's rows-by-columns product into the zero accumulator at `(a, b)`: the zero adds nothing. -/
theorem matmulPlainZero_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact hostPlain_apply D hD prec A B a b

/-- The host's product over the LAST axis of a rank-3 array with a matrix, at `(p, q, k)`. -/
theorem hostLastAxis_apply {m n h c : Nat} {φ₁ φ₂ : FTy}
    (w : DotDims.WF ⟨3, ![m, n, h]⟩ ⟨2, ![h, c]⟩ ⟨3, ![m, n, c]⟩ [2] [0] [0, 1] [1] [] [])
    (prec : Option ContractPrecision) (X : FVec Ideal ⟨3, ![m, n, h]⟩ φ₁) (W : FVec Ideal ⟨2, ![h, c]⟩ φ₂)
    (p : Fin m) (q : Fin n) (k : Fin c) :
    Host.dotGeneral (⟨[2], [0], [0, 1], [1], [], [], w⟩ : DotDims _ _ _) prec X W (ix3 p q k)
      = ∑ t : Fin h, X (ix3 p q t) * W (ix2 t k) := by
  show FloatOps.dotGeneral _ prec _ X W (ix3 p q k) = _
  rw [Ideal.dotGeneral_apply,
    ← Equiv.sum_comp (contrEquiv1 (⟨[2], [0], [0, 1], [1], [], [], w⟩ : DotDims _ _ _) h rfl rfl).symm]
  refine Finset.sum_congr rfl fun t _ => ?_
  have c3 := contrEquiv1_symm_val
    (⟨[2], [0], [0, 1], [1], [], [], w⟩ : DotDims ⟨3, ![m, n, h]⟩ ⟨2, ![h, c]⟩ ⟨3, ![m, n, c]⟩) h rfl rfl t
  have l3 : (⟨[2], [0], [0, 1], [1], [], [], w⟩ : DotDims ⟨3, ![m, n, h]⟩ ⟨2, ![h, c]⟩ ⟨3, ![m, n, c]⟩).lhsIdx (ix3 p q k)
      ((contrEquiv1 _ h rfl rfl).symm t) = ix3 p q t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![m, n, h]⟩ ⟨2, ![h, c]⟩ ⟨3, ![m, n, c]⟩).rhsIdx (ix3 p q k)
      ((contrEquiv1 _ h rfl rfl).symm t) = ix2 t k := by
    funext ax; apply Fin.ext
    match ax with
    | ⟨0, _⟩ => simp [DotDims.rhsIdx]; exact c3
    | ⟨1, _⟩ => simp [DotDims.rhsIdx]; rfl
  rw [l3, r3]

end Cert.Contractions
-- ==== Proof.KernelScores.lean ====
/-
  The kernel body's stored block, read at one pair and channel, and its place in the all-pairs scores.

  From a `[64, 128]` block `v0` of first-layer rows, a `[128, 128]` block `v2`, the hidden bias row `v4`, the second
  layer `v18`, its bias row `v21`, and two row blocks `v28`, `v31` of the transposed `lv`, the body computes at
  `(p, q, k)`

    ( Σ_h max ((v0 (p, h) + v2 (q, h)) + v4 (0, h), 0) · v18 (h, k) + v21 (0, k) ) · ( Σ_b v28 (p, b) · v31 (q, b) ).

  The first sum is the matrix-unit product of the `8192 × 128` matrix of flattened pairs with `v18`; the second is the
  product of `v28` with the transpose of `v31`. Changes of float format are the identity on extended reals.
  When the blocks are rows `P p` and `Q q` of whole arrays, this is the all-pairs score at `(P p, Q q, k)`.
-/
import proofs.«101599_j23914377904744_1_alg».proof.Proof.Gen.KernelIdeal.Skeleton
import proofs.«101599_j23914377904744_1_alg».proof.Proof.PairScores
import proofs.«101599_j23914377904744_1_alg».proof.Proof.KernelLayout
import proofs.«101599_j23914377904744_1_alg».proof.Proof.Contractions

open scoped BigOperators

namespace Cert.KernelScores

open Idealize.ShloMosaic Idealize.ShloMosaic.ValueIdx Cert.KernelLayout Cert.Contractions

/-- The body's block at `(p, q, k)`. -/
theorem k0_pay1_apply (v0 : FVec Ideal ⟨2, ![64, 128]⟩ .f32) (v2 : FVec Ideal ⟨2, ![128, 128]⟩ .f32)
    (v4 : FVec Ideal ⟨2, ![1, 128]⟩ .f32) (v18 : FVec Ideal ⟨2, ![128, 3]⟩ .f32) (v21 : FVec Ideal ⟨2, ![1, 3]⟩ .f32)
    (v28 : FVec Ideal ⟨2, ![64, 128]⟩ .f32) (v31 : FVec Ideal ⟨2, ![128, 128]⟩ .f32)
    (p : Fin 64) (q : Fin 128) (k : Fin 3) :
    Cert.KernelIdeal.Gen.k0_pay1 (F := Ideal) v0 v2 v4 v18 v21 v28 v31 (ix3 p q k)
      = ((∑ h : Fin 128, max ((v0 (ix2 p h) + v2 (ix2 q h)) + v4 (ix2 (0 : Fin 1) h)) (Ideal.ofBits .f32 0x00000000#32)
              * v18 (ix2 h k))
          + v21 (ix2 (0 : Fin 1) k))
        * (∑ b : Fin 128, v28 (ix2 p b) * v31 (ix2 q b)) := by
  unfold Cert.KernelIdeal.Gen.k0_pay1
  refine (mulf_apply _ _ _).trans (congrArg₂ (· * ·) ?_ ?_)
  · refine (addf_apply _ _ _).trans (congrArg₂ (· + ·) ?_ ?_)
    · refine (unflatten_apply _ _ p q k).trans ?_
      refine (matmulPlainZero_apply Cert.KernelIdeal.dot_S8192x128_S128x3_S8192x3_1_0_0_1_n_n rfl none _ _ (pairRow p q) k).trans ?_
      refine Finset.sum_congr rfl fun h _ => ?_
      refine congrArg₂ (· * ·) ?_ rfl
      refine (flatten_apply _ _ p q h).trans ?_
      refine (truncf_apply (φ := .f32) (ψ := .bf16) _ Cert.KernelIdeal.Gen.bitsLt_bf16_f32 _).trans ?_
      refine (maximumf_apply _ _ _).trans (congrArg₂ max ?_ rfl)
      refine (addf_apply _ _ _).trans (congrArg₂ (· + ·) ?_ ?_)
      · refine (addf_apply _ _ _).trans (congrArg₂ (· + ·) ?_ ?_)
        · refine (rowsP_apply _ _ _ p q h).trans ?_
          rw [shapeCast_self]
        · refine (rowsQ_apply _ _ _ p q h).trans ?_
          rw [shapeCast_self]
      · refine (rowAll_apply _ _ _ p q h).trans ?_
        rw [shapeCast_self]
    · refine (biasAll_apply _ _ _ _ p q k).trans ?_
      rw [shapeCast_self]
  · refine (channels_apply _ _ _ p q k).trans ?_
    refine (matmulPlainZero_apply Cert.KernelIdeal.dot_S64x128_S128x128_S64x128_1_0_0_1_n_n rfl none _ _ p q).trans ?_
    refine Finset.sum_congr rfl fun b _ => ?_
    refine congrArg₂ (· * ·) ?_ ?_
    · refine (truncf_apply (φ := .f32) (ψ := .bf16) _ Cert.KernelIdeal.Gen.bitsLt_bf16_f32 _).trans ?_
      rw [shapeCast_self]
    · refine (transpose_ix2_apply _ _ b q).trans ?_
      refine (truncf_apply (φ := .f32) (ψ := .bf16) _ Cert.KernelIdeal.Gen.bitsLt_bf16_f32 _).trans ?_
      rw [shapeCast_self]

/-- When the body's blocks are rows `P p` of `A` and of `lv` transposed, rows `Q q` of `B` and of `lv` transposed, the two
    bias rows and the second layer, the stored block at `(p, q, k)` is the all-pairs score at `(P p, Q q, k)`. -/
theorem k0_pay1_eq_pairScores (A B : FVec Ideal ⟨2, ![1024, 128]⟩ .f32) (lv : FVec Ideal ⟨2, ![128, 1024]⟩ .f32)
    (b2 : FVec Ideal ⟨1, ![128]⟩ .f32) (W : FVec Ideal ⟨2, ![128, 3]⟩ .f32) (bf : FVec Ideal ⟨1, ![3]⟩ .f32)
    (v0 : FVec Ideal ⟨2, ![64, 128]⟩ .f32) (v2 : FVec Ideal ⟨2, ![128, 128]⟩ .f32)
    (v4 : FVec Ideal ⟨2, ![1, 128]⟩ .f32) (v18 : FVec Ideal ⟨2, ![128, 3]⟩ .f32) (v21 : FVec Ideal ⟨2, ![1, 3]⟩ .f32)
    (v28 : FVec Ideal ⟨2, ![64, 128]⟩ .f32) (v31 : FVec Ideal ⟨2, ![128, 128]⟩ .f32)
    (P : Fin 64 → Fin 1024) (Q : Fin 128 → Fin 1024)
    (h0 : ∀ p h, v0 (ix2 p h) = A (ix2 (P p) h)) (h2 : ∀ q h, v2 (ix2 q h) = B (ix2 (Q q) h))
    (h4 : ∀ h, v4 (ix2 (0 : Fin 1) h) = b2 (ix1 h)) (h18 : ∀ h k, v18 (ix2 h k) = W (ix2 h k))
    (h21 : ∀ k, v21 (ix2 (0 : Fin 1) k) = bf (ix1 k))
    (h28 : ∀ p b, v28 (ix2 p b) = lv (ix2 b (P p))) (h31 : ∀ q b, v31 (ix2 q b) = lv (ix2 b (Q q)))
    (p : Fin 64) (q : Fin 128) (k : Fin 3) :
    Cert.KernelIdeal.Gen.k0_pay1 (F := Ideal) v0 v2 v4 v18 v21 v28 v31 (ix3 p q k)
      = Cert.PairScores.pairScores A B lv b2 W bf (ix3 (P p) (Q q) k) := by
  rw [k0_pay1_apply, Cert.PairScores.pairScores_apply]
  unfold Cert.PairScores.pairAt
  refine congrArg₂ (· * ·) (congrArg₂ (· + ·) ?_ (h21 k)) ?_
  · exact Finset.sum_congr rfl fun h _ => by rw [h0 p h, h2 q h, h4 h, h18 h k]
  · exact Finset.sum_congr rfl fun b _ => by rw [h28 p b, h31 q b]

end Cert.KernelScores
-- ==== Proof.PairArray.lean ====
/-
  From blocks to the array: after the pipelined region the `[1024, 1024, 3]` score array holds the all-pairs scores.

  At grid point (i, j) the body stores over its whole output buffer the score block of its seven input blocks; the
  block's element `(p, q, k)` is the all-pairs score at `(64·i + p, 128·j + q, k)` of the arrays the blocks are cut
  from — the two first-layer projections as the region finds them, and `lv`, the hidden bias, the second layer and its
  bias as launched (the host lines before the region only transpose `lv` and lay the two biases out as rows). That
  element is where the pipeline writes it back, and the 16 × 8 blocks cover the array.
-/
import proofs.«101599_j23914377904744_1_alg».proof.Proof.PairBlocks
import proofs.«101599_j23914377904744_1_alg».proof.Proof.KernelScores
import Idealize.ShloMosaic.Lib.ValueLayout

set_option maxRecDepth 16384

noncomputable section

namespace Cert.KernelIdeal.PairArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pair

variable (m : (ℓ : Loc nD τ sig) → Buf (Elt Ideal) ℓ)

/-- The all-pairs scores of the arrays the region reads: the two projections as the region finds them, the rest as
    launched. -/
abbrev scores (c : Dev nD) : S1024x1024x3.Idx → EReal :=
  Cert.PairScores.pairScores (V m c main_v14) (V m c main_v16) (m ((c : Thread nD τ).loc main_arg1))
    (m ((c : Thread nD τ).loc main_arg8)) (m ((c : Thread nD τ).loc main_arg9)) (m ((c : Thread nD τ).loc main_arg10))

/-- WHAT POINT `t` WRITES BACK is block `t` of the all-pairs scores. -/
theorem flushed7_eq (c : Dev nD) (t : Fin cfg0.N) :
    (dats m 0 c).flushed 7 t = ((cfg0.win 7).blk t).view.read (Elt Ideal) (scores m c) := by
  show (cfg0.win 7).cut (grid0.coords t) ((dats m 0 c).after 7 t) = _
  rw [after7]
  unfold scoreBlock
  rw [View.canon_unit_zero zeros3]
  simp only [View.ld_unit_zero (S := S64x128) zeros2, View.ld_unit_zero (S := S128x128) zeros2,
    View.ld_unit_zero (S := S1x128) zeros2, View.ld_unit_zero (S := S128x3) zeros2, View.ld_unit_zero (S := S1x3) zeros2]
  obtain ⟨e00, e01, e10, e11, e20, e21, e30, e31, e40, e41, e50, e51, e60, e61, b0, b1, e72⟩ := idx_facts t
  funext j
  obtain ⟨p, q, k, rfl⟩ : ∃ (p : Fin 64) (q : Fin 128) (k : Fin 3), j = ix3 p q k := ⟨j 0, j 1, j 2, eq_ix3 j⟩
  -- the rows of the whole arrays under row `p` and row `q` of the blocks
  let P : Fin 64 → Fin 1024 := fun p => ⟨win0_7.index t (0 : Fin 3) * 64 + p.val, by have := p.isLt; omega⟩
  let Q : Fin 128 → Fin 1024 := fun q => ⟨win0_7.index t (1 : Fin 3) * 128 + q.val, by have := q.isLt; omega⟩
  show Cert.KernelIdeal.Gen.k0_pay1 (F := Ideal) (iblk m c 0 t) (iblk m c 1 t) (iblk m c 4 t) (iblk m c 5 t) (iblk m c 6 t)
      (iblk m c 2 t) (iblk m c 3 t) (ix3 p q k) = scores m c (((cfg0.win 7).blk t).view.emb (ix3 p q k))
  rw [emb_win7 t p q k (P p) (Q q) rfl rfl e72]
  refine Cert.KernelScores.k0_pay1_eq_pairScores (V m c main_v14) (V m c main_v16) (m ((c : Thread nD τ).loc main_arg1))
    (m ((c : Thread nD τ).loc main_arg8)) (m ((c : Thread nD τ).loc main_arg9)) (m ((c : Thread nD τ).loc main_arg10))
    (iblk m c 0 t) (iblk m c 1 t) (iblk m c 4 t) (iblk m c 5 t) (iblk m c 6 t) (iblk m c 2 t) (iblk m c 3 t) P Q
    ?_ ?_ ?_ ?_ ?_ ?_ ?_ p q k
  · intro p h
    exact read_win0 (V m c main_v14) t p h (P p)
      (by show win0_7.index t (0 : Fin 3) * 64 + p.val = win0_0.index t (0 : Fin 2) * 64 + p.val; omega) e01
  · intro q h
    exact read_win1 (V m c main_v16) t q h (Q q)
      (by show win0_7.index t (1 : Fin 3) * 128 + q.val = win0_1.index t (0 : Fin 2) * 128 + q.val; omega) e11
  · intro h
    refine (read_win4 (V m c main_v18) t 0 h e40 e41).trans ((congrFun (V_main_v18 m c) (ix2 (0 : Fin 1) h)).trans ?_)
    exact shapeCast_a_1a_apply _ _ 0 h
  · intro h k
    exact (read_win5 (V m c main_arg9) t h k e50 e51).trans (congrFun (V_main_arg9 m c) (ix2 h k))
  · intro k
    refine (read_win6 (V m c main_v19) t 0 k e60 e61).trans ((congrFun (V_main_v19 m c) (ix2 (0 : Fin 1) k)).trans ?_)
    exact shapeCast_a_1a_apply _ _ 0 k
  · intro p b
    refine (read_win2 (V m c main_v17) t p b (P p)
      (by show win0_7.index t (0 : Fin 3) * 64 + p.val = win0_2.index t (0 : Fin 2) * 64 + p.val; omega) e21).trans
      ((congrFun (V_main_v17 m c) (ix2 (P p) b)).trans ?_)
    exact transpose_ix2_apply _ _ (P p) b
  · intro q b
    refine (read_win3 (V m c main_v17) t q b (Q q)
      (by show win0_7.index t (1 : Fin 3) * 128 + q.val = win0_3.index t (0 : Fin 2) * 128 + q.val; omega) e31).trans
      ((congrFun (V_main_v17 m c) (ix2 (Q q) b)).trans ?_)
    exact transpose_ix2_apply _ _ (Q q) b

/-- THE SCORE ARRAY after the region: the all-pairs scores. -/
theorem scores_final (c : Dev nD) :
    ((dats m 0 c).arrAt 7 cfg0.N : S1024x1024x3.Idx → EReal)
      = Cert.PairScores.pairScores (V m c main_v14) (V m c main_v16) (m ((c : Thread nD τ).loc main_arg1))
          (m ((c : Thread nD τ).loc main_arg8)) (m ((c : Thread nD τ).loc main_arg9)) (m ((c : Thread nD τ).loc main_arg10)) :=
  (dats m 0 c).arrAt_eq_of_cover 7 (scores m c) (fun t _ => flushed7_eq m c t) cover7

end Cert.KernelIdeal.PairArray

end
-- ==== Proof.PairPrefix.lean ====
/-
  What the host lines before the pipelined region leave in the three arrays the rest of the program reads from them:
  the two first-layer projections of the rectified node features (`relu x · W[0:128]` and `relu x · W[128:256]`) and
  the per-graph readout (node features summed per graph, a two-layer perceptron on the sums). Each is the composed term
  of the host operations that compute it, over the launch contents of the argument arrays; no line before the region
  writes an argument array.
-/
import proofs.«101599_j23914377904744_1_alg».proof.Proof.PairHost

set_option maxRecDepth 16384

noncomputable section

namespace Cert.KernelIdeal.PairArray

open Idealize.ShloMosaic Idealize.ShloMosaic.TcCoe Idealize.SL.Sem
open Cert.KernelIdeal Cert.KernelIdeal.Gen Cert.KernelIdeal.Pair

variable {F : FTy → Type} [FloatOps F]

/-- The rectified node features. -/
def preRelu (a0 : FVec F S1024x128 .f32) : FVec F S1024x128 .f32 :=
  maximumf a0 (broadcastInDim S1024x128 ![] bcast_S_S1024x128 (constant S_ .f32 0x00000000#32))

/-- The first projection: the rectified features times the upper half of the `[256, 128]` first-layer matrix. -/
def preA (a0 : FVec F S1024x128 .f32) (a7 : FVec F S256x128 .f32) : FVec F S1024x128 .f32 :=
  Host.dotGeneral dot_S1024x128_S128x128_S1024x128_1_0_0_1_n_n none (preRelu a0)
    (extractStridedSlice S128x128 ![0, 0] a7 slices_S256x128_S128x128_0_0)

/-- The second projection: the rectified features times the lower half. -/
def preB (a0 : FVec F S1024x128 .f32) (a7 : FVec F S256x128 .f32) : FVec F S1024x128 .f32 :=
  Host.dotGeneral dot_S1024x128_S128x128_S1024x128_1_0_0_1_n_n none (preRelu a0)
    (extractStridedSlice S128x128 ![128, 0] a7 slices_S256x128_S128x128_128_0)

/-- The per-graph readout: the node features scatter-added per graph, then a rectified layer and a linear layer. -/
def preReadout (a0 : FVec F S1024x128 .f32) (a3 : FVec F S128x64 .f32) (a4 : FVec F S64 .f32) (a5 : FVec F S64x1 .f32)
    (a6 : FVec F S1 .f32) (a12 : IVec S1024 32) : FVec F S128x1 .f32 :=
  addf
    (Host.dotGeneral dot_S128x64_S64x1_S128x1_1_0_0_1_n_n none
      (maximumf
        (addf
          (Host.dotGeneral dot_S128x128_S128x64_S128x64_1_0_0_1_n_n none
            (Host.scatterAdd scatter_S128x128_S1024x1_S1024x128_1_0_0_1
              (broadcastInDim S128x128 ![] bcast_S_S128x128 (constant S_ .f32 0x00000000#32))
              (broadcastInDim S1024x1 ![0] bcast_S1024_S1024x1_0 a12) a0)
            a3)
          (broadcastInDim S128x64 ![0, 1] bcast_S1x64_S128x64_0_1 (broadcastInDim S1x64 ![1] bcast_S64_S1x64_1 a4)))
        (broadcastInDim S128x64 ![] bcast_S_S128x64 (constant S_ .f32 0x00000000#32)))
      a5)
    (broadcastInDim S128x1 ![0, 1] bcast_S1x1_S128x1_0_1 (broadcastInDim S1x1 ![1] bcast_S1_S1x1_1 a6))

variable (m : (ℓ : Loc nD τ sig) → Buf (Elt F) ℓ)

/-- The first projection as the region finds it. -/
theorem V_main_v14 (c : Dev nD) :
    (V m c main_v14 : S1024x128.Idx → Elt F .f32)
      = preA (m ((c : Thread nD τ).loc main_arg0)) (m ((c : Thread nD τ).loc main_arg7)) := by
  dsimp only [V, V0]
  simp only [hostOps0, hostOps0_1, hostOps0_2, hostOps0_3, hostOps0_4, List.flatten_cons, List.flatten_nil, List.append_nil,
    List.cons_append, List.nil_append]
  after_results
  rfl

/-- The second projection as the region finds it. -/
theorem V_main_v16 (c : Dev nD) :
    (V m c main_v16 : S1024x128.Idx → Elt F .f32)
      = preB (m ((c : Thread nD τ).loc main_arg0)) (m ((c : Thread nD τ).loc main_arg7)) := by
  dsimp only [V, V0]
  simp only [hostOps0, hostOps0_1, hostOps0_2, hostOps0_3, hostOps0_4, List.flatten_cons, List.flatten_nil, List.append_nil,
    List.cons_append, List.nil_append]
  after_results
  rfl

/-- The readout as the region finds it. -/
theorem V_main_v11 (c : Dev nD) :
    (V m c main_v11 : S128x1.Idx → Elt F .f32)
      = preReadout (m ((c : Thread nD τ).loc main_arg0)) (m ((c : Thread nD τ).loc main_arg3))
          (m ((c : Thread nD τ).loc main_arg4)) (m ((c : Thread nD τ).loc main_arg5))
          (m ((c : Thread nD τ).loc main_arg6)) (m ((c : Thread nD τ).loc main_arg12)) := by
  dsimp only [V, V0]
  simp only [hostOps0, hostOps0_1, hostOps0_2, hostOps0_3, hostOps0_4, List.flatten_cons, List.flatten_nil, List.append_nil,
    List.cons_append, List.nil_append]
  after_results
  rfl

end Cert.KernelIdeal.PairArray

end
-- ==== Proof.PrefixAgree.lean ====
/-
  The two programs compute the first-layer projections and the readout by the same host operations: each program
  states its own copy of every dimension record (the same literal lists over the same literal shapes), so the composed
  terms of the two programs are one term. Here the reference's spelling of the three terms, and the agreement.
-/
import proofs.«101599_j23914377904744_1_alg».proof.Proof.PairPrefix
import proofs.«101599_j23914377904744_1_alg».proof.ReferenceIdeal

noncomputable section

namespace Cert.PrefixAgree

open Idealize.ShloMosaic

variable {F : FTy → Type} [FloatOps F] [Cert.ReferenceIdeal.Facts₀]

section ReferenceSpelling

open Cert.ReferenceIdeal Cert.ReferenceIdeal.Facts₀

/-- The rectified node features, in the reference's records. -/
def refRelu (a0 : FVec F S1024x128 .f32) : FVec F S1024x128 .f32 :=
  maximumf a0 (broadcastInDim S1024x128 ![] bcast_S_S1024x128 (constant S_ .f32 0x00000000#32))

/-- The first projection, in the reference's records. -/
def refA (a0 : FVec F S1024x128 .f32) (a7 : FVec F S256x128 .f32) : FVec F S1024x128 .f32 :=
  Host.dotGeneral dot_S1024x128_S128x128_S1024x128_1_0_0_1_n_n none (refRelu a0)
    (extractStridedSlice S128x128 ![0, 0] a7 slices_S256x128_S128x128_0_0)

/-- The second projection, in the reference's records. -/
def refB (a0 : FVec F S1024x128 .f32) (a7 : FVec F S256x128 .f32) : FVec F S1024x128 .f32 :=
  Host.dotGeneral dot_S1024x128_S128x128_S1024x128_1_0_0_1_n_n none (refRelu a0)
    (extractStridedSlice S128x128 ![128, 0] a7 slices_S256x128_S128x128_128_0)

/-- The per-graph readout, in the reference's records. -/
def refReadout (a0 : FVec F S1024x128 .f32) (a3 : FVec F S128x64 .f32) (a4 : FVec F S64 .f32) (a5 : FVec F S64x1 .f32)
    (a6 : FVec F S1 .f32) (a12 : IVec S1024 32) : FVec F S128x1 .f32 :=
  addf
    (Host.dotGeneral dot_S128x64_S64x1_S128x1_1_0_0_1_n_n none
      (maximumf
        (addf
          (Host.dotGeneral dot_S128x128_S128x64_S128x64_1_0_0_1_n_n none
            (Host.scatterAdd scatter_S128x128_S1024x1_S1024x128_1_0_0_1
              (broadcastInDim S128x128 ![] bcast_S_S128x128 (constant S_ .f32 0x00000000#32))
              (broadcastInDim S1024x1 ![0] bcast_S1024_S1024x1_0 a12) a0)
            a3)
          (broadcastInDim S128x64 ![0, 1] bcast_S1x64_S128x64_0_1 (broadcastInDim S1x64 ![1] bcast_S64_S1x64_1 a4)))
        (broadcastInDim S128x64 ![] bcast_S_S128x64 (constant S_ .f32 0x00000000#32)))
      a5)
    (broadcastInDim S128x1 ![0, 1] bcast_S1x1_S128x1_0_1 (broadcastInDim S1x1 ![1] bcast_S1_S1x1_1 a6))

end ReferenceSpelling

open Cert.KernelIdeal.PairArray

/-- The kernel program's first projection is the reference's. -/
theorem preA_eq_refA (a0 : FVec F ⟨2, ![1024, 128]⟩ .f32) (a7 : FVec F ⟨2, ![256, 128]⟩ .f32) :
    preA a0 a7 = refA a0 a7 := rfl

/-- The kernel program's second projection is the reference's. -/
theorem preB_eq_refB (a0 : FVec F ⟨2, ![1024, 128]⟩ .f32) (a7 : FVec F ⟨2, ![256, 128]⟩ .f32) :
    preB a0 a7 = refB a0 a7 := rfl

/-- The kernel program's readout is the reference's. -/
theorem preReadout_eq_refReadout (a0 : FVec F ⟨2, ![1024, 128]⟩ .f32) (a3 : FVec F ⟨2, ![128, 64]⟩ .f32)
    (a4 : FVec F ⟨1, ![64]⟩ .f32) (a5 : FVec F ⟨2, ![64, 1]⟩ .f32) (a6 : FVec F ⟨1, ![1]⟩ .f32)
    (a12 : IVec ⟨1, ![1024]⟩ 32) :
    preReadout a0 a3 a4 a5 a6 a12 = refReadout a0 a3 a4 a5 a6 a12 := rfl

end Cert.PrefixAgree

end
-- ==== Proof.RefScores.lean ====
/-
  The reference's all-pairs scores: the composed pure operations of the reference program's score chain, as one term
  over its six operands, for any float instance. The operands are the two first-layer projections `A`, `B`
  (`[1024, 128]`), the array `lv` (`[128, 1024]`), the hidden bias `b2`, the second layer `W` and its bias `bf`.

  The chain: `A` is laid along axis 1 and `B` along axis 0 of a `[1024, 1024, 128]` array, they are added, the bias is
  added along the last axis, the sum is rectified, contracted with `W` over the last axis, and the output bias is added;
  the result is multiplied, channel by channel, by the `[1024, 1024]` product of `lv` transposed with `lv`.
  `refScores` is the whole chain as one term; `refHidden` and `refGram` name its two inner arrays, and
  `refScores_split` says the chain is built from them.
-/
import proofs.«101599_j23914377904744_1_alg».proof.ReferenceIdeal

noncomputable section

namespace Cert.RefScores

open Idealize.ShloMosaic Cert.ReferenceIdeal Cert.ReferenceIdeal.Facts₀

variable {F : FTy → Type} [FloatOps F] [Cert.ReferenceIdeal.Facts₀]

/-- The reference's scores: the rectified hidden layer of every pair contracted with `W`, plus `bf`, times the inner
    products of the columns of `lv` laid along the three channels. -/
def refScores (A B : FVec F S1024x128 .f32) (lv : FVec F S128x1024 .f32) (b2 : FVec F S128 .f32)
    (W : FVec F S128x3 .f32) (bf : FVec F S3 .f32) : FVec F S1024x1024x3 .f32 :=
  mulf
    (addf
      (Host.dotGeneral dot_S1024x1024x128_S128x3_S1024x1024x3_2_0_01_1_n_n none
        (maximumf
          (addf
            (addf
              (broadcastInDim S1024x1024x128 ![0, 1, 2] bcast_S1024x1x128_S1024x1024x128_0_1_2
                (broadcastInDim S1024x1x128 ![0, 2] bcast_S1024x128_S1024x1x128_0_2 A))
              (broadcastInDim S1024x1024x128 ![0, 1, 2] bcast_S1x1024x128_S1024x1024x128_0_1_2
                (broadcastInDim S1x1024x128 ![1, 2] bcast_S1024x128_S1x1024x128_1_2 B)))
            (broadcastInDim S1024x1024x128 ![0, 1, 2] bcast_S1x1x128_S1024x1024x128_0_1_2
              (broadcastInDim S1x1x128 ![2] bcast_S128_S1x1x128_2 b2)))
          (broadcastInDim S1024x1024x128 ![] bcast_S_S1024x1024x128 (constant S_ .f32 0x00000000#32)))
        W)
      (broadcastInDim S1024x1024x3 ![0, 1, 2] bcast_S1x1x3_S1024x1024x3_0_1_2
        (broadcastInDim S1x1x3 ![2] bcast_S3_S1x1x3_2 bf)))
    (broadcastInDim S1024x1024x3 ![0, 1, 2] bcast_S1024x1024x1_S1024x1024x3_0_1_2
      (broadcastInDim S1024x1024x1 ![0, 1] bcast_S1024x1024_S1024x1024x1_0_1
        (Host.dotGeneral dot_S1024x128_S128x1024_S1024x1024_1_0_0_1_n_n none
          (transpose S1024x128 [1, 0] lv transposes_S128x1024_S1024x128_1_0) lv)))

/-- The rectified hidden layer of every pair: `max ((A (p, ·) + B (q, ·)) + b2, 0)` as a `[1024, 1024, 128]` array. -/
def refHidden (A B : FVec F S1024x128 .f32) (b2 : FVec F S128 .f32) : FVec F S1024x1024x128 .f32 :=
  maximumf
    (addf
      (addf
        (broadcastInDim S1024x1024x128 ![0, 1, 2] bcast_S1024x1x128_S1024x1024x128_0_1_2
          (broadcastInDim S1024x1x128 ![0, 2] bcast_S1024x128_S1024x1x128_0_2 A))
        (broadcastInDim S1024x1024x128 ![0, 1, 2] bcast_S1x1024x128_S1024x1024x128_0_1_2
          (broadcastInDim S1x1024x128 ![1, 2] bcast_S1024x128_S1x1024x128_1_2 B)))
      (broadcastInDim S1024x1024x128 ![0, 1, 2] bcast_S1x1x128_S1024x1024x128_0_1_2
        (broadcastInDim S1x1x128 ![2] bcast_S128_S1x1x128_2 b2)))
    (broadcastInDim S1024x1024x128 ![] bcast_S_S1024x1024x128 (constant S_ .f32 0x00000000#32))

/-- The `[1024, 1024]` array of inner products of the columns of `lv`, laid along three channels. -/
def refGram (lv : FVec F S128x1024 .f32) : FVec F S1024x1024x3 .f32 :=
  broadcastInDim S1024x1024x3 ![0, 1, 2] bcast_S1024x1024x1_S1024x1024x3_0_1_2
    (broadcastInDim S1024x1024x1 ![0, 1] bcast_S1024x1024_S1024x1024x1_0_1
      (Host.dotGeneral dot_S1024x128_S128x1024_S1024x1024_1_0_0_1_n_n none
        (transpose S1024x128 [1, 0] lv transposes_S128x1024_S1024x128_1_0) lv))

/-- The chain is the hidden layer contracted with `W`, plus `bf`, times the inner products. -/
theorem refScores_split (A B : FVec F S1024x128 .f32) (lv : FVec F S128x1024 .f32) (b2 : FVec F S128 .f32)
    (W : FVec F S128x3 .f32) (bf : FVec F S3 .f32) :
    refScores A B lv b2 W bf
      = mulf
          (addf
            (Host.dotGeneral dot_S1024x1024x128_S128x3_S1024x1024x3_2_0_01_1_n_n none (refHidden A B b2) W)
            (broadcastInDim S1024x1024x3 ![0, 1, 2] bcast_S1x1x3_S1024x1024x3_0_1_2
              (broadcastInDim S1x1x3 ![2] bcast_S3_S1x1x3_2 bf)))
          (refGram lv) := rfl

end Cert.RefScores

end
-- ==== Proof.RefLayout.lean ====
/-
  The reference's broadcasts read at coordinates: each lemma says which ONE element of its operand a pair of
  `broadcast_in_dim`s (first to a shape with unit axes, then to the full shape) reads at `(p, q, ·)`.
  Rows `p` run along axis 0 and rows `q` along axis 1 of the `[1024, 1024, ·]` arrays of pairs.
-/
import Idealize.ShloMosaic.Lib.Pipeline.Value
import Idealize.ShloMosaic.Lib.ValueIdx

namespace Cert.RefLayout

open Idealize.ShloMosaic Idealize.ShloMosaic.ValueIdx

variable {α : Type}

/-- A `[1024, 128]` array laid along axis 1: at `(p, q, h)` it reads row `p` at `h`. -/
theorem alongAxis1_apply (x : (⟨2, ![1024, 128]⟩ : Shape).Idx → α)
    (h1 : (⟨2, ![1024, 128]⟩ : Shape).BroadcastsInDim ⟨3, ![1024, 1, 128]⟩ ![0, 2])
    (h2 : (⟨3, ![1024, 1, 128]⟩ : Shape).BroadcastsInDim ⟨3, ![1024, 1024, 128]⟩ ![0, 1, 2])
    (p q : Fin 1024) (h : Fin 128) :
    broadcastInDim ⟨3, ![1024, 1024, 128]⟩ ![0, 1, 2] h2 (broadcastInDim ⟨3, ![1024, 1, 128]⟩ ![0, 2] h1 x) (ix3 p q h)
      = x (ix2 p h) := by
  refine (broadcastInDim_apply _ h2 _ (ix3 p q h) (ix3 p (0 : Fin 1) h) fun a => ?_).trans
    (broadcastInDim_apply _ h1 x (ix3 p (0 : Fin 1) h) (ix2 p h) fun a => ?_)
  · match a with
    | ⟨0, _⟩ => rfl
    | ⟨1, _⟩ => rfl
    | ⟨2, _⟩ => rfl
  · match a with
    | ⟨0, _⟩ => rfl
    | ⟨1, _⟩ => rfl

/-- A `[1024, 128]` array laid along axis 0: at `(p, q, h)` it reads row `q` at `h`. -/
theorem alongAxis0_apply (x : (⟨2, ![1024, 128]⟩ : Shape).Idx → α)
    (h1 : (⟨2, ![1024, 128]⟩ : Shape).BroadcastsInDim ⟨3, ![1, 1024, 128]⟩ ![1, 2])
    (h2 : (⟨3, ![1, 1024, 128]⟩ : Shape).BroadcastsInDim ⟨3, ![1024, 1024, 128]⟩ ![0, 1, 2])
    (p q : Fin 1024) (h : Fin 128) :
    broadcastInDim ⟨3, ![1024, 1024, 128]⟩ ![0, 1, 2] h2 (broadcastInDim ⟨3, ![1, 1024, 128]⟩ ![1, 2] h1 x) (ix3 p q h)
      = x (ix2 q h) := by
  refine (broadcastInDim_apply _ h2 _ (ix3 p q h) (ix3 (0 : Fin 1) q h) fun a => ?_).trans
    (broadcastInDim_apply _ h1 x (ix3 (0 : Fin 1) q h) (ix2 q h) fun a => ?_)
  · match a with
    | ⟨0, _⟩ => rfl
    | ⟨1, _⟩ => rfl
    | ⟨2, _⟩ => rfl
  · match a with
    | ⟨0, _⟩ => rfl
    | ⟨1, _⟩ => rfl

/-- A vector of `n` entries laid along the last axis of all pairs: at `(p, q, h)` it reads entry `h`. -/
theorem lastAxis_apply {n : Nat} (x : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![1024, 1024, n]⟩ ![0, 1, 2])
    (p q : Fin 1024) (h : Fin n) :
    broadcastInDim ⟨3, ![1024, 1024, n]⟩ ![0, 1, 2] h2 (broadcastInDim ⟨3, ![1, 1, n]⟩ ![2] h1 x) (ix3 p q h)
      = x (ix1 h) := by
  refine (broadcastInDim_apply _ h2 _ (ix3 p q h) (ix3 (0 : Fin 1) (0 : Fin 1) h) fun a => ?_).trans
    (broadcastInDim_apply _ h1 x (ix3 (0 : Fin 1) (0 : Fin 1) h) (ix1 h) fun a => ?_)
  · match a with
    | ⟨0, _⟩ => rfl
    | ⟨1, _⟩ => rfl
    | ⟨2, _⟩ =>
      show h.val = if n = 1 then 0 else h.val
      split
      · have := h.isLt; omega
      · rfl
  · match a with
    | ⟨0, _⟩ =>
      show h.val = if n = 1 then 0 else h.val
      split
      · have := h.isLt; omega
      · rfl

/-- A `[1024, 1024]` array of pairs given a unit last axis and laid along three channels: at `(p, q, k)` it reads the
    pair `(p, q)`. -/
theorem channels_apply (x : (⟨2, ![1024, 1024]⟩ : Shape).Idx → α)
    (h1 : (⟨2, ![1024, 1024]⟩ : Shape).BroadcastsInDim ⟨3, ![1024, 1024, 1]⟩ ![0, 1])
    (h2 : (⟨3, ![1024, 1024, 1]⟩ : Shape).BroadcastsInDim ⟨3, ![1024, 1024, 3]⟩ ![0, 1, 2])
    (p q : Fin 1024) (k : Fin 3) :
    broadcastInDim ⟨3, ![1024, 1024, 3]⟩ ![0, 1, 2] h2 (broadcastInDim ⟨3, ![1024, 1024, 1]⟩ ![0, 1] h1 x) (ix3 p q k)
      = x (ix2 p q) := by
  refine (broadcastInDim_apply _ h2 _ (ix3 p q k) (ix3 p q (0 : Fin 1)) fun a => ?_).trans
    (broadcastInDim_apply _ h1 x (ix3 p q (0 : Fin 1)) (ix2 p q) fun a => ?_)
  · match a with
    | ⟨0, _⟩ => rfl
    | ⟨1, _⟩ => rfl
    | ⟨2, _⟩ => rfl
  · match a with
    | ⟨0, _⟩ => rfl
    | ⟨1, _⟩ => rfl

end Cert.RefLayout
-- ==== Proof.RefScoresValue.lean ====
/-
  The reference's score chain, read at the ideal values, IS the all-pairs score function: at every `(p, q, k)`

    refScores (p, q, k) = ( Σ_h max ((A (p, h) + B (q, h)) + b2 h, 0) · W (h, k) + bf k ) · ( Σ_b lv (b, p) · lv (b, q) ).

  Each broadcast reads one element of its operand, the rectifier's zero splat reads the zero word, the product over the
  last axis is a sum over `h`, and the product of `lv` transposed with `lv` is a sum over `b` of two entries of `lv`.
  The two sides are then the same expression: nothing is reassociated.
-/
import proofs.«101599_j23914377904744_1_alg».proof.Proof.RefScores
import proofs.«101599_j23914377904744_1_alg».proof.Proof.PairScores
import proofs.«101599_j23914377904744_1_alg».proof.Proof.RefLayout
import proofs.«101599_j23914377904744_1_alg».proof.Proof.Contractions
import Idealize.ShloMosaic.Lib.ValueLayout

open scoped BigOperators

namespace Cert.RefScores

open Idealize.ShloMosaic Idealize.ShloMosaic.ValueIdx Cert.ReferenceIdeal Cert.ReferenceIdeal.Facts₀ Cert.Contractions

variable [Cert.ReferenceIdeal.Facts₀]

/-- The rectified hidden layer at `(p, q, h)`. -/
theorem refHidden_apply (A B : FVec Ideal S1024x128 .f32) (b2 : FVec Ideal S128 .f32) (p q : Fin 1024) (h : Fin 128) :
    refHidden (F := Ideal) A B b2 (ix3 p q h)
      = max ((A (ix2 p h) + B (ix2 q h)) + b2 (ix1 h)) (Ideal.ofBits .f32 0x00000000#32) := by
  unfold refHidden
  refine (maximumf_apply _ _ _).trans (congrArg₂ max ?_ rfl)
  refine (addf_apply _ _ _).trans (congrArg₂ (· + ·) ?_ ?_)
  · refine (addf_apply _ _ _).trans (congrArg₂ (· + ·) ?_ ?_)
    · exact Cert.RefLayout.alongAxis1_apply A _ _ p q h
    · exact Cert.RefLayout.alongAxis0_apply B _ _ p q h
  · exact Cert.RefLayout.lastAxis_apply b2 _ _ p q h

/-- The inner products of the columns of `lv`, at `(p, q, k)`. -/
theorem refGram_apply (lv : FVec Ideal S128x1024 .f32) (p q : Fin 1024) (k : Fin 3) :
    refGram (F := Ideal) lv (ix3 p q k) = ∑ b : Fin 128, lv (ix2 b p) * lv (ix2 b q) := by
  unfold refGram
  refine (Cert.RefLayout.channels_apply _ _ _ p q k).trans ?_
  refine (hostPlain_apply dot_S1024x128_S128x1024_S1024x1024_1_0_0_1_n_n rfl none _ _ p q).trans ?_
  refine Finset.sum_congr rfl fun b _ => congrArg₂ (· * ·) ?_ rfl
  exact transpose_ix2_apply lv _ p b

/-- The reference's scores are the all-pairs score function. -/
theorem refScores_eq_pairScores (A B : FVec Ideal S1024x128 .f32) (lv : FVec Ideal S128x1024 .f32)
    (b2 : FVec Ideal S128 .f32) (W : FVec Ideal S128x3 .f32) (bf : FVec Ideal S3 .f32) :
    refScores (F := Ideal) A B lv b2 W bf = Cert.PairScores.pairScores A B lv b2 W bf := by
  funext i
  obtain ⟨p, q, k, rfl⟩ : ∃ (p q : Fin 1024) (k : Fin 3), i = ix3 p q k := ⟨i 0, i 1, i 2, eq_ix3 i⟩
  rw [refScores_split, Cert.PairScores.pairScores_apply]
  unfold Cert.PairScores.pairAt
  refine (mulf_apply _ _ _).trans (congrArg₂ (· * ·) ?_ (refGram_apply lv p q k))
  refine (addf_apply _ _ _).trans (congrArg₂ (· + ·) ?_ ?_)
  · refine (hostLastAxis_apply dot_S1024x1024x128_S128x3_S1024x1024x3_2_0_01_1_n_n_wf none _ W p q k).trans ?_
    exact Finset.sum_congr rfl fun h _ => congrArg₂ (· * ·) (refHidden_apply A B b2 p q h) rfl
  · exact Cert.RefLayout.lastAxis_apply bf _ _ p q k

end Cert.RefScores
-- ==== Proof.KernelTail.lean ====
/- The kernel program's host operations after the region, read back: from any contents `W`, the fold of the sixteen
   stretches leaves the probabilities at the reference's gather-and-softmax tail of the flattened scores. The two programs
   spell the same 174 operations over their own buffers and their own copies of the dimension records; the fold is read
   off window by window at the buffers that outlive a window, each at the reference's named term. -/
import proofs.«101599_j23914377904744_1_alg».proof.Proof.Gen.KernelIdeal.Launch
import proofs.«101599_j23914377904744_1_alg».proof.Proof.RefVals

set_option Elab.async false

noncomputable section

namespace Cert.KernelIdeal.HandTail

open Cert.KernelIdeal Cert.KernelIdeal.Gen Idealize.ShloMosaic Idealize.ShloMosaic.TcCoe Idealize.SL.Sem Idealize.ShloMosaic.StableHlo Idealize.ShloMosaic.Pipeline

variable {F : FTy → Type} [FloatOps F]

/-- The contents after the host operations' stretches hostOps1 … hostOps1, from contents `W`. -/
def kv0 (W : Valuation τ sig (Elt F)) : Valuation τ sig (Elt F) := after hostOps1 W
set_option maxRecDepth 8192 in
set_option maxHeartbeats 4000000 in
theorem kv0_main_v21 (W : Valuation τ sig (Elt F)) : kv0 W (no_index (Proc.devRef .tc main_v21)) = (shapeCast Cert.ReferenceIdeal.S3145728 (W (Proc.devRef .tc main_v20)) shapeCasts_S1024x1024x3_S3145728) := by
  unfold kv0
  simp only [hostOps1]
  after_results_simp
  chain_rfl
set_option maxRecDepth 8192 in
set_option maxHeartbeats 4000000 in
theorem kv0_main_arg13 (W : Valuation τ sig (Elt F)) : kv0 W (no_index (Proc.devRef .tc main_arg13)) = W (Proc.devRef .tc main_arg13) := by
  unfold kv0
  simp only [hostOps1]
  after_results_simp
set_option maxRecDepth 8192 in
set_option maxHeartbeats 4000000 in
theorem kv0_main_arg11 (W : Valuation τ sig (Elt F)) : kv0 W (no_index (Proc.devRef .tc main_arg11)) = W (Proc.devRef .tc main_arg11) := by
  unfold kv0
  simp only [hostOps1]
  after_results_simp
set_option maxRecDepth 8192 in
set_option maxHeartbeats 4000000 in
theorem kv0_main_arg2 (W : Valuation τ sig (Elt F)) : kv0 W (no_index (Proc.devRef .tc main_arg2)) = W (Proc.devRef .tc main_arg2) := by
  unfold kv0
  simp only [hostOps1]
  after_results_simp

/-- The contents after the host operations' stretches hostOps1_1 … hostOps1_5 (and the earlier ones), from contents `W`. -/
def kv1 (W : Valuation τ sig (Elt F)) : Valuation τ sig (Elt F) := after hostOps1_5 (after hostOps1_4 (after hostOps1_3 (after hostOps1_2 (after hostOps1_1 (kv0 W)))))
set_option maxRecDepth 8192 in
set_option maxHeartbeats 4000000 in
theorem kv1_main_v33 (W : Valuation τ sig (Elt F)) : kv1 W (no_index (Proc.devRef .tc main_v33)) = Cert.ReferenceIdeal.HandRun.c_v47 (W (Proc.devRef .tc main_arg13)) := by
  unfold kv1
  simp only [hostOps1_1, hostOps1_2, hostOps1_3, hostOps1_4, hostOps1_5]
  after_results_simp
  (try simp only [kv0_main_arg13]) <;> chain_rfl
set_option maxRecDepth 8192 in
set_option maxHeartbeats 4000000 in
theorem kv1_main_v25 (W : Valuation τ sig (Elt F)) : kv1 W (no_index (Proc.devRef .tc main_v25)) = Cert.ReferenceIdeal.HandRun.c_v39 (F := F) := by
  unfold kv1
  simp only [hostOps1_1, hostOps1_2, hostOps1_3, hostOps1_4, hostOps1_5]
  after_results_simp
  (try simp only [kv0_main_arg13]) <;> chain_rfl
set_option maxRecDepth 8192 in
set_option maxHeartbeats 4000000 in
theorem kv1_main_v26 (W : Valuation τ sig (Elt F)) : kv1 W (no_index (Proc.devRef .tc main_v26)) = Cert.ReferenceIdeal.HandRun.c_v40 (W (Proc.devRef .tc main_arg13)) := by
  unfold kv1
  simp only [hostOps1_1, hostOps1_2, hostOps1_3, hostOps1_4, hostOps1_5]
  after_results_simp
  (try simp only [kv0_main_arg13]) <;> chain_rfl
set_option maxRecDepth 8192 in
set_option maxHeartbeats 4000000 in
theorem kv1_main_v27 (W : Valuation τ sig (Elt F)) : kv1 W (no_index (Proc.devRef .tc main_v27)) = Cert.ReferenceIdeal.HandRun.c_v41 (W (Proc.devRef .tc main_arg13)) := by
  unfold kv1
  simp only [hostOps1_1, hostOps1_2, hostOps1_3, hostOps1_4, hostOps1_5]
  after_results_simp
  (try simp only [kv0_main_arg13]) <;> chain_rfl
set_option maxRecDepth 8192 in
set_option maxHeartbeats 4000000 in
theorem kv1_main_v30 (W : Valuation τ sig (Elt F)) : kv1 W (no_index (Proc.devRef .tc main_v30)) = Cert.ReferenceIdeal.HandRun.c_v44 (W (Proc.devRef .tc main_arg13)) := by
  unfold kv1
  simp only [hostOps1_1, hostOps1_2, hostOps1_3, hostOps1_4, hostOps1_5]
  after_results_simp
  (try simp only [kv0_main_arg13]) <;> chain_rfl
set_option maxRecDepth 8192 in
set_option maxHeartbeats 4000000 in
theorem kv1_main_v21 (W : Valuation τ sig (Elt F)) : kv1 W (no_index (Proc.devRef .tc main_v21)) = (shapeCast Cert.ReferenceIdeal.S3145728 (W (Proc.devRef .tc main_v20)) shapeCasts_S1024x1024x3_S3145728) := by
  unfold kv1
  simp only [hostOps1_1, hostOps1_2, hostOps1_3, hostOps1_4, hostOps1_5]
  after_results_simp
  exact kv0_main_v21 W
set_option maxRecDepth 8192 in
set_option maxHeartbeats 4000000 in
theorem kv1_main_arg11 (W : Valuation τ sig (Elt F)) : kv1 W (no_index (Proc.devRef .tc main_arg11)) = W (Proc.devRef .tc main_arg11) := by
  unfold kv1
  simp only [hostOps1_1, hostOps1_2, hostOps1_3, hostOps1_4, hostOps1_5]
  after_results_simp
  exact kv0_main_arg11 W
set_option maxRecDepth 8192 in
set_option maxHeartbeats 4000000 in
theorem kv1_main_arg2 (W : Valuation τ sig (Elt F)) : kv1 W (no_index (Proc.devRef .tc main_arg2)) = W (Proc.devRef .tc main_arg2) := by
  unfold kv1
  simp only [hostOps1_1, hostOps1_2, hostOps1_3, hostOps1_4, hostOps1_5]
  after_results_simp
  exact kv0_main_arg2 W

/-- The contents after the host operations' stretches hostOps1_6 … hostOps1_9 (and the earlier ones), from contents `W`. -/
def kv2 (W : Valuation τ sig (Elt F)) : Valuation τ sig (Elt F) := after hostOps1_9 (after hostOps1_8 (after hostOps1_7 (after hostOps1_6 (kv1 W))))
set_option maxRecDepth 8192 in
set_option maxHeartbeats 4000000 in
theorem kv2_main_v26 (W : Valuation τ sig (Elt F)) : kv2 W (no_index (Proc.devRef .tc main_v26)) = Cert.ReferenceIdeal.HandRun.c_v40 (W (Proc.devRef .tc main_arg13)) := by
  unfold kv2
  simp only [hostOps1_6, hostOps1_7, hostOps1_8, hostOps1_9]
  after_results_simp
  exact kv1_main_v26 W
set_option maxRecDepth 8192 in
set_option maxHeartbeats 4000000 in
theorem kv2_main_v25 (W : Valuation τ sig (Elt F)) : kv2 W (no_index (Proc.devRef .tc main_v25)) = Cert.ReferenceIdeal.HandRun.c_v39 (F := F) := by
  unfold kv2
  simp only [hostOps1_6, hostOps1_7, hostOps1_8, hostOps1_9]
  after_results_simp
  exact kv1_main_v25 W
set_option maxRecDepth 8192 in
set_option maxHeartbeats 4000000 in
theorem kv2_main_v27 (W : Valuation τ sig (Elt F)) : kv2 W (no_index (Proc.devRef .tc main_v27)) = Cert.ReferenceIdeal.HandRun.c_v41 (W (Proc.devRef .tc main_arg13)) := by
  unfold kv2
  simp only [hostOps1_6, hostOps1_7, hostOps1_8, hostOps1_9]
  after_results_simp
  exact kv1_main_v27 W
set_option maxRecDepth 8192 in
set_option maxHeartbeats 4000000 in
theorem kv2_main_v30 (W : Valuation τ sig (Elt F)) : kv2 W (no_index (Proc.devRef .tc main_v30)) = Cert.ReferenceIdeal.HandRun.c_v44 (W (Proc.devRef .tc main_arg13)) := by
  unfold kv2
  simp only [hostOps1_6, hostOps1_7, hostOps1_8, hostOps1_9]
  after_results_simp
  exact kv1_main_v30 W
set_option maxRecDepth 8192 in
set_option maxHeartbeats 4000000 in
theorem kv2_main_v34 (W : Valuation τ sig (Elt F)) : kv2 W (no_index (Proc.devRef .tc main_v34)) = Cert.ReferenceIdeal.HandRun.c_v48 (W (Proc.devRef .tc main_arg13)) := by
  unfold kv2
  simp only [hostOps1_6, hostOps1_7, hostOps1_8, hostOps1_9]
  after_results_simp
  (try simp only [kv1_main_v33, kv1_main_v25]) <;> chain_rfl
set_option maxRecDepth 8192 in
set_option maxHeartbeats 4000000 in
theorem kv2_main_v35 (W : Valuation τ sig (Elt F)) : kv2 W (no_index (Proc.devRef .tc main_v35)) = Cert.ReferenceIdeal.HandRun.c_v49 (F := F) := by
  unfold kv2
  simp only [hostOps1_6, hostOps1_7, hostOps1_8, hostOps1_9]
  after_results_simp
  (try simp only [kv1_main_v33, kv1_main_v25]) <;> chain_rfl
set_option maxRecDepth 8192 in
set_option maxHeartbeats 4000000 in
theorem kv2_main_v21 (W : Valuation τ sig (Elt F)) : kv2 W (no_index (Proc.devRef .tc main_v21)) = (shapeCast Cert.ReferenceIdeal.S3145728 (W (Proc.devRef .tc main_v20)) shapeCasts_S1024x1024x3_S3145728) := by
  unfold kv2
  simp only [hostOps1_6, hostOps1_7, hostOps1_8, hostOps1_9]
  after_results_simp
  exact kv1_main_v21 W
set_option maxRecDepth 8192 in
set_option maxHeartbeats 4000000 in
theorem kv2_main_arg11 (W : Valuation τ sig (Elt F)) : kv2 W (no_index (Proc.devRef .tc main_arg11)) = W (Proc.devRef .tc main_arg11) := by
  unfold kv2
  simp only [hostOps1_6, hostOps1_7, hostOps1_8, hostOps1_9]
  after_results_simp
  exact kv1_main_arg11 W
set_option maxRecDepth 8192 in
set_option maxHeartbeats 4000000 in
theorem kv2_main_arg2 (W : Valuation τ sig (Elt F)) : kv2 W (no_index (Proc.devRef .tc main_arg2)) = W (Proc.devRef .tc main_arg2) := by
  unfold kv2
  simp only [hostOps1_6, hostOps1_7, hostOps1_8, hostOps1_9]
  after_results_simp
  exact kv1_main_arg2 W

/-- The contents after the host operations' stretches hostOps1_10 … hostOps1_13 (and the earlier ones), from contents `W`. -/
def kv3 (W : Valuation τ sig (Elt F)) : Valuation τ sig (Elt F) := after hostOps1_13 (after hostOps1_12 (after hostOps1_11 (after hostOps1_10 (kv2 W))))
set_option maxRecDepth 8192 in
set_option maxHeartbeats 4000000 in
theorem kv3_main_v61 (W : Valuation τ sig (Elt F)) : kv3 W (no_index (Proc.devRef .tc main_v61)) = Cert.ReferenceIdeal.HandRun.c_v75 (shapeCast Cert.ReferenceIdeal.S3145728 (W (Proc.devRef .tc main_v20)) shapeCasts_S1024x1024x3_S3145728) (W (Proc.devRef .tc main_arg13)) := by
  unfold kv3
  simp only [hostOps1_10, hostOps1_11, hostOps1_12, hostOps1_13]
  after_results_simp
  (try simp only [kv2_main_v26, kv2_main_v25, kv2_main_v27, kv2_main_v30, kv2_main_v34, kv2_main_v35, kv2_main_v21]) <;> chain_rfl
set_option maxRecDepth 8192 in
set_option maxHeartbeats 4000000 in
theorem kv3_main_arg11 (W : Valuation τ sig (Elt F)) : kv3 W (no_index (Proc.devRef .tc main_arg11)) = W (Proc.devRef .tc main_arg11) := by
  unfold kv3
  simp only [hostOps1_10, hostOps1_11, hostOps1_12, hostOps1_13]
  after_results_simp
  exact kv2_main_arg11 W
set_option maxRecDepth 8192 in
set_option maxHeartbeats 4000000 in
theorem kv3_main_arg2 (W : Valuation τ sig (Elt F)) : kv3 W (no_index (Proc.devRef .tc main_arg2)) = W (Proc.devRef .tc main_arg2) := by
  unfold kv3
  simp only [hostOps1_10, hostOps1_11, hostOps1_12, hostOps1_13]
  after_results_simp
  exact kv2_main_arg2 W

/-- The contents after the host operations' stretches hostOps1_14 … hostOps1_15 (and the earlier ones), from contents `W`. -/
def kv4 (W : Valuation τ sig (Elt F)) : Valuation τ sig (Elt F) := after hostOps1_15 (after hostOps1_14 (kv3 W))
set_option maxRecDepth 8192 in
set_option maxHeartbeats 4000000 in
theorem kv4_main_v74 (W : Valuation τ sig (Elt F)) : kv4 W (no_index (Proc.devRef .tc main_v74)) = Cert.ReferenceIdeal.HandRun.tailFn (shapeCast Cert.ReferenceIdeal.S3145728 (W (Proc.devRef .tc main_v20)) shapeCasts_S1024x1024x3_S3145728) (W (Proc.devRef .tc main_arg13)) (W (Proc.devRef .tc main_arg11)) (W (Proc.devRef .tc main_arg2)) := by
  unfold kv4
  simp only [hostOps1_14, hostOps1_15]
  after_results_simp
  (try simp only [kv3_main_arg11, kv3_main_v61, kv3_main_arg2]) <;> chain_rfl

/-- From any contents, after the sixteen stretches of host operations that follow the region the probabilities are the
    reference's tail of the flattened scores. -/
theorem tail_probs (W : Valuation τ sig (Elt F)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) W (Proc.devRef .tc main_v74)
      = Cert.ReferenceIdeal.HandRun.tailFn (shapeCast Cert.ReferenceIdeal.S3145728 (W (Proc.devRef .tc main_v20)) shapeCasts_S1024x1024x3_S3145728) (W (Proc.devRef .tc main_arg13)) (W (Proc.devRef .tc main_arg11)) (W (Proc.devRef .tc main_arg2)) := by
  have h : StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]) W = kv4 W := by
    simp only [List.flatten_cons, List.flatten_nil, List.append_nil, after_append]
    rfl
  rw [h]
  exact kv4_main_v74 W

end Cert.KernelIdeal.HandTail

end
-- ==== Proof.PairClaims.lean ====
/-
  The five claims.

  Both programs compute, from the same fourteen arguments, a table of per-graph probabilities and a per-graph readout.
  They differ only in how the [1024, 1024, 3] array of masked pair scores is produced: the kernel writes it block by
  block over a 16 × 8 grid, the reference as whole-array host operations. At every entry (p, q, k) both are

      ( Σ_h max((A(p,h) + B(q,h)) + b(h), 0) · W(h,k) + β(k) ) · ( Σ_g L(g,p) · L(g,q) )

  with A and B the two node projections, b and β the biases, W the output weights and L the membership matrix: the
  kernel's block at grid point (i, j) restricted to rows 64·i + p and columns 128·j + q, the reference's chain of
  broadcasts, one contraction over h and one over g. Everything before the scores (the projections, the readout)
  and everything after them (flatten, gather the in-graph entries, permute, soft maximum by rows) is the same
  sequence of host operations in both programs, so it is carried as one function on each side and never opened.
  No step uses that the inputs are finite: sums are only regrouped.
-/
import proofs.«101599_j23914377904744_1_alg».proof.Defs
import proofs.«101599_j23914377904744_1_alg».proof.Proof.Gen.Pre_finite_inputs
import proofs.«101599_j23914377904744_1_alg».proof.Proof.PairFrame
import proofs.«101599_j23914377904744_1_alg».proof.Proof.KPairFrame
import proofs.«101599_j23914377904744_1_alg».proof.Proof.RefFrame
import proofs.«101599_j23914377904744_1_alg».proof.Proof.PairArray
import proofs.«101599_j23914377904744_1_alg».proof.Proof.PairPrefix
import proofs.«101599_j23914377904744_1_alg».proof.Proof.PrefixAgree
import proofs.«101599_j23914377904744_1_alg».proof.Proof.RefScoresValue
import proofs.«101599_j23914377904744_1_alg».proof.Proof.KernelTail

set_option maxRecDepth 16384

noncomputable section

namespace Cert.Proof.PairClaims

open Idealize.ShloMosaic Idealize.ShloMosaic.TcCoe Idealize.SL.Sem

/-! ## The frames and the idealization -/

theorem frame_k : Cert.frame_Kernel := fun m ρ _ => Cert.Kernel.Pair.frame (F := Bits) m ρ
theorem frame_ki : Cert.frame_KernelIdeal := fun m ρ _ => Cert.KernelIdeal.Pair.frame (F := Ideal) m ρ
theorem frame_ri : Cert.frame_ReferenceIdeal := Cert.ReferenceIdeal.HandRun.frame

/-- The ideal pass rewrote nothing: the idealized kernel is the kernel's own text read over the extended reals. -/
theorem preserves : Cert.preserves_Kernel_KernelIdeal := trivial

/-! ## The kernel's two results as the reference's functions of the arguments -/

section Values

variable (m : (ℓ : Loc Cert.KernelIdeal.nD Cert.KernelIdeal.τ Cert.KernelIdeal.sig) → Buf (Elt Ideal) ℓ) (c : Dev Cert.KernelIdeal.nD)

/-- The row projection the region reads is the reference's. -/
theorem entry_A : (Cert.KernelIdeal.Pair.V m c Cert.KernelIdeal.main_v14 : Cert.KernelIdeal.S1024x128.Idx → EReal) = Cert.ReferenceIdeal.HandRun.resA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) :=
  (Cert.KernelIdeal.PairArray.V_main_v14 m c).trans (Cert.PrefixAgree.preA_eq_refA _ _)

/-- The column projection likewise. -/
theorem entry_B : (Cert.KernelIdeal.Pair.V m c Cert.KernelIdeal.main_v16 : Cert.KernelIdeal.S1024x128.Idx → EReal) = Cert.ReferenceIdeal.HandRun.resB (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) :=
  (Cert.KernelIdeal.PairArray.V_main_v16 m c).trans (Cert.PrefixAgree.preB_eq_refB _ _)

/-- The readout the kernel's program leaves is the reference's function of the arguments. -/
theorem kernel_readout : (Cert.KernelIdeal.Pair.V m c Cert.KernelIdeal.main_v11 : Cert.KernelIdeal.S128x1.Idx → EReal)
    = Cert.ReferenceIdeal.HandRun.readoutFn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg12)) :=
  (Cert.KernelIdeal.PairArray.V_main_v11 m c).trans (Cert.PrefixAgree.preReadout_eq_refReadout _ _ _ _ _ _)

/-- After the last grid point the score array is the one function of the arguments, with the reference's projections. -/
theorem kernel_scores : ((Cert.KernelIdeal.Pair.dats m 0 c).arrAt 7 Cert.KernelIdeal.cfg0.N : Cert.KernelIdeal.S1024x1024x3.Idx → EReal)
    = Cert.PairScores.pairScores (Cert.ReferenceIdeal.HandRun.resA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (Cert.ReferenceIdeal.HandRun.resB (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.PairArray.scores_final m c, entry_A m c, entry_B m c]

/-- The reference's score array is the same function. -/
theorem ref_scores : Cert.ReferenceIdeal.HandRun.resScores (F := Ideal) (Cert.ReferenceIdeal.HandRun.resA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (Cert.ReferenceIdeal.HandRun.resB (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    = Cert.PairScores.pairScores (Cert.ReferenceIdeal.HandRun.resA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (Cert.ReferenceIdeal.HandRun.resB (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  Cert.RefScores.refScores_eq_pairScores _ _ _ _ _ _

/-- The probabilities the kernel's program leaves: the later host lines applied to the flattened score array. -/
theorem kernel_probs : (Cert.KernelIdeal.Pair.Wfin m c Cert.KernelIdeal.main_v74 : Cert.KernelIdeal.S128x243.Idx → EReal)
    = Cert.ReferenceIdeal.HandRun.tailFn (F := Ideal) (shapeCast Cert.ReferenceIdeal.S3145728 (Cert.ReferenceIdeal.HandRun.resScores (F := Ideal) (Cert.ReferenceIdeal.HandRun.resA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (Cert.ReferenceIdeal.HandRun.resB (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) Cert.ReferenceIdeal.Facts₀.shapeCasts_S1024x1024x3_S3145728) (m ((c.tc : Thread Cert.KernelIdeal.nD Cert.KernelIdeal.τ).loc Cert.KernelIdeal.main_arg13)) (m ((c.tc : Thread Cert.KernelIdeal.nD Cert.KernelIdeal.τ).loc Cert.KernelIdeal.main_arg11)) (m ((c.tc : Thread Cert.KernelIdeal.nD Cert.KernelIdeal.τ).loc Cert.KernelIdeal.main_arg2)) := by
  rw [ref_scores m c, ← kernel_scores m c]
  show StableHlo.after _ (Cert.KernelIdeal.Pair.Wexit m c) (Proc.devRef .tc Cert.KernelIdeal.main_v74) = _
  rw [Cert.KernelIdeal.HandTail.tail_probs (Cert.KernelIdeal.Pair.Wexit m c), Cert.KernelIdeal.Pair.Wexit_out m c,
    Cert.KernelIdeal.Pair.Wexit_of_ne m c Cert.KernelIdeal.main_arg13 (by decide), Cert.KernelIdeal.Pair.Wexit_of_ne m c Cert.KernelIdeal.main_arg11 (by decide), Cert.KernelIdeal.Pair.Wexit_of_ne m c Cert.KernelIdeal.main_arg2 (by decide),
    Cert.KernelIdeal.Pair.V_main_arg13 m c, Cert.KernelIdeal.Pair.V_main_arg11 m c, Cert.KernelIdeal.Pair.V_main_arg2 m c]

end Values

/-! ## The two idealized programs agree -/

theorem algebraic : Cert.algebraic_KernelIdeal_ReferenceIdeal := by
  intro m ρ m' ρ' _ hagree
  refine ⟨fun c => Cert.KernelIdeal.Pair.Wfin (F := Ideal) m c Cert.KernelIdeal.main_v74, fun c => Cert.KernelIdeal.Pair.V (F := Ideal) m c Cert.KernelIdeal.main_v11,
    Cert.KernelIdeal.Pair.run_full (F := Ideal) m ρ, ?_⟩
  refine (θ_run Cert.ReferenceIdeal.defs _ _).mono (fun _ h c => ?_) (Cert.ReferenceIdeal.HandRun.run (F := Ideal) m' ρ')
  obtain ⟨h0, h1, h2, h3, h4, h5, h6, h7, h8, h9, h10, h11, h12, h13⟩ := hagree c
  refine ⟨(h c).1.trans ?_, (h c).2.1.trans ?_, (h c).2.2⟩
  · rw [h0, h1, h2, h7, h8, h9, h10, h11, h13]
    exact (kernel_probs m c).symm
  · rw [h0, h3, h4, h5, h6, h12]
    exact (kernel_readout m c).symm

end Cert.Proof.PairClaims

end
-- ==== Proof.lean ====
/-
  The certificate's claim: the three frames, the idealization, and the agreement of the two idealized programs.

  Each program runs to the end without a fault and leaves its fourteen argument arrays as they were; the idealized
  kernel is the kernel's own text read over the extended reals; and the idealized kernel and the idealized reference,
  run from memories that agree on the arguments, end with the same probabilities and the same readout. The proofs
  are in Proof/PairClaims.lean and the modules under it; here they are put behind the witnesses of the side
  conditions the programs state.
-/
import proofs.«101599_j23914377904744_1_alg».proof.Defs
import proofs.«101599_j23914377904744_1_alg».proof.Proof.PairClaims
import proofs.«101599_j23914377904744_1_alg».proof.Proof.Gen.Kernel
import proofs.«101599_j23914377904744_1_alg».proof.Proof.Gen.KernelIdeal
import proofs.«101599_j23914377904744_1_alg».proof.Proof.Gen.ReferenceIdeal
import proofs.«101599_j23914377904744_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    PairClaims.frame_k, PairClaims.frame_ki, PairClaims.frame_ri, PairClaims.preserves, PairClaims.algebraic⟩

end Cert.Proof

end
